-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x192x64x64 : Shape := ⟨4, ![8, 192, 64, 64]⟩
abbrev S_ : Shape := ⟨0, ![]⟩

class Facts : Prop where
  bcast_S_S8x192x64x64 : S_.BroadcastsInDim S8x192x64x64 (![] : Fin 0 → Fin S8x192x64x64.rank)
  reducesTo_S8x192x64x64_S_d0_1_2_3 : S8x192x64x64.ReducesTo [0, 1, 2, 3] S_
  h_S_ : 0 < S_.numel

variable [Facts]

def fn {F : FTy → Type} [FloatOps F] (main_arg0 : FVec F S8x192x64x64 .f32) (main_arg1 : FVec F S8x192x64x64 .f32) : IVec S_ 1 :=
  let main_v0 : FVec F S8x192x64x64 .f32 := Host.absf main_arg0
  let main_cst : FVec F S_ .f32 := constant S_ .f32 0x7F800000#32
  let main_v1 : FVec F S8x192x64x64 .f32 := broadcastInDim S8x192x64x64 ![] bcast_S_S8x192x64x64 main_cst
  let main_v2 : IVec S8x192x64x64 1 := cmpf .olt main_v0 main_v1
  let main_c : IVec S_ 1 := constantI S_ 1 1#1
  let main_v3 : IVec S_ 1 := (fun x v => Host.reduce IntOp.andi x v reducesTo_S8x192x64x64_S_d0_1_2_3 h_S_) main_v2 main_c
  let main_v4 : FVec F S8x192x64x64 .f32 := Host.absf main_arg1
  let main_cst_0 : FVec F S_ .f32 := constant S_ .f32 0x7F800000#32
  let main_v5 : FVec F S8x192x64x64 .f32 := broadcastInDim S8x192x64x64 ![] bcast_S_S8x192x64x64 main_cst_0
  let main_v6 : IVec S8x192x64x64 1 := cmpf .olt main_v4 main_v5
  let main_c_1 : IVec S_ 1 := constantI S_ 1 1#1
  let main_v7 : IVec S_ 1 := (fun x v => Host.reduce IntOp.andi x v reducesTo_S8x192x64x64_S_d0_1_2_3 h_S_) main_v6 main_c_1
  let main_v8 : IVec S_ 1 := andi main_v3 main_v7
  main_v8
-- ==== Kernel.lean ====
abbrev S8x192x64x64 : Shape := ⟨4, ![8, 192, 64, 64]⟩
abbrev S8x96x2x64x64 : Shape := ⟨5, ![8, 96, 2, 64, 64]⟩
abbrev S6x2x64x64 : Shape := ⟨4, ![6, 2, 64, 64]⟩
abbrev S6 : Shape := ⟨1, ![6]⟩
abbrev S1x1x64x64 : Shape := ⟨4, ![1, 1, 64, 64]⟩
abbrev S64x64 : Shape := ⟨2, ![64, 64]⟩
abbrev S1x1x1x64x64 : Shape := ⟨5, ![1, 1, 1, 64, 64]⟩
abbrev S1 : Shape := ⟨1, ![1]⟩
abbrev S_ : Shape := ⟨0, ![]⟩
abbrev S1x2x64x64 : Shape := ⟨4, ![1, 2, 64, 64]⟩
abbrev S2x64x64 : Shape := ⟨3, ![2, 64, 64]⟩
abbrev S1x16x1x64x64 : Shape := ⟨5, ![1, 16, 1, 64, 64]⟩
abbrev S1x32x64x64 : Shape := ⟨4, ![1, 32, 64, 64]⟩
abbrev S1x16x2x64x64 : Shape := ⟨5, ![1, 16, 2, 64, 64]⟩

abbrev nBuf : Table → Nat
  | .hbm => 6
  | .local .tc .vmem => 6
  | .local .scVector .vmem => 1
  | _ => 0

abbrev bufTy : (tb : Table) → Fin (nBuf tb) → BufTy
  | .hbm, ⟨0, _⟩ => ⟨S8x192x64x64, .f32⟩
  | .hbm, ⟨1, _⟩ => ⟨S8x192x64x64, .f32⟩
  | .hbm, ⟨2, _⟩ => ⟨S8x96x2x64x64, .f32⟩
  | .hbm, ⟨3, _⟩ => ⟨S8x96x2x64x64, .f32⟩
  | .hbm, ⟨4, _⟩ => ⟨S8x192x64x64, .f32⟩
  | .hbm, ⟨5, _⟩ => ⟨S8x192x64x64, .f32⟩
  | .local .tc .vmem, ⟨0, _⟩ => ⟨S1x16x1x64x64, .f32⟩
  | .local .tc .vmem, ⟨1, _⟩ => ⟨S1x16x1x64x64, .f32⟩
  | .local .tc .vmem, ⟨2, _⟩ => ⟨S1x16x1x64x64, .f32⟩
  | .local .tc .vmem, ⟨3, _⟩ => ⟨S1x16x1x64x64, .f32⟩
  | .local .tc .vmem, ⟨4, _⟩ => ⟨S1x32x64x64, .f32⟩
  | .local .tc .vmem, ⟨5, _⟩ => ⟨S1x32x64x64, .f32⟩
  | .local .scVector .vmem, ⟨0, _⟩ => ⟨S6x2x64x64, .f32⟩
  | _, _ => ⟨S8x192x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let v30 : BitVec 32 := Scalar.addi v29 c0_i32_10
  let c0_i32_11 : BitVec 32 := 0#32
  let c0_i32_17 : BitVec 32 := 0#32
  let c0_i32_18 : BitVec 32 := 0#32
  ![v18.toNat, v30.toNat, 0, 0, 0]
def k0_off2 (i : grid0.Coords) (c0_i32_10 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let v30 : BitVec 32 := Scalar.addi v29 c0_i32_10
  let c1_i32_23 : BitVec 32 := 1#32
  let c0_i32_29 : BitVec 32 := 0#32
  let c0_i32_30 : BitVec 32 := 0#32
  ![v18.toNat, v30.toNat, 1, 0, 0]
def k0_off3 (i : grid0.Coords) (c0_i32_183 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_184 : BitVec 32 := 2#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let v177 : BitVec 32 := Scalar.addi v29 c0_i32_183
  let v178 : BitVec 32 := Scalar.muli c2_i32_184 v177
  let c0_i32_190 : BitVec 32 := 0#32
  let c0_i32_191 : BitVec 32 := 0#32
  ![v18.toNat, v178.toNat, 0, 0]
abbrev grid1 : Pipeline.Grid := ⟨2, ![8, 6], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, arg1.toNat, c1_i32.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x192x64x64_S8x96x2x64x64 : S8x192x64x64.ShapeCasts S8x96x2x64x64
  inb_S6x2x64x64_S1x1x64x64_0_0_0_0 : ∀ a, (![0, 0, 0, 0] : Fin 4 → Nat) a + S1x1x64x64.size a ≤ S6x2x64x64.size a
  squeezes_S1x1x64x64_S64x64 : S1x1x64x64.Squeezes S64x64
  squeezes_S1x1x1x64x64_S64x64 : S1x1x1x64x64.Squeezes S64x64
  inb_S6_S1_0 : ∀ a, (![0] : Fin 1 → Nat) a + S1.size a ≤ S6.size a
  squeezes_S1_S_ : S1.Squeezes S_
  inb_S6x2x64x64_S1x1x64x64_0_1_0_0 : ∀ a, (![0, 1, 0, 0] : Fin 4 → Nat) a + S1x1x64x64.size a ≤ S6x2x64x64.size a
  inb_S6x2x64x64_S1x1x64x64_1_0_0_0 : ∀ a, (![1, 0, 0, 0] : Fin 4 → Nat) a + S1x1x64x64.size a ≤ S6x2x64x64.size a
  inb_S6_S1_1 : ∀ a, (![1] : Fin 1 → Nat) a + S1.size a ≤ S6.size a
  inb_S6x2x64x64_S1x1x64x64_1_1_0_0 : ∀ a, (![1, 1, 0, 0] : Fin 4 → Nat) a + S1x1x64x64.size a ≤ S6x2x64x64.size a
  inb_S6x2x64x64_S1x1x64x64_2_0_0_0 : ∀ a, (![2, 0, 0, 0] : Fin 4 → Nat) a + S1x1x64x64.size a ≤ S6x2x64x64.size a
  inb_S6_S1_2 : ∀ a, (![2] : Fin 1 → Nat) a + S1.size a ≤ S6.size a
  inb_S6x2x64x64_S1x1x64x64_2_1_0_0 : ∀ a, (![2, 1, 0, 0] : Fin 4 → Nat) a + S1x1x64x64.size a ≤ S6x2x64x64.size a
  inb_S6x2x64x64_S1x1x64x64_3_0_0_0 : ∀ a, (![3, 0, 0, 0] : Fin 4 → Nat) a + S1x1x64x64.size a ≤ S6x2x64x64.size a
  inb_S6_S1_3 : ∀ a, (![3] : Fin 1 → Nat) a + S1.size a ≤ S6.size a
  inb_S6x2x64x64_S1x1x64x64_3_1_0_0 : ∀ a, (![3, 1, 0, 0] : Fin 4 → Nat) a + S1x1x64x64.size a ≤ S6x2x64x64.size a
  inb_S6x2x64x64_S1x1x64x64_4_0_0_0 : ∀ a, (![4, 0, 0, 0] : Fin 4 → Nat) a + S1x1x64x64.size a ≤ S6x2x64x64.size a
  inb_S6_S1_4 : ∀ a, (![4] : Fin 1 → Nat) a + S1.size a ≤ S6.size a
  inb_S6x2x64x64_S1x1x64x64_4_1_0_0 : ∀ a, (![4, 1, 0, 0] : Fin 4 → Nat) a + S1x1x64x64.size a ≤ S6x2x64x64.size a
  inb_S6x2x64x64_S1x1x64x64_5_0_0_0 : ∀ a, (![5, 0, 0, 0] : Fin 4 → Nat) a + S1x1x64x64.size a ≤ S6x2x64x64.size a
  inb_S6_S1_5 : ∀ a, (![5] : Fin 1 → Nat) a + S1.size a ≤ S6.size a
  inb_S6x2x64x64_S1x1x64x64_5_1_0_0 : ∀ a, (![5, 1, 0, 0] : Fin 4 → Nat) a + S1x1x64x64.size a ≤ S6x2x64x64.size a
  inb_S6x2x64x64_S1x2x64x64_0_0_0_0 : ∀ a, (![0, 0, 0, 0] : Fin 4 → Nat) a + S1x2x64x64.size a ≤ S6x2x64x64.size a
  squeezes_S1x2x64x64_S2x64x64 : S1x2x64x64.Squeezes S2x64x64
  inb_S6x2x64x64_S1x2x64x64_1_0_0_0 : ∀ a, (![1, 0, 0, 0] : Fin 4 → Nat) a + S1x2x64x64.size a ≤ S6x2x64x64.size a
  inb_S6x2x64x64_S1x2x64x64_2_0_0_0 : ∀ a, (![2, 0, 0, 0] : Fin 4 → Nat) a + S1x2x64x64.size a ≤ S6x2x64x64.size a
  inb_S6x2x64x64_S1x2x64x64_3_0_0_0 : ∀ a, (![3, 0, 0, 0] : Fin 4 → Nat) a + S1x2x64x64.size a ≤ S6x2x64x64.size a
  inb_S6x2x64x64_S1x2x64x64_4_0_0_0 : ∀ a, (![4, 0, 0, 0] : Fin 4 → Nat) a + S1x2x64x64.size a ≤ S6x2x64x64.size a
  inb_S6x2x64x64_S1x2x64x64_5_0_0_0 : ∀ a, (![5, 0, 0, 0] : Fin 4 → Nat) a + S1x2x64x64.size a ≤ S6x2x64x64.size a
  inb_S1x16x1x64x64_S1x16x1x64x64_0_0_0_0_0 : ∀ a, (![0, 0, 0, 0, 0] : Fin 5 → Nat) a + S1x16x1x64x64.size a ≤ S1x16x1x64x64.size a
  h_S1x16x1x64x64 : 0 < S1x16x1x64x64.numel
  shapeCasts_S1x16x1x64x64_S1x16x1x64x64 : S1x16x1x64x64.ShapeCasts S1x16x1x64x64
  concatenates_S1x16x1x64x64_S1x16x1x64x64_S1x16x2x64x64_d2 : Shape.Concatenates [S1x16x1x64x64, S1x16x1x64x64] S1x16x2x64x64 2
  shapeCasts_S1x16x2x64x64_S1x32x64x64 : S1x16x2x64x64.ShapeCasts S1x32x64x64
  inb_S1x32x64x64_S1x32x64x64_0_0_0_0 : ∀ a, (![0, 0, 0, 0] : Fin 4 → Nat) a + S1x32x64x64.size a ≤ S1x32x64x64.size a
  h_S1x32x64x64 : 0 < S1x32x64x64.numel
  hcc0_scratch1 : 0 + S6.numel ≤ 18
  hcc0_scratch2 : 6 + S6.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 24), ∀ a, (k0_off1 i (BitVec.ofNat 32 r.val)) a + S1x1x1x64x64.size a ≤ S8x96x2x64x64.size a
  k0_off2_inb : ∀ i : grid0.Coords, ∀ (r : Fin 24), ∀ a, (k0_off2 i (BitVec.ofNat 32 r.val)) a + S1x1x1x64x64.size a ≤ S8x96x2x64x64.size a
  k0_off3_inb : ∀ i : grid0.Coords, ∀ (r : Fin 24), ∀ a, (k0_off3 i (BitVec.ofNat 32 r.val)) a + S1x2x64x64.size a ≤ S8x192x64x64.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x1x64x64.size a ≤ S8x96x2x64x64.size a
  hwx1_0 : ∀ i : grid1.Coords, EltTy.bits .f32 = 32 ∨ (Rect.block (s := S8x96x2x64x64) S1x16x1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1x64x64.size a ≤ S8x96x2x64x64.size a
  hwx1_1 : ∀ i : grid1.Coords, EltTy.bits .f32 = 32 ∨ (Rect.block (s := S8x96x2x64x64) S1x16x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x64x64.size a ≤ S8x192x64x64.size a
  hwx1_2 : ∀ i : grid1.Coords, EltTy.bits .f32 = 32 ∨ (Rect.block (s := S8x192x64x64) S1x32x64x64.size (cc1_transform_2 i) (hinb1_2 i)).WholeWords (EltTy.packing .f32)

variable [Facts₀]

abbrev cc0_scratch1 : DmaSems sig S6 := SemArray.consecutive 0 S6 hcc0_scratch1
abbrev cc0_scratch2 : DmaSems sig S6 := SemArray.consecutive 6 S6 hcc0_scratch2

abbrev win1_0 : Pipeline.Window sig grid1 :=
  Pipeline.Window.ofSpec (Memref.whole main_v0) S1x16x1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x32x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x192x64x64 : Shape := ⟨4, ![8, 192, 64, 64]⟩
abbrev S192 : Shape := ⟨1, ![192]⟩
abbrev S_ : Shape := ⟨0, ![]⟩
abbrev S1x192x1x1 : Shape := ⟨4, ![1, 192, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x192x64x64, .f32⟩
  | .hbm, ⟨1, _⟩ => ⟨S8x192x64x64, .f32⟩
  | .hbm, ⟨2, _⟩ => ⟨S192, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S192, .i32⟩
  | .hbm, ⟨10, _⟩ => ⟨S192, .i32⟩
  | .hbm, ⟨11, _⟩ => ⟨S_, .i32⟩
  | .hbm, ⟨12, _⟩ => ⟨S192, .i32⟩
  | .hbm, ⟨13, _⟩ => ⟨S192, .i1⟩
  | .hbm, ⟨14, _⟩ => ⟨S_, .i32⟩
  | .hbm, ⟨15, _⟩ => ⟨S192, .i32⟩
  | .hbm, ⟨16, _⟩ => ⟨S192, .i1⟩
  | .hbm, ⟨17, _⟩ => ⟨S_, .i32⟩
  | .hbm, ⟨18, _⟩ => ⟨S_, .i1⟩
  | .hbm, ⟨19, _⟩ => ⟨S192, .i1⟩
  | .hbm, ⟨20, _⟩ => ⟨S192, .i1⟩
  | .hbm, ⟨21, _⟩ => ⟨S192, .i1⟩
  | .hbm, ⟨22, _⟩ => ⟨S192, .i32⟩
  | .hbm, ⟨23, _⟩ => ⟨S192, .i32⟩
  | .hbm, ⟨24, _⟩ => ⟨S192, .i32⟩
  | .hbm, ⟨25, _⟩ => ⟨S_, .i32⟩
  | .hbm, ⟨26, _⟩ => ⟨S192, .i32⟩
  | .hbm, ⟨27, _⟩ => ⟨S192, .i1⟩
  | .hbm, ⟨28, _⟩ => ⟨S1x192x1x1, .i1⟩
  | .hbm, ⟨29, _⟩ => ⟨S8x192x64x64, .i1⟩
  | .hbm, ⟨30, _⟩ => ⟨S8x192x64x64, .f32⟩
  | .hbm, ⟨31, _⟩ => ⟨S8x192x64x64, .i1⟩
  | .hbm, ⟨32, _⟩ => ⟨S8x192x64x64, .f32⟩
  | _, _ => ⟨S8x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_v0 : Ref sig .tc := ⟨.hbm, 29, rfl⟩
abbrev main_v5 : Ref sig .tc := ⟨.hbm, 30, rfl⟩
abbrev main_call2_v0 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S_S192 : S_.BroadcastsInDim S192 (![] : Fin 0 → Fin S192.rank)
  bcast_S192_S1x192x1x1_1 : S192.BroadcastsInDim S1x192x1x1 (![1] : Fin 1 → Fin S1x192x1x1.rank)
  bcast_S1x192x1x1_S8x192x64x64_0_1_2_3 : S1x192x1x1.BroadcastsInDim S8x192x64x64 (![0, 1, 2, 3] : Fin 4 → Fin S8x192x64x64.rank)

variable [Facts₀]

class Facts : Prop extends Facts₀ where

variable [Facts]
-- ==== Proof.Spec.lean ====
/-
  The two results as functions of the two argument arrays, index by index.

  Both arrays have shape [8, 192, 64, 64] (sample, channel, row, column).  The operator exchanges the
  EVEN channels of the two inputs and leaves the odd channels where they are: the first result takes
  channel c from the second input when c is even and from the first input when c is odd; the second
  result is the mirror image.  `swapEven a b` is "b on even channels, a on odd channels", so the first
  result is `swapEven x1 x2` and the second `swapEven x2 x1`.  The element type is arbitrary: nothing
  is computed, elements are only moved.
-/
import Idealize.ShloMosaic.PureOps

namespace Cert.Proof.Spec

open Idealize.ShloMosaic

/-- The arrays' shape: sample, channel, row, column. -/
abbrev SX : Shape := ⟨4, ![8, 192, 64, 64]⟩

/-- Channel `c` of the result is channel `c` of `b` when `c` is even, of `a` when `c` is odd. -/
def swapEven {α : Type} (a b : SX.Idx → α) : SX.Idx → α :=
  fun i => if (i 1).val % 2 = 0 then b i else a i

theorem swapEven_apply {α : Type} (a b : SX.Idx → α) (i : SX.Idx) :
    swapEven a b i = if (i 1).val % 2 = 0 then b i else a i := rfl

end Cert.Proof.Spec
-- ==== Proof.Setup.lean ====
/-
  The kernel program as the launch theorem of a SparseCore program sees it, and the resource algebra the
  proof works in.

  The program's @main runs on the TensorCore: two reshapes of the inputs [8,192,64,64] → [8,96,2,64,64]
  (channel c = 2p + e becomes the pair (p, e)), one call that runs a copying kernel on the 2 × 16 vector
  subcores, and one pipelined kernel region on the TensorCore itself.  The threads are the TensorCore, the two
  sequencers and the thirty-two vector subcores.

  Ghost state, three components side by side: the launch handshakes' rounds (left), the rounds of the
  pipelined region's staging cells, and the counters of the copying kernel's local transfers (found in the
  right factor by instance).
-/
import proofs.«204280_g3796751090005_cont_sun_c4_229_23_alg».proof.KernelIdeal
import proofs.«204280_g3796751090005_cont_sun_c4_229_23_alg».proof.Proof.Gen.KernelIdeal
import proofs.«204280_g3796751090005_cont_sun_c4_229_23_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the certificate's own body table: the two kernels' and the pipelined region's. -/
abbrev ΛP : Labels := Pipeline.Sig Λ₀ (Fin 1) fun p => (pcfgs (F := F) p).Adm
/-- The one SparseCore call. -/
abbrev K : SparseCore.Cfg τ sig (ΛP (F := F)) 1 := sc (F := F)
/-- The body table under the SparseCore dispatch: the kernels' bodies and the pipelined region. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The four launch semaphores are distinct, unscoped, and no buffer is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelined region's rounds (its staging cells). -/
abbrev UP : Type := URounds (GSem nD τ sig) Unit
/-- Handshakes, the region's cells, and the local transfers' counters. -/
abbrev UU : Type := UH × (UP × Counters)

/-- The machine's algebra over those. -/
abbrev MM (F : FTy → Type) : Type := MT nD τ sig (HIx 1) (Elt F) ℕ UU ℕ

/-- The handshakes' component, embedded. -/
abbrev EH : Emb UH (MM F) := embL
/-- The pipelined region's component, embedded: left of the right factor. -/
def EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP (MM F)).LandsIn (upEmb : UEmb _ (MM F)) := by unfold EP; infer_instance

/-! ## The arrays, as the TensorCore names them -/

/-- The two inputs, their two reshapes, and the two results. -/
abbrev x1Loc (d : Dev nD) : Loc nD τ sig := (SparseCore.T d).loc main_arg0
abbrev x2Loc (d : Dev nD) : Loc nD τ sig := (SparseCore.T d).loc main_arg1
abbrev aLoc (d : Dev nD) : Loc nD τ sig := (SparseCore.T d).loc main_v0
abbrev bLoc (d : Dev nD) : Loc nD τ sig := (SparseCore.T d).loc main_v1
abbrev o1Loc (d : Dev nD) : Loc nD τ sig := (SparseCore.T d).loc main_v2
abbrev o2Loc (d : Dev nD) : Loc nD τ sig := (SparseCore.T d).loc main_v3

end Cert.Proof.KI

end
-- ==== Proof.Tiles.lean ====
/-
  The copying kernel's memrefs and one tile's share of the work, named.

  Worker number `wid = 2·(subcore) + core` (0 … 31) handles sample `wid / 4` and the 24 channel pairs
  `(wid % 4)·24 + k`, `k < 24`.  Output slice `k` of a tile is the block [1, 2, 64, 64] of the first result at
  (sample, 2·pair, 0, 0): the two channels of one pair.  The slices of all tiles tile the result array.
-/
import proofs.«204280_g3796751090005_cont_sun_c4_229_23_alg».proof.Proof.Setup

noncomputable section

namespace Cert.Proof.KI

open Cert.KernelIdeal Cert.KernelIdeal.Gen
open Idealize.ShloMosaic
open Idealize.ShloMosaic.SparseCore (S V T)

/-- The two reshaped inputs, the first result and the scratch, as a vector subcore's kernel is passed them. -/
abbrev aV : Memref sig .scVector .hbm S8x96x2x64x64 .f32 := Memref.whole main_v0_scv
abbrev bV : Memref sig .scVector .hbm S8x96x2x64x64 .f32 := Memref.whole main_v1_scv
abbrev oV : Memref sig .scVector .hbm S8x192x64x64 .f32 := Memref.whole main_v2_scv
abbrev sB : Memref sig .scVector .vmem S6x2x64x64 .f32 := Memref.whole cc0_scratch0

/-- The SparseCore and the subcore of a grid point. -/
abbrev cV (L : grid0.Coords) : Fin τ.nSC := (L 0).castLE hcore0
abbrev jV (L : grid0.Coords) : Fin τ.nSub := (L 1).castLE hsub0

/-- The grid point of a core and a subcore of the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- Output slice number `k` of the tile at `L`: the two channels of its `k`-th pair, one sample. -/
abbrev oSl (L : grid0.Coords) (k : Fin 24) : Memref sig .scVector .hbm S2x64x64 .f32 :=
  ((oV : Memref sig .scVector .hbm S8x192x64x64 .f32).slice (Rect.unit (s := S8x192x64x64) (k0_off3 L (BitVec.ofNat 32 k.val)) S1x2x64x64.size (k0_off3_inb L k)) (fun _ => rfl)).squeeze S2x64x64 squeezes_S1x2x64x64_S2x64x64

/-- The tile's thread. -/
abbrev thrL (d : Dev nD) (L : grid0.Coords) : Thread nD τ := V d (cV L) (jV L)

/-- DMA semaphore `j` of the tile: 0 … 5 complete the inbound copies of ring slot `j`, 6 … 11 the outbound copy of slot `j - 6`. -/
abbrev cellIn (d : Dev nD) (L : grid0.Coords) (j : Fin 18) : GSem nD τ sig := (thrL d L, SemLoc.dma (j : DmaSem sig))

end Cert.Proof.KI

end
-- ==== Proof.Offsets.lean ====
/-
  The copying kernel's slice offsets in closed form.

  A tile at grid point (core, subcore) is worker number wid = 2·subcore + core (0 … 31).  The kernel computes
  from it, in 32-bit words, the sample  wid / 4  (a floored division written as the truncated one with its
  sign correction) and the first channel pair  (wid mod 4)·24  (a floored remainder, likewise), and addresses
  pair number k of the tile at pair index (wid mod 4)·24 + k.  For the 2 × 16 grid points and the 24 pairs of a
  tile none of these words wraps, so the offsets are the natural-number expressions themselves; each of the
  768 cases is a computation on 32-bit words.
-/
import proofs.«204280_g3796751090005_cont_sun_c4_229_23_alg».proof.Proof.Tiles

namespace Cert.Proof.KI

open Cert.KernelIdeal
open Idealize.ShloMosaic

/-- The worker number of a grid point: twice the subcore plus the core. -/
def wid (L : grid0.Coords) : ℕ := 2 * (L 1).val + (L 0).val

/-- Every grid point is the point of its core and its subcore. -/
theorem eq_coordsV (L : grid0.Coords) : L = coordsV (L 0) (L 1) := by
  funext a
  match a with
  | ⟨0, _⟩ => rfl
  | ⟨1, _⟩ => rfl

theorem wid_coordsV (c : Fin (grid0.bound 0)) (s : Fin (grid0.bound 1)) : wid (coordsV c s) = 2 * s.val + c.val := rfl

/-- The worker number is below 32. -/
theorem wid_lt (L : grid0.Coords) : wid L < 32 := by
  have h0 : (L 0).val < 2 := (L 0).isLt
  have h1 : (L 1).val < 16 := (L 1).isLt
  unfold wid; omega

/-- The two computed offsets of the first input's slices, at every grid point and pair. -/
theorem off1_cases : ∀ (c : Fin 2) (s : Fin 16) (k : Fin 24),
    k0_off1 (coordsV c s) (BitVec.ofNat 32 k.val) 0 = (2 * s.val + c.val) / 4
      ∧ k0_off1 (coordsV c s) (BitVec.ofNat 32 k.val) 1 = ((2 * s.val + c.val) % 4) * 24 + k.val := by
  decide +kernel

/-- The two computed offsets of the second input's slices, at every grid point and pair. -/
theorem off2_cases : ∀ (c : Fin 2) (s : Fin 16) (k : Fin 24),
    k0_off2 (coordsV c s) (BitVec.ofNat 32 k.val) 0 = (2 * s.val + c.val) / 4
      ∧ k0_off2 (coordsV c s) (BitVec.ofNat 32 k.val) 1 = ((2 * s.val + c.val) % 4) * 24 + k.val := by
  decide +kernel

/-- The two computed offsets of the result's slices, at every grid point and pair. -/
theorem off3_cases : ∀ (c : Fin 2) (s : Fin 16) (k : Fin 24),
    k0_off3 (coordsV c s) (BitVec.ofNat 32 k.val) 0 = (2 * s.val + c.val) / 4
      ∧ k0_off3 (coordsV c s) (BitVec.ofNat 32 k.val) 1 = 2 * (((2 * s.val + c.val) % 4) * 24 + k.val) := by
  decide +kernel

/-- Slice k of the first reshaped input read by the tile at L: sample wid / 4, pair (wid % 4)·24 + k,
    pair member 0. -/
theorem k0_off1_eq (L : grid0.Coords) (k : Fin 24) :
    k0_off1 L (BitVec.ofNat 32 k.val) = ![wid L / 4, (wid L % 4) * 24 + k.val, 0, 0, 0] := by
  obtain ⟨c, s, rfl⟩ : ∃ c s, L = coordsV c s := ⟨L 0, L 1, eq_coordsV L⟩
  have h := off1_cases c s k
  funext a
  match a with
  | ⟨0, _⟩ => exact h.1
  | ⟨1, _⟩ => exact h.2
  | ⟨2, _⟩ => rfl
  | ⟨3, _⟩ => rfl
  | ⟨4, _⟩ => rfl

/-- Slice k of the second reshaped input read by the tile at L: the same sample and pair, pair member 1. -/
theorem k0_off2_eq (L : grid0.Coords) (k : Fin 24) :
    k0_off2 L (BitVec.ofNat 32 k.val) = ![wid L / 4, (wid L % 4) * 24 + k.val, 1, 0, 0] := by
  obtain ⟨c, s, rfl⟩ : ∃ c s, L = coordsV c s := ⟨L 0, L 1, eq_coordsV L⟩
  have h := off2_cases c s k
  funext a
  match a with
  | ⟨0, _⟩ => exact h.1
  | ⟨1, _⟩ => exact h.2
  | ⟨2, _⟩ => rfl
  | ⟨3, _⟩ => rfl
  | ⟨4, _⟩ => rfl

/-- Slice k of the first result written by the tile at L: the same sample, channels 2·pair and 2·pair + 1. -/
theorem k0_off3_eq (L : grid0.Coords) (k : Fin 24) :
    k0_off3 L (BitVec.ofNat 32 k.val) = ![wid L / 4, 2 * ((wid L % 4) * 24 + k.val), 0, 0] := by
  obtain ⟨c, s, rfl⟩ : ∃ c s, L = coordsV c s := ⟨L 0, L 1, eq_coordsV L⟩
  have h := off3_cases c s k
  funext a
  match a with
  | ⟨0, _⟩ => exact h.1
  | ⟨1, _⟩ => exact h.2
  | ⟨2, _⟩ => rfl
  | ⟨3, _⟩ => rfl

/-- The same three at a word given as the pair number's word (the program spells the pair numbers as literals). -/
theorem k0_off1_eq' (L : grid0.Coords) (k : Fin 24) (r : BitVec 32) (h : r = BitVec.ofNat 32 k.val) :
    k0_off1 L r = ![wid L / 4, (wid L % 4) * 24 + k.val, 0, 0, 0] := h ▸ k0_off1_eq L k
theorem k0_off2_eq' (L : grid0.Coords) (k : Fin 24) (r : BitVec 32) (h : r = BitVec.ofNat 32 k.val) :
    k0_off2 L r = ![wid L / 4, (wid L % 4) * 24 + k.val, 1, 0, 0] := h ▸ k0_off2_eq L k
theorem k0_off3_eq' (L : grid0.Coords) (k : Fin 24) (r : BitVec 32) (h : r = BitVec.ofNat 32 k.val) :
    k0_off3 L r = ![wid L / 4, 2 * ((wid L % 4) * 24 + k.val), 0, 0] := h ▸ k0_off3_eq L k

/-- At a literal pair number the statement is the one over the literal word. -/
example (L : grid0.Coords) : k0_off3 L 22#32 = ![wid L / 4, 2 * ((wid L % 4) * 24 + 22), 0, 0] := k0_off3_eq L 22

end Cert.Proof.KI
-- ==== Proof.Split.lean ====
/-
  The first result array is tiled by the tiles' output slices.

  Output slice k of the tile with worker number wid is the block of the result at sample wid / 4 and channels
  2p, 2p + 1 of the pair p = (wid mod 4)·24 + k, all rows and columns.  The map
      (core, subcore, k)  ↦  (wid / 4, (wid mod 4)·24 + k)
  is a bijection from the 2 × 16 × 24 triples onto the 8 × 96 (sample, pair) couples: wid = 4·(wid / 4) + wid mod 4
  and k < 24 recover the triple, and every couple (n, p) is hit by wid = 4n + p / 24, k = p mod 24.  So the 768
  slices are pairwise disjoint and cover the array, and owning the array is owning every slice.
-/
import proofs.«204280_g3796751090005_cont_sun_c4_229_23_alg».proof.Proof.Offsets
import Idealize.ShloMosaic.Lib.ValueIdx

noncomputable section

namespace Cert.Proof.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- The elements of the first result under output slice k of the tile at L. -/
abbrev oSet (L : grid0.Coords) (k : Fin 24) : Finset S8x192x64x64.Idx := (oSl L k).view.set

/-- They are the slice's rectangle. -/
theorem oSet_eq (L : grid0.Coords) (k : Fin 24) :
    oSet L k = (Rect.unit (s := S8x192x64x64) (k0_off3 L (BitVec.ofNat 32 k.val)) S1x2x64x64.size (k0_off3_inb L k)).set := by
  show (((View.whole (main_v2_scv : Ref sig .scVector)).slice _).reshape _ _).set = _
  rw [View.set_reshape, View.set_slice_whole]

/-- An element is under the slice exactly when its sample is the tile's and its channel is one of the pair's two. -/
theorem mem_oSet (L : grid0.Coords) (k : Fin 24) (i : S8x192x64x64.Idx) :
    i ∈ oSet L k ↔ (i 0).val = wid L / 4 ∧ (i 1).val / 2 = (wid L % 4) * 24 + k.val := by
  rw [oSet_eq, Rect.mem_set_unit, k0_off3_eq]
  have h2 : (i 2).val < 64 := (i 2).isLt
  have h3 : (i 3).val < 64 := (i 3).isLt
  constructor
  · intro h
    have h0 : wid L / 4 ≤ (i 0).val ∧ (i 0).val < wid L / 4 + 1 := h 0
    have h1 : 2 * ((wid L % 4) * 24 + k.val) ≤ (i 1).val ∧ (i 1).val < 2 * ((wid L % 4) * 24 + k.val) + 2 := h 1
    omega
  · rintro ⟨h0, h1⟩ a
    match a with
    | ⟨0, _⟩ =>
      show wid L / 4 ≤ (i 0).val ∧ (i 0).val < wid L / 4 + 1
      omega
    | ⟨1, _⟩ =>
      show 2 * ((wid L % 4) * 24 + k.val) ≤ (i 1).val ∧ (i 1).val < 2 * ((wid L % 4) * 24 + k.val) + 2
      omega
    | ⟨2, _⟩ =>
      show 0 ≤ (i 2).val ∧ (i 2).val < 0 + 64
      omega
    | ⟨3, _⟩ =>
      show 0 ≤ (i 3).val ∧ (i 3).val < 0 + 64
      omega

/-- The slices, indexed by (core, subcore, pair number). -/
abbrev oSetT (t : Fin 2 × Fin 16 × Fin 24) : Finset S8x192x64x64.Idx := oSet (coordsV t.1 t.2.1) t.2.2

/-- Two different triples have disjoint slices: the sample and the pair determine the triple. -/
theorem oSetT_disjoint : ∀ t ∈ (Finset.univ : Finset (Fin 2 × Fin 16 × Fin 24)), ∀ t' ∈ (Finset.univ : Finset (Fin 2 × Fin 16 × Fin 24)),
    t ≠ t' → Disjoint (oSetT t) (oSetT t') := by
  rintro ⟨c, s, k⟩ - ⟨c', s', k'⟩ - hne
  rw [Finset.disjoint_left]
  intro i hi hi'
  have hi1 : (i 0).val = (2 * s.val + c.val) / 4 ∧ (i 1).val / 2 = ((2 * s.val + c.val) % 4) * 24 + k.val :=
    (mem_oSet _ _ i).mp hi
  have hi2 : (i 0).val = (2 * s'.val + c'.val) / 4 ∧ (i 1).val / 2 = ((2 * s'.val + c'.val) % 4) * 24 + k'.val :=
    (mem_oSet _ _ i).mp hi'
  have hc : c.val < 2 := c.isLt
  have hc' : c'.val < 2 := c'.isLt
  have hk : k.val < 24 := k.isLt
  have hk' : k'.val < 24 := k'.isLt
  apply hne
  have e1 : c.val = c'.val := by omega
  have e2 : s.val = s'.val := by omega
  have e3 : k.val = k'.val := by omega
  rw [Prod.mk.injEq, Prod.mk.injEq]
  exact ⟨Fin.ext e1, Fin.ext e2, Fin.ext e3⟩

/-- Every element is under some slice. -/
theorem oSetT_cover : (Finset.univ : Finset (Fin 2 × Fin 16 × Fin 24)).biUnion oSetT = Finset.univ := by
  rw [Finset.eq_univ_iff_forall]
  intro i
  rw [Finset.mem_biUnion]
  have h0 : (i 0).val < 8 := (i 0).isLt
  have h1 : (i 1).val < 192 := (i 1).isLt
  refine ⟨(⟨(4 * (i 0).val + (i 1).val / 2 / 24) % 2, by omega⟩, ⟨(4 * (i 0).val + (i 1).val / 2 / 24) / 2, by omega⟩,
    ⟨(i 1).val / 2 % 24, by omega⟩), Finset.mem_univ _, (mem_oSet _ _ i).mpr ?_⟩
  show (i 0).val = (2 * ((4 * (i 0).val + (i 1).val / 2 / 24) / 2) + (4 * (i 0).val + (i 1).val / 2 / 24) % 2) / 4
    ∧ (i 1).val / 2 = ((2 * ((4 * (i 0).val + (i 1).val / 2 / 24) / 2) + (4 * (i 0).val + (i 1).val / 2 / 24) % 2) % 4) * 24 + (i 1).val / 2 % 24
  omega

/-! ## Where a slice's elements sit in the array -/

/-- The index of the slice's block [1, 2, 64, 64] with the same row-major position as y of [2, 64, 64]. -/
abbrev blockIdx (y : S2x64x64.Idx) : S1x2x64x64.Idx :=
  ValueIdx.ix4 (n0 := 1) (n1 := 2) (n2 := 64) (n3 := 64) 0 (y 0) (y 1) (y 2)

theorem reshape_blockIdx (h : S2x64x64.numel = S1x2x64x64.numel) (y : S2x64x64.Idx) :
    Shape.reshapeEquiv h y = blockIdx y := by
  refine Shape.reshapeEquiv_eq_of_rowMajor h ?_
  have e4 : (S1x2x64x64.rowMajor (blockIdx y)).val = (((0 * 2 + (y 0).val) * 64 + (y 1).val) * 64 + (y 2).val) :=
    Shape.rowMajor_val_four (d := ![1, 2, 64, 64]) (blockIdx y)
  have e3 : (S2x64x64.rowMajor y).val = ((y 0).val * 64 + (y 1).val) * 64 + (y 2).val :=
    Shape.rowMajor_val_three (d := ![2, 64, 64]) y
  rw [e4, e3]; omega

/-- Element y of output slice k of the tile at L is the result's element at the tile's sample, channel
    2·pair + y₀, row y₁, column y₂. -/
theorem oSl_emb (L : grid0.Coords) (k : Fin 24) (y : S2x64x64.Idx) :
    (((oSl L k).view.emb y : S8x192x64x64.Idx) 0).val = wid L / 4
      ∧ (((oSl L k).view.emb y : S8x192x64x64.Idx) 1).val = 2 * ((wid L % 4) * 24 + k.val) + (y 0).val
      ∧ (((oSl L k).view.emb y : S8x192x64x64.Idx) 2).val = (y 1).val
      ∧ (((oSl L k).view.emb y : S8x192x64x64.Idx) 3).val = (y 2).val := by
  have he : ((oSl L k).view.emb y : S8x192x64x64.Idx)
      = (Rect.unit (s := S8x192x64x64) (k0_off3 L (BitVec.ofNat 32 k.val)) S1x2x64x64.size (k0_off3_inb L k)).emb (blockIdx y) := by
    show (Rect.unit (s := S8x192x64x64) (k0_off3 L (BitVec.ofNat 32 k.val)) S1x2x64x64.size (k0_off3_inb L k)).emb
        (Shape.reshapeEquiv _ y) = _
    rw [reshape_blockIdx]
  have ho := k0_off3_eq L k
  have h0 : k0_off3 L (BitVec.ofNat 32 k.val) 0 = wid L / 4 := congrFun ho 0
  have h1 : k0_off3 L (BitVec.ofNat 32 k.val) 1 = 2 * ((wid L % 4) * 24 + k.val) := congrFun ho 1
  have h2 : k0_off3 L (BitVec.ofNat 32 k.val) 2 = 0 := congrFun ho 2
  have h3 : k0_off3 L (BitVec.ofNat 32 k.val) 3 = 0 := congrFun ho 3
  refine ⟨?_, ?_, ?_, ?_⟩
  · rw [he, Rect.emb_apply, Rect.off_unit, Rect.stride_unit, h0]; show wid L / 4 + 1 * 0 = _; omega
  · rw [he, Rect.emb_apply, Rect.off_unit, Rect.stride_unit, h1]
    show 2 * ((wid L % 4) * 24 + k.val) + 1 * (y 0).val = _; omega
  · rw [he, Rect.emb_apply, Rect.off_unit, Rect.stride_unit, h2]; show 0 + 1 * (y 1).val = _; omega
  · rw [he, Rect.emb_apply, Rect.off_unit, Rect.stride_unit, h3]; show 0 + 1 * (y 2).val = _; omega

variable {F : FTy → Type}

/-- Owning the first result is owning each tile's each output slice of it. -/
theorem o1_split (d : Dev nD) (f : Buf (Elt F) (o1Loc d)) :
    (o1Loc d ↦{fullShare} f : sProp (MM F))
      = bigSep Finset.univ fun c : Fin 2 => bigSep Finset.univ fun s : Fin 16 => bigSep Finset.univ fun k : Fin 24 =>
          o1Loc d ↦[oSet (coordsV c s) k]{fullShare} f := by
  have h1 : (o1Loc d ↦{fullShare} f : sProp (MM F))
      = bigSep Finset.univ fun t : Fin 2 × Fin 16 × Fin 24 => o1Loc d ↦[oSetT t]{fullShare} f := by
    rw [← pointsTo_biUnion Finset.univ (ℓ := o1Loc d) oSetT oSetT_disjoint, oSetT_cover]
  refine h1.trans ?_
  refine (bigSep_univ_prod (fun t : Fin 2 × Fin 16 × Fin 24 => (o1Loc d ↦[oSetT t]{fullShare} f : sProp (MM F)))).trans ?_
  refine bigSep_congr fun c _ => ?_
  exact bigSep_univ_prod (fun p : Fin 16 × Fin 24 => (o1Loc d ↦[oSetT (c, p)]{fullShare} f : sProp (MM F)))

end Cert.Proof.KI

end
-- ==== Proof.Values.lean ====
/-
  The two results as functions of the RESHAPED inputs.

  @main reshapes each input [8,192,64,64] to [8,96,2,64,64]: channel `c = 2p + e` becomes the pair `(p, e)`.
  Over the reshaped arrays `A` (of the first input) and `B` (of the second):
    the first result at (n, c, h, w) is  B (n, c/2, 0, h, w) for even c  and  A (n, c/2, 1, h, w) for odd c;
    the second result                 is  A (n, c/2, 0, h, w) for even c  and  B (n, c/2, 1, h, w) for odd c.
  Since c = 2·(c/2) + (c mod 2), both read their argument at channel c itself: the first is the second input
  on even channels and the first input on odd ones, the second the mirror image (`Spec.swapEven`).
-/
import proofs.«204280_g3796751090005_cont_sun_c4_229_23_alg».proof.Proof.Setup
import Idealize.ShloMosaic.Lib.ValueIdx

namespace Cert.Proof.KI

open Cert.KernelIdeal
open Idealize.ShloMosaic Idealize.ShloMosaic.ValueIdx

/-- The index (n, c/2, e, h, w) of the reshaped array that holds channel pair `c/2`, member `e`, of (n, c, h, w). -/
def pairIdx (i : S8x192x64x64.Idx) (e : Fin 2) : S8x96x2x64x64.Idx :=
  ix5 (n0 := 8) (n1 := 96) (n2 := 2) (n3 := 64) (n4 := 64) (i 0)
    ⟨(i 1).val / 2, Nat.div_lt_of_lt_mul (show (i 1).val < 2 * 96 from (i 1).isLt)⟩ e (i 2) (i 3)

/-- The first result: pair member 0 of `B` on even channels, member 1 of `A` on odd channels. -/
def G1 {α : Type} (A B : S8x96x2x64x64.Idx → α) : S8x192x64x64.Idx → α :=
  fun i => if (i 1).val % 2 = 0 then B (pairIdx i 0) else A (pairIdx i 1)

/-- The second result: pair member 0 of `A` on even channels, member 1 of `B` on odd channels. -/
def G2 {α : Type} (A B : S8x96x2x64x64.Idx → α) : S8x192x64x64.Idx → α :=
  fun i => if (i 1).val % 2 = 0 then A (pairIdx i 0) else B (pairIdx i 1)

theorem G1_apply {α : Type} (A B : S8x96x2x64x64.Idx → α) (i : S8x192x64x64.Idx) :
    G1 A B i = if (i 1).val % 2 = 0 then B (pairIdx i 0) else A (pairIdx i 1) := rfl
theorem G2_apply {α : Type} (A B : S8x96x2x64x64.Idx → α) (i : S8x192x64x64.Idx) :
    G2 A B i = if (i 1).val % 2 = 0 then A (pairIdx i 0) else B (pairIdx i 1) := rfl

end Cert.Proof.KI
-- ==== Proof.Pay.lean ====
/-
  What the launch handshakes carry.

  The call hands each of the two SparseCores a read share of both reshaped inputs and the result slices of its
  sixteen tiles (at the contents the result array has before the call), and takes them back with every slice
  at the result function `G1 A B`.  A SparseCore hands each tile a read share cut from its own and the tile's
  24 slices, and takes them back likewise.  Shares: the full share is cut into one token per SparseCore, a
  SparseCore's token into one per tile; what is left over stays with whoever did the cutting.
-/
import proofs.«204280_g3796751090005_cont_sun_c4_229_23_alg».proof.Proof.Split
import proofs.«204280_g3796751090005_cont_sun_c4_229_23_alg».proof.Proof.Values

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- SparseCore `c`'s read share, and tile `i`'s cut from it. -/
abbrev qC (c : Fin 2) : PosShare TreeShare := Transfers.shareTok fullShare 2 c
abbrev qT (c : Fin 2) (i : Fin 16) : PosShare TreeShare := Transfers.shareTok (qC c) 16 i

variable (A B : (d : Dev nD) → Buf (Elt F) (aLoc d)) (f0 : (d : Dev nD) → Buf (Elt F) (o1Loc d))

/-- The result slices of tile (c, i), all at contents `f`. -/
abbrev tileSlices (d : Dev nD) (c : Fin 2) (i : Fin 16) (f : Buf (Elt F) (o1Loc d)) : sProp 𝕄 :=
  bigSep Finset.univ fun k : Fin 24 => o1Loc d ↦[oSet (coordsV c i) k]{fullShare} f

/-- What a tile is handed and hands back. -/
abbrev goP (d : Dev nD) (c : Fin 2) (i : Fin 16) : sProp 𝕄 :=
  iprop((aLoc d ↦{qT c i} A d) ∗ (bLoc d ↦{qT c i} B d) ∗ tileSlices d c i (f0 d))
abbrev tdP (d : Dev nD) (c : Fin 2) (i : Fin 16) : sProp 𝕄 :=
  iprop((aLoc d ↦{qT c i} A d) ∗ (bLoc d ↦{qT c i} B d) ∗ tileSlices d c i (G1 (A d) (B d)))
/-- What a SparseCore is handed and hands back. -/
abbrev stP (d : Dev nD) (c : Fin 2) : sProp 𝕄 :=
  iprop((aLoc d ↦{qC c} A d) ∗ (bLoc d ↦{qC c} B d) ∗ bigSep Finset.univ fun i : Fin 16 => tileSlices d c i (f0 d))
abbrev dnP (d : Dev nD) (c : Fin 2) : sProp 𝕄 :=
  iprop((aLoc d ↦{qC c} A d) ∗ (bLoc d ↦{qC c} B d) ∗ bigSep Finset.univ fun i : Fin 16 => tileSlices d c i (G1 (A d) (B d)))

/-- The one call's payloads. The kernel owes nothing beyond the handshakes and consumes nothing of the launch's. -/
def P : (K (F := F)).Pay (nD := nD) (Val := Elt F) (Name := ℕ) (U := UU) where
  st := fun q d c => match q with | 0 => stP A B f0 d (Fin.cast nCore_zero c)
  dn := fun q d c => match q with | 0 => dnP A B d (Fin.cast nCore_zero c)
  go := fun q d c i => match q with | 0 => goP A B f0 d (Fin.cast nCore_zero c) (Fin.cast nSub_zero i)
  td := fun q d c i => match q with | 0 => tdP A B d (Fin.cast nCore_zero c) (Fin.cast nSub_zero i)
  x := fun _ _ => iprop(emp)

instance P_storable : (P (F := F) A B f0).IsStorable where
  st q d c := match q with | 0 => (inferInstance : BI.Storable (upEmb : UEmb _ 𝕄) (stP A B f0 d (Fin.cast nCore_zero c)))
  dn q d c := match q with | 0 => (inferInstance : BI.Storable (upEmb : UEmb _ 𝕄) (dnP A B d (Fin.cast nCore_zero c)))
  go q d c i := match q with | 0 => (inferInstance : BI.Storable (upEmb : UEmb _ 𝕄) (goP A B f0 d (Fin.cast nCore_zero c) (Fin.cast nSub_zero i)))
  td q d c i := match q with | 0 => (inferInstance : BI.Storable (upEmb : UEmb _ 𝕄) (tdP A B d (Fin.cast nCore_zero c) (Fin.cast nSub_zero i)))

end Cert.Proof.KI

end
-- ==== Proof.Reshape.lean ====
/-
  The reshape of an input, read at an index.

  @main reshapes each input [8, 192, 64, 64] to [8, 96, 2, 64, 64] before the kernels run: the same elements in
  row-major order.  The row-major position of (n, c, h, w) in the first shape is ((n·192 + c)·64 + h)·64 + w; that
  of (n, p, e, h, w) in the second is (((n·96 + p)·2 + e)·64 + h)·64 + w.  They agree exactly when c = 2p + e, so
  the reshaped array at (n, c / 2, c mod 2, h, w) is the input at (n, c, h, w), and the two results stated over
  the reshaped inputs are the exchange of the even channels of the inputs themselves.
-/
import proofs.«204280_g3796751090005_cont_sun_c4_229_23_alg».proof.Proof.Values
import Idealize.ShloMosaic.Lib.Pipeline.Value

namespace Cert.Proof.KI

open Cert.KernelIdeal
open Idealize.ShloMosaic Idealize.ShloMosaic.ValueIdx

/-- What the reshape writes: the input's elements at the shape [8, 96, 2, 64, 64]. -/
def rs {α : Type} (x : S8x192x64x64.Idx → α) : S8x96x2x64x64.Idx → α :=
  shapeCast S8x96x2x64x64 x Gen.shapeCasts_S8x192x64x64_S8x96x2x64x64

/-- The reshaped array at (n, c / 2, e, h, w), for e the parity of c, is the input at (n, c, h, w). -/
theorem rs_pairIdx {α : Type} (x : S8x192x64x64.Idx → α) (i : S8x192x64x64.Idx) (e : Fin 2)
    (he : e.val = (i 1).val % 2) : rs x (pairIdx i e) = x i := by
  unfold rs
  refine shapeCast_apply x _ (pairIdx i e) i ?_
  have e5 : (S8x96x2x64x64.rowMajor (pairIdx i e)).val
      = (((((i 0).val * 96 + (i 1).val / 2) * 2 + e.val) * 64 + (i 2).val) * 64 + (i 3).val) :=
    Shape.rowMajor_val_five (d := ![8, 96, 2, 64, 64]) (pairIdx i e)
  have e4 : (S8x192x64x64.rowMajor i).val = ((((i 0).val * 192 + (i 1).val) * 64 + (i 2).val) * 64 + (i 3).val) :=
    Shape.rowMajor_val_four (d := ![8, 192, 64, 64]) i
  rw [e4, e5]; omega

/-- The first result over the reshaped inputs is the first input with its even channels taken from the second. -/
theorem G1_rs {α : Type} (x1 x2 : S8x192x64x64.Idx → α) : G1 (rs x1) (rs x2) = Cert.Proof.Spec.swapEven x1 x2 := by
  funext i
  rw [G1_apply, Cert.Proof.Spec.swapEven_apply]
  by_cases h : (i 1).val % 2 = 0
  · rw [if_pos h, if_pos h]; exact rs_pairIdx x2 i 0 h.symm
  · rw [if_neg h, if_neg h]
    have h1 : (i 1).val % 2 = 1 := by omega
    exact rs_pairIdx x1 i 1 h1.symm

/-- The second result over the reshaped inputs is the second input with its even channels taken from the first. -/
theorem G2_rs {α : Type} (x1 x2 : S8x192x64x64.Idx → α) : G2 (rs x1) (rs x2) = Cert.Proof.Spec.swapEven x2 x1 := by
  funext i
  rw [G2_apply, Cert.Proof.Spec.swapEven_apply]
  by_cases h : (i 1).val % 2 = 0
  · rw [if_pos h, if_pos h]; exact rs_pairIdx x1 i 0 h.symm
  · rw [if_neg h, if_neg h]
    have h1 : (i 1).val % 2 = 1 := by omega
    exact rs_pairIdx x2 i 1 h1.symm

section Program
open Idealize.ShloMosaic.StableHlo Idealize.ShloMosaic.TcCoe
variable {F : FTy → Type} [FloatOps F] [Cert.KernelIdeal.Facts]

/-- After the program's first reshape its result buffer holds the first input reshaped, -/
theorem reshape0_result (V : Valuation τ sig (Elt F)) :
    (StableHlo.reshape main_arg0 main_v0 rfl Facts₀.shapeCasts_S8x192x64x64_S8x96x2x64x64 : HloOp τ sig (Elt F)).result V
        (main_v0 : DevRef τ sig) = rs (V (main_arg0 : DevRef τ sig)) :=
  reshape_result _ _ _ _ _ _ V

/-- and after the second the second input reshaped. -/
theorem reshape1_result (V : Valuation τ sig (Elt F)) :
    (StableHlo.reshape main_arg1 main_v1 rfl Facts₀.shapeCasts_S8x192x64x64_S8x96x2x64x64 : HloOp τ sig (Elt F)).result V
        (main_v1 : DevRef τ sig) = rs (V (main_arg1 : DevRef τ sig)) :=
  reshape_result _ _ _ _ _ _ V

end Program

end Cert.Proof.KI
-- ==== Proof.TcRegion.lean ====
/-
  The pipelined kernel region of the TensorCore: the second result.

  The region runs on the grid 8 × 6.  At the point (n, b) it stages the block of sixteen channel pairs
  [16 b, 16 b + 16) of sample n from two arrays of shape [8, 96, 2, 64, 64]: member 0 of each pair of the first
  array, member 1 of each pair of the second.  The body interleaves the two blocks along the pair axis and
  flattens pair and member into thirty-two channels, so that channel 2 p + e of the output block is member e's
  row: from the first array when e = 0, from the second when e = 1.  The block is written back as channels
  [32 b, 32 b + 32) of sample n of the result.  The forty-eight blocks tile the result, so after the region
  the result at (n, c, h, w) is the first array at (n, c / 2, 0, h, w) for even c and the second array at
  (n, c / 2, 1, h, w) for odd c.
-/
import proofs.«204280_g3796751090005_cont_sun_c4_229_23_alg».proof.Proof.Setup
import proofs.«204280_g3796751090005_cont_sun_c4_229_23_alg».proof.Proof.Values
import proofs.«204280_g3796751090005_cont_sun_c4_229_23_alg».proof.Proof.Gen.KernelIdeal.Launch
import proofs.«204280_g3796751090005_cont_sun_c4_229_23_alg».proof.Proof.Gen.KernelIdeal.Points
import proofs.«204280_g3796751090005_cont_sun_c4_229_23_alg».proof.Proof.Gen.KernelIdeal.Skeleton
import Idealize.ShloMosaic.Lib.Pipeline.Regions
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The admissible table contents of the one pipeline: it prefetches nothing. -/
abbrev adm : (p : Fin 1) → (pcfgs (F := F) p).Adm := fun p => (cfgs p).toPCfg_adm

section Kernel

/-- The body's two accesses: each staging buffer whole. -/
abbrev rIn : Rect S1x16x1x64x64 := Rect.unit (s := S1x16x1x64x64) ![0, 0, 0, 0, 0] S1x16x1x64x64.size inb_S1x16x1x64x64_S1x16x1x64x64_0_0_0_0_0
abbrev rOut : Rect S1x32x64x64 := Rect.unit (s := S1x32x64x64) ![0, 0, 0, 0] S1x32x64x64.size inb_S1x32x64x64_S1x32x64x64_0_0_0_0

/-- What the body leaves in the output window's buffer, from the two input blocks: its one store. -/
def out2 (x0 x1 : Vec F S1x16x1x64x64 .f32) : Vec F S1x32x64x64 .f32 :=
  View.canon [⟨rOut, k1_pay1 (View.ld x0 rIn) (View.ld x1 rIn)⟩]

/-- The one store covers the buffer. -/
theorem cover2 (p0 : Vec F S1x32x64x64 .f32) (y : S1x32x64x64.Idx) :
    ∃ pc ∈ ([⟨rOut, p0⟩] : List (View.Piece (Elt F) S1x32x64x64 .f32)), y ∈ pc.1.set :=
  View.cover_of_tiled [⟨rOut, p0⟩] S1x32x64x64.size (by rfl) y

set_option maxHeartbeats 1000000 in
/-- The body on whole staging buffers: the inputs' at `x0`, `x1` and the output's at anything; it leaves the
    inputs as they were and the output at `out2 x0 x1`. -/
theorem sound_kernel (c : Dev nD) (E : Set ℕ) (i : grid1.Coords)
    (arg2 : Memref sig .tc .vmem S1x16x1x64x64 .f32) (harg2 : arg2.IsWhole) (arg3 : Memref sig .tc .vmem S1x16x1x64x64 .f32) (harg3 : arg3.IsWhole)
    (arg4 : Memref sig .tc .vmem S1x32x64x64 .f32) (harg4 : arg4.IsWhole)
    (x0 x1 : Vec F S1x16x1x64x64 .f32) (Kc : PUnit → sProp (MM F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ Kc ⟨⟩))
      ⊢ wp frame (wpE (defs₀ (F := F)) Variants.none c none) E (cc1__tc_out2_body i arg2 harg2 arg3 harg3 arg4 harg4) Kc := by
  simp only [cc1__tc_out2_body_eq_skeleton]; unfold cc1__tc_out2_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Kernel

section Data

variable (A B : S8x96x2x64x64.Idx → Elt F .f32) (f3 : S8x192x64x64.Idx → Elt F .f32) (W₀ : Waits sig (HIx 1))

/-- The three arrays the region's windows move, as the region finds them: the two inputs, and the result at
    whatever it held. -/
def arr0 (c : Dev nD) (w : Fin cfg1.W) : Buf (Elt F) ((cfg1.win w).arr.view.loc (c.tc : Thread nD τ)) :=
  match w with
  | ⟨0, _⟩ => A
  | ⟨1, _⟩ => B
  | ⟨2, _⟩ => f3

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (arr0 A B f3 c w)

/-- The proof data of the region on core `c`. -/
def dats (_ : Fin 1) (c : Dev nD) : Dat τ (Elt F) (HIx 1) ℕ UU ℕ cfg1 c where
  A w := arr0 A B f3 c w
  after w t := match w with
    | ⟨0, _⟩ => iblk A B f3 c 0 t
    | ⟨1, _⟩ => iblk A B f3 c 1 t
    | ⟨2, _⟩ => out2 (iblk A B f3 c 0 t) (iblk A B f3 c 1 t)
  Φ _ := Pipeline.scopedRest (Ix := HIx 1) (Name := ℕ) (U := UU) (Lvl := ℕ) (Val := Elt F) (Pipeline.pin (pcfgs (F := F)) adm 0).spec c
  q _ := fullShare
  owed _ := 0
  recorded _ := ↑W₀

end Data

section Body

variable (A B : S8x96x2x64x64.Idx → Elt F .f32) (f3 : S8x192x64x64.Idx → Elt F .f32) (W₀ : Waits sig (HIx 1))

theorem A_eq (c : Dev nD) (w : Fin cfg1.W) : (dats A B f3 W₀ 0 c).A w = arr0 A B f3 c w := by
  dsimp only [dats]

theorem after1_0 (c : Dev nD) (t : Fin cfg1.N) : (dats A B f3 W₀ 0 c).after 0 t = iblk A B f3 c 0 t := by dsimp only [dats]
theorem after1_1 (c : Dev nD) (t : Fin cfg1.N) : (dats A B f3 W₀ 0 c).after 1 t = iblk A B f3 c 1 t := by dsimp only [dats]
theorem after1_2 (c : Dev nD) (t : Fin cfg1.N) :
    (dats A B f3 W₀ 0 c).after 2 t = out2 (iblk A B f3 c 0 t) (iblk A B f3 c 1 t) := by dsimp only [dats]

/-- Each input's current staging buffer holds its block at every point. -/
theorem before1_0 (c : Dev nD) (t : Fin cfg1.N) (d) : (dats A B f3 W₀ 0 c).before 0 t d = iblk A B f3 c 0 t :=
  ((dats A B f3 W₀ 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats A B f3 W₀ 0 c).before 1 t d = iblk A B f3 c 1 t :=
  ((dats A B f3 W₀ 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp (MM F) :=
  iprop((dats A B f3 W₀ 0 c).Φ t.castSucc ∗ (dats A B f3 W₀ 0 c).owesAt none t.castSucc
    ∗ (∃ d, owns (c : Thread nD τ) (st1_0 t) fullShare ((dats A B f3 W₀ 0 c).before 0 t d))
    ∗ (∃ d, owns (c : Thread nD τ) (st1_1 t) fullShare ((dats A B f3 W₀ 0 c).before 1 t d))
    ∗ (∃ d, owns (c : Thread nD τ) (st1_2 t) fullShare ((dats A B f3 W₀ 0 c).before 2 t d)))

/-- and what it returns. -/
def bodyPost (c : Dev nD) (t : Fin cfg1.N) : sProp (MM F) :=
  iprop((dats A B f3 W₀ 0 c).Φ t.succ ∗ (dats A B f3 W₀ 0 c).owesAt none t.succ
    ∗ owns (c : Thread nD τ) (st1_0 t) fullShare ((dats A B f3 W₀ 0 c).after 0 t)
    ∗ owns (c : Thread nD τ) (st1_1 t) fullShare ((dats A B f3 W₀ 0 c).after 1 t)
    ∗ owns (c : Thread nD τ) (st1_2 t) fullShare ((dats A B f3 W₀ 0 c).after 2 t))

/-- The body at any point: the inputs' buffers hold their blocks, so the kernel's triple applies; the invariant and
    what the core owes pass through unread. -/
theorem sound_body (c : Dev nD) (t : Fin cfg1.N) :
    bodyPre A B f3 W₀ c t ⊢ wp frame (wpE (defs₀ (F := F)) Variants.none c none) Set.univ (bodyAt1 t) (fun _ => bodyPost A B f3 W₀ c t) := by
  unfold bodyPre bodyPost bodyAt1
  simp only [before1_0, before1_1]
  rw [show (dats A B f3 W₀ 0 c).Φ t.succ = (dats A B f3 W₀ 0 c).Φ t.castSucc from rfl,
    show (dats A B f3 W₀ 0 c).owesAt none t.succ = (dats A B f3 W₀ 0 c).owesAt none t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk A B f3 c 0 t) (iblk A B f3 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats A B f3 W₀ 0 c) (defs₀ (F := F)) Variants.none none Set.univ := fun t => by
  rw [bigSep_W1, bigSep_W1]
  exact sound_body A B f3 W₀ c t

end Body

section Payload

/-- The stored vector at an index: channel `2 p + e` of the output block is pair `p` of the first input block when
    `e = 0` and of the second when `e = 1` (the concatenation along the member axis, then pair and member flattened
    row-major). -/
theorem pay_apply (x0 x1 : Vec F S1x16x1x64x64 .f32) (j : S1x32x64x64.Idx) :
    k1_pay1 x0 x1 j
      = if (j 1).val % 2 = 0 then
          x0 (ix5 (n0 := 1) (n1 := 16) (n2 := 1) (n3 := 64) (n4 := 64) 0 ⟨(j 1).val / 2, Nat.div_lt_of_lt_mul (show (j 1).val < 2 * 16 from (j 1).isLt)⟩ 0 (j 2) (j 3))
        else
          x1 (ix5 (n0 := 1) (n1 := 16) (n2 := 1) (n3 := 64) (n4 := 64) 0 ⟨(j 1).val / 2, Nat.div_lt_of_lt_mul (show (j 1).val < 2 * 16 from (j 1).isLt)⟩ 0 (j 2) (j 3)) := by
  have hj0 : (j 0).val < 1 := (j 0).isLt
  have hj1 : (j 1).val < 32 := (j 1).isLt
  have hj2 : (j 2).val < 64 := (j 2).isLt
  have hj3 : (j 3).val < 64 := (j 3).isLt
  unfold k1_pay1
  -- the flattening: the same row-major position
  let k : S1x16x2x64x64.Idx := ix5 (n0 := 1) (n1 := 16) (n2 := 2) (n3 := 64) (n4 := 64) 0
    ⟨(j 1).val / 2, by omega⟩ ⟨(j 1).val % 2, by omega⟩ (j 2) (j 3)
  refine (shapeCast_apply _ shapeCasts_S1x16x2x64x64_S1x32x64x64 j k ?_).trans ?_
  · rw [Shape.rowMajor_val_five, Shape.rowMajor_val_four]
    show ((((0 * 16 + (j 1).val / 2) * 2 + (j 1).val % 2) * 64 + (j 2).val) * 64 + (j 3).val)
      = ((((j 0).val * 32 + (j 1).val) * 64 + (j 2).val) * 64 + (j 3).val)
    omega
  by_cases he : (j 1).val % 2 = 0
  · rw [if_pos he]
    refine (concatenate_pair_apply_left (t := S1x16x2x64x64) (s₁ := S1x16x1x64x64) (s₂ := S1x16x1x64x64) (2 : Fin 5) _ _ concatenates_S1x16x1x64x64_S1x16x1x64x64_S1x16x2x64x64_d2 k rfl
      (ix5 (n0 := 1) (n1 := 16) (n2 := 1) (n3 := 64) (n4 := 64) 0 ⟨(j 1).val / 2, by omega⟩ 0 (j 2) (j 3)) ?_).trans ?_
    · intro b
      match b with
      | ⟨0, _⟩ => rfl
      | ⟨1, _⟩ => rfl
      | ⟨2, _⟩ => show (0 : Nat) = (j 1).val % 2; omega
      | ⟨3, _⟩ => rfl
      | ⟨4, _⟩ => rfl
    · exact shapeCast_apply _ shapeCasts_S1x16x1x64x64_S1x16x1x64x64 _ _ rfl
  · rw [if_neg he]
    refine (concatenate_pair_apply_right (t := S1x16x2x64x64) (s₁ := S1x16x1x64x64) (s₂ := S1x16x1x64x64) (2 : Fin 5) _ _ concatenates_S1x16x1x64x64_S1x16x1x64x64_S1x16x2x64x64_d2 k rfl rfl
      (ix5 (n0 := 1) (n1 := 16) (n2 := 1) (n3 := 64) (n4 := 64) 0 ⟨(j 1).val / 2, by omega⟩ 0 (j 2) (j 3)) ?_ ?_).trans ?_
    · intro b hb
      match b with
      | ⟨0, _⟩ => rfl
      | ⟨1, _⟩ => rfl
      | ⟨2, _⟩ => exact absurd rfl hb
      | ⟨3, _⟩ => rfl
      | ⟨4, _⟩ => rfl
    · show (0 : Nat) + 1 = (j 1).val % 2; omega
    · exact shapeCast_apply _ shapeCasts_S1x16x1x64x64_S1x16x1x64x64 _ _ rfl

end Payload

section Value

variable (A B : S8x96x2x64x64.Idx → Elt F .f32) (f3 : S8x192x64x64.Idx → Elt F .f32) (W₀ : Waits sig (HIx 1))

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The three index maps, decided over the grid: the input windows move with the output window on sample and
    block, the first stays on member 0 and the second on member 1, and nothing moves on rows and columns. -/
theorem idx_facts : ∀ t : Fin cfg1.N,
    win1_0.index t (0 : Fin 5) = win1_2.index t (0 : Fin 4) ∧ win1_0.index t (1 : Fin 5) = win1_2.index t (1 : Fin 4)
    ∧ win1_0.index t (2 : Fin 5) = 0 ∧ win1_0.index t (3 : Fin 5) = 0 ∧ win1_0.index t (4 : Fin 5) = 0
    ∧ win1_1.index t (0 : Fin 5) = win1_2.index t (0 : Fin 4) ∧ win1_1.index t (1 : Fin 5) = win1_2.index t (1 : Fin 4)
    ∧ win1_1.index t (2 : Fin 5) = 1 ∧ win1_1.index t (3 : Fin 5) = 0 ∧ win1_1.index t (4 : Fin 5) = 0
    ∧ win1_2.index t (0 : Fin 4) ≤ 7 ∧ win1_2.index t (1 : Fin 4) ≤ 5
    ∧ win1_2.index t (2 : Fin 4) = 0 ∧ win1_2.index t (3 : Fin 4) = 0 :=
  (by decide +kernel : ∀ t : Fin grid1.N, _)

/-- Every (sample, block) is some point's. -/
theorem idx_onto : ∀ (q0 : Fin 8) (q1 : Fin 6), ∃ t : Fin cfg1.N, win1_2.index t = ![q0.val, q1.val, 0, 0] :=
  (by decide +kernel : ∀ (q0 : Fin 8) (q1 : Fin 6), ∃ t : Fin grid1.N, win1_2.index t = ![q0.val, q1.val, 0, 0])

/-- What point `t` writes back is block `t` of the interleaving. -/
theorem flushed2_eq (c : Dev nD) (t : Fin cfg1.N) :
    (dats A B f3 W₀ 0 c).flushed 2 t = ((cfg1.win 2).blk t).view.read (Elt F) (G2 A B) := by
  show (cfg1.win 2).cut (grid1.coords t) ((dats A B f3 W₀ 0 c).after 2 t) = _
  rw [after1_2]
  unfold out2
  rw [View.canon_unit_zero hz4]
  simp only [View.ld_unit_zero (S := S1x16x1x64x64) hz5]
  obtain ⟨a0, a1, a2, a3, a4, b0, b1, b2, b3, b4, c0, c1, c2, c3⟩ := idx_facts t
  funext j
  show k1_pay1 (iblk A B f3 c 0 t) (iblk A B f3 c 1 t) j = G2 A B (((cfg1.win 2).blk t).view.emb j)
  rw [pay_apply, G2_apply]
  have hj0 : (j 0).val < 1 := (j 0).isLt
  have hj1 : (j 1).val < 32 := (j 1).isLt
  have e1 : ((((cfg1.win 2).blk t).view.emb j) 1).val = win1_2.index t (1 : Fin 4) * 32 + 1 * (j 1).val := rfl
  have hpar : ((((cfg1.win 2).blk t).view.emb j) 1).val % 2 = (j 1).val % 2 := by rw [e1]; omega
  rw [hpar]
  by_cases he : (j 1).val % 2 = 0
  · rw [if_pos he, if_pos he]
    show A (((cfg1.win 0).blk t).view.emb _) = A (pairIdx _ 0)
    congr 1
    funext a; apply Fin.ext
    match a with
    | ⟨0, _⟩ => show win1_0.index t (0 : Fin 5) * 1 + 1 * 0 = win1_2.index t (0 : Fin 4) * 1 + 1 * (j 0).val; omega
    | ⟨1, _⟩ => show win1_0.index t (1 : Fin 5) * 16 + 1 * ((j 1).val / 2) = (win1_2.index t (1 : Fin 4) * 32 + 1 * (j 1).val) / 2; omega
    | ⟨2, _⟩ => show win1_0.index t (2 : Fin 5) * 1 + 1 * 0 = 0; omega
    | ⟨3, _⟩ => show win1_0.index t (3 : Fin 5) * 64 + 1 * (j 2).val = win1_2.index t (2 : Fin 4) * 64 + 1 * (j 2).val; omega
    | ⟨4, _⟩ => show win1_0.index t (4 : Fin 5) * 64 + 1 * (j 3).val = win1_2.index t (3 : Fin 4) * 64 + 1 * (j 3).val; omega
  · rw [if_neg he, if_neg he]
    show B (((cfg1.win 1).blk t).view.emb _) = B (pairIdx _ 1)
    congr 1
    funext a; apply Fin.ext
    match a with
    | ⟨0, _⟩ => show win1_1.index t (0 : Fin 5) * 1 + 1 * 0 = win1_2.index t (0 : Fin 4) * 1 + 1 * (j 0).val; omega
    | ⟨1, _⟩ => show win1_1.index t (1 : Fin 5) * 16 + 1 * ((j 1).val / 2) = (win1_2.index t (1 : Fin 4) * 32 + 1 * (j 1).val) / 2; omega
    | ⟨2, _⟩ => show win1_1.index t (2 : Fin 5) * 1 + 1 * 0 = 1; omega
    | ⟨3, _⟩ => show win1_1.index t (3 : Fin 5) * 64 + 1 * (j 2).val = win1_2.index t (2 : Fin 4) * 64 + 1 * (j 2).val; omega
    | ⟨4, _⟩ => show win1_1.index t (4 : Fin 5) * 64 + 1 * (j 3).val = win1_2.index t (3 : Fin 4) * 64 + 1 * (j 3).val; omega

/-- An index of the result is in point `t`'s block iff each coordinate is in the block's range on its axis. -/
theorem mem_blk2 (t : Fin cfg1.N) (i : S8x192x64x64.Idx) :
    i ∈ ((cfg1.win 2).blk t).view.set ↔ ∀ a : Fin 4, win1_2.index t a * S1x32x64x64.size a ≤ (i a).val ∧ (i a).val < win1_2.index t a * S1x32x64x64.size a + S1x32x64x64.size a := by
  show i ∈ ((View.whole main_v3).slice (win1_2.rect t)).set ↔ _
  rw [View.set_slice_whole, Rect.mem_set_unit]
  exact Iff.rfl

/-- The blocks tile the result: the point (n, c / 32) covers (n, c, h, w). -/
theorem covered2 (i : S8x192x64x64.Idx) :
    ∃ t : Fin cfg1.N, (cfg1.win 2).flush t = true ∧ i ∈ ((cfg1.win 2).blk t).view.set := by
  have hi0 : (i 0).val < 8 := (i 0).isLt
  have hi1 : (i 1).val < 192 := (i 1).isLt
  have hi2 : (i 2).val < 64 := (i 2).isLt
  have hi3 : (i 3).val < 64 := (i 3).isLt
  obtain ⟨t, ht⟩ := idx_onto ⟨(i 0).val, hi0⟩ ⟨(i 1).val / 32, by omega⟩
  have q0 : win1_2.index t (0 : Fin 4) = (i 0).val := congrFun ht 0
  have q1 : win1_2.index t (1 : Fin 4) = (i 1).val / 32 := congrFun ht 1
  have q2 : win1_2.index t (2 : Fin 4) = 0 := congrFun ht 2
  have q3 : win1_2.index t (3 : Fin 4) = 0 := congrFun ht 3
  refine ⟨t, flush1_2 t, ?_⟩
  rw [mem_blk2]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 32 ≤ (i 1).val ∧ (i 1).val < win1_2.index t (1 : Fin 4) * 32 + 32; omega
  | ⟨2, _⟩ => show win1_2.index t (2 : Fin 4) * 64 ≤ (i 2).val ∧ (i 2).val < win1_2.index t (2 : Fin 4) * 64 + 64; omega
  | ⟨3, _⟩ => show win1_2.index t (3 : Fin 4) * 64 ≤ (i 3).val ∧ (i 3).val < win1_2.index t (3 : Fin 4) * 64 + 64; omega

/-- After every write-back the result's array is the interleaving of the two inputs. -/
theorem final2 (c : Dev nD) : (dats A B f3 W₀ 0 c).arrAt 2 cfg1.N = G2 A B :=
  (dats A B f3 W₀ 0 c).arrAt_eq_of_cover 2 (G2 A B) (fun t _ => flushed2_eq A B f3 W₀ c t) covered2

end Value

section Region

variable (A B : S8x96x2x64x64.Idx → Elt F .f32) (f3 : S8x192x64x64.Idx → Elt F .f32) (W₀ : Waits sig (HIx 1))
variable (L : GSem nD τ sig → Finset (HIx 1)) (lv : GSem nD τ sig → HIx 1 → ℕ)

/-- What the region is entered from on core `c`: the three arrays, and the core owing nothing with the recorded
    pairs `W₀`. -/
def regPre (c : Dev nD) : sProp (MM F) :=
  iprop((aLoc c ↦{fullShare} A) ∗ (bLoc c ↦{fullShare} B) ∗ (o2Loc c ↦{fullShare} f3) ∗ owes (T c) 0 W₀)

/-- What it leaves: the inputs as they were, the result at the interleaving, and the core owing nothing, its
    recorded pairs those of before and the staging cells' at the region's own index. -/
def regPost (c : Dev nD) : sProp (MM F) :=
  iprop((aLoc c ↦{fullShare} A) ∗ (bLoc c ↦{fullShare} B) ∗ (o2Loc c ↦{fullShare} G2 A B)
    ∗ ∃ W : Waits sig (HIx 1), ⌜(↑W : Set (SemLoc sig × HIx 1)) ⊆ ↑W₀ ∪ cfg1.waitPairs none⌝ ∗ owes (T c) 0 W)

/-- The invariant between points: the scoped buffers no window stages, untouched. -/
theorem Phi_eq (c : Dev nD) (t : Fin (cfg1.N + 1)) :
    (dats A B f3 W₀ 0 c).Φ t = Pipeline.scopedRest (Pipeline.pin (pcfgs (F := F)) adm 0).spec c := by
  dsimp only [dats]

theorem share1 (c : Dev nD) (w : Fin cfg1.W) : (dats A B f3 W₀ 0 c).share w = fullShare :=
  (dats A B f3 W₀ 0 c).share_full (fun _ => rfl) w

/-- The windows' arrays as three points-to assertions. -/
theorem arrays1_eq (c : Dev nD) (Fw : (w : Fin cfg1.W) → Buf (Elt F) ((cfg1.win w).arr.view.loc (c.tc : Thread nD τ))) :
    (dats A B f3 W₀ 0 c).arrays Fw
      = iprop((aLoc c ↦{fullShare} Fw 0) ∗ (bLoc c ↦{fullShare} Fw 1) ∗ (o2Loc c ↦{fullShare} Fw 2)) := by
  rw [Pipeline.arrays_eq cfgs (dats A B f3 W₀) 0 c arr_whole1 (share1 A B f3 W₀ c) Fw, bigSep_W1]

set_option backward.isDefEq.respectTransparency.types false in
/-- The region: the launch's layout, no semaphore of the kernel's own, the body obligation; entered from the three
    arrays and left with the result at the interleaving. -/
def reg : Pipeline.RegionSeg (pcfgs (F := F)) adm (dats A B f3 W₀) none defs₀ 𝒱₀ L lv 0 where
  win := launch1.win.to₀
  block_pos := launch1.block_pos
  stage_whole := launch1.stage_whole
  K := PEmpty
  osem := fun k => k.elim
  ho := Pipeline.OwnSemFacts.none _
  hbody c := (body_obligation A B f3 W₀ c).loose
  hwaits := Pipeline.hwaits_of_owed_zero _ _ _ _ L lv 0 fun _ _ => rfl
  pre c := regPre A B f3 W₀ c
  post c := regPost A B W₀ c
  X c := BI.emp
  Y c := BI.emp
  Z c := BI.emp
  hentry c := by
    have ha := arrays1_eq A B f3 W₀ c (fun w => (dats A B f3 W₀ 0 c).arrAt w 0)
    unfold regPre
    iintro ⟨⟨Ha, Hb, Ho, HO⟩, -, -⟩
    imodintro
    isplitl [Ha Hb Ho]
    · iapply (Entails.of_eq ha.symm)
      isplitl [Ha]; · iexact Ha
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr; · iempintro
    iempintro
  hin c := by
    rw [Phi_eq]
    iintro ⟨-, -, Hr⟩
    iexact Hr
  hout c := by
    rw [Pipeline.ownSems0_none, Phi_eq]
    iintro Hr
    isplitr; · iempintro
    isplitr; · iempintro
    iexact Hr
  hexit c := by
    have ha := arrays1_eq A B f3 W₀ c (fun w => (dats A B f3 W₀ 0 c).arrAt w cfg1.N)
    have h0 : (dats A B f3 W₀ 0 c).arrAt 0 cfg1.N = A := ((dats A B f3 W₀ 0 c).arrAt_in 0 rfl _).trans (A_eq A B f3 W₀ c 0)
    have h1 : (dats A B f3 W₀ 0 c).arrAt 1 cfg1.N = B := ((dats A B f3 W₀ 0 c).arrAt_in 1 rfl _).trans (A_eq A B f3 W₀ c 1)
    have h2 := final2 A B f3 W₀ c
    unfold regPost
    iintro ⟨Ha, HO, -, -⟩
    imodintro
    ihave Ha' := (Entails.of_eq ha) $$ Ha
    icases Ha' with ⟨Ha, Hb, Ho⟩
    isplitl [Ha]; · rw [← h0]; iexact Ha
    isplitl [Hb]; · rw [← h1]; iexact Hb
    isplitl [Ho]; · rw [← h2]; iexact Ho
    unfold Pipeline.Dat.owesAt Pipeline.owesWithin
    iexact HO

theorem reg_pre (c : Dev nD) : (reg A B f3 W₀ L lv).pre c = regPre A B f3 W₀ c := rfl
theorem reg_post (c : Dev nD) : (reg A B f3 W₀ L lv).post c = regPost A B W₀ c := rfl

/-- A proof about the region's call under the certificate's own body table is one about it under the table
    extended by the subcores' dispatch. -/
theorem enter_lift (d : Dev nD) (Φ : PUnit → sProp (MM F)) :
    wp frame (wpE (Pipeline.defs (pcfgs (F := F)) defs₀) (Variants.lift 𝒱₀) (d.tc : Thread nD τ) none) Set.univ
        (Prog.op (TpuEff.customCall (Pipeline.entry (0 : Fin 1)) ()) Prog.ret) Φ
      ⊢ wp frame (wpE ((K (F := F)).defs (D (F := F))) 𝒱 (T d) none) Set.univ
          (Prog.lift (.customCall (SparseCore.inner (Pipeline.entry 0)) ())) Φ :=
  (K (F := F)).wp_liftProg (D (F := F)) 𝒱 (T d) Set.univ none (Prog.lift (.customCall (Pipeline.entry (0 : Fin 1)) ())) Φ

/-- The region as one step of @main on the TensorCore. -/
theorem region_wp (d : Dev nD) (Φ : PUnit → sProp (MM F)) :
    iprop(levAts L lv ∗ boundary (T d) ∗ regPre A B f3 W₀ d
        ∗ Pipeline.cellsGhost cfgs (EP (F := F)) 0 d ∗ Pipeline.toksInit cfgs (EP (F := F)) 0 d
        ∗ (iprop(boundary (T d) ∗ regPost A B W₀ d) -∗ Φ ⟨⟩))
      ⊢ wp frame (wpE ((K (F := F)).defs (D (F := F))) 𝒱 (T d) none) Set.univ
          (Prog.lift (.customCall (SparseCore.inner (Pipeline.entry 0)) ())) Φ := by
  have h := Pipeline.RegionSeg.wp (pcfgs (F := F)) adm (dats A B f3 W₀) none cellOf_inj (EP (F := F)) defs₀ 𝒱₀ L lv
    (reg A B f3 W₀ L lv) d none (fun _ h => by cases h) Prog.ret Φ
  rw [reg_pre, reg_post] at h
  refine BIBase.Entails.trans ?_ (enter_lift d Φ)
  refine BIBase.Entails.trans ?_ h
  iintro ⟨Hl, Hb, Hpre, Hg, Ht, Hk⟩
  isplitl [Hk]
  · iintro H
    rw [wp_ret]
    imodintro
    iapply Hk
    iexact H
  isplitl [Hb]; · iexact Hb
  isplitl [Hpre]; · iexact Hpre
  isplitl [Hl]; · iexact Hl
  isplitl [Hg]; · iexact Hg
  iexact Ht

end Region

end Cert.Proof.KI
end
-- ==== Proof.Launch.lean ====
/-
  The launch: from each thread's body to the run of the whole program.
-/
import proofs.«204280_g3796751090005_cont_sun_c4_229_23_alg».proof.Proof.Pay
import proofs.«204280_g3796751090005_cont_sun_c4_229_23_alg».proof.Proof.Reshape
import proofs.«204280_g3796751090005_cont_sun_c4_229_23_alg».proof.Proof.TcRegion

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

section Split
variable (A B : (d : Dev nD) → Buf (Elt F) (aLoc d)) (f0 : (d : Dev nD) → Buf (Elt F) (o1Loc d))

omit [FloatOps F] in
/-- A family over the sixteen tiles, indexed as the call indexes its tasks. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the two SparseCores, indexed as the call indexes its grid. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's operands split among its sixteen tiles: its read share of each reshaped input is cut into
    sixteen, the remainder kept until the tiles' shares come back; the result slices are already the tiles'. -/
theorem vecSplit : (K (F := F)).VecSplit' (P A B f0) 0 := by
  intro d c
  show stP A B f0 d (Fin.cast nCore_zero c) ⊢ |={Set.univ}=> iprop(
      (bigSep Finset.univ fun i : Fin ((K (F := F)).nSub 0) => goP A B f0 d (Fin.cast nCore_zero c) (Fin.cast nSub_zero i))
      ∗ ((bigSep Finset.univ fun i : Fin ((K (F := F)).nSub 0) => tdP A B d (Fin.cast nCore_zero c) (Fin.cast nSub_zero i))
          -∗ dnP A B d (Fin.cast nCore_zero c)))
  rw [bigSep_tasks (F := F) (fun i => goP A B f0 d (Fin.cast nCore_zero c) i),
    bigSep_tasks (F := F) (fun i => tdP A B d (Fin.cast nCore_zero c) i)]
  generalize Fin.cast nCore_zero c = c'
  unfold goP tdP stP dnP
  rw [bigSep_sep', bigSep_sep', bigSep_sep', bigSep_sep']
  iintro ⟨Ha, Hb, Hs⟩
  ihave Ha' := (Transfers.pointsTo_toks_split (qC c') 16) $$ Ha
  ihave Hb' := (Transfers.pointsTo_toks_split (qC c') 16) $$ Hb
  icases Ha' with ⟨Had, Hat⟩
  icases Hb' with ⟨Hbd, Hbt⟩
  imodintro
  isplitl [Hat Hbt Hs]
  · isplitl [Hat]; · iexact Hat
    isplitl [Hbt]; · iexact Hbt
    iexact Hs
  iintro ⟨Hat, Hbt, Hs⟩
  isplitl [Had Hat]
  · iapply (Transfers.pointsTo_toks_join (qC c') 16)
    isplitl [Had]; · iexact Had
    iexact Hat
  isplitl [Hbd Hbt]
  · iapply (Transfers.pointsTo_toks_join (qC c') 16)
    isplitl [Hbd]; · iexact Hbd
    iexact Hbt
  iexact Hs

end Split

variable (m : (ℓ : Loc nD τ sig) → Buf (Elt F) ℓ) (ρ : Dev nD → PrngReg)

/-- The reshaped inputs and the first result's launch contents. -/
def Am (d : Dev nD) : Buf (Elt F) (aLoc d) := rs (m (x1Loc d))
def Bm (d : Dev nD) : Buf (Elt F) (aLoc d) := rs (m (x2Loc d))
abbrev f0m (d : Dev nD) : Buf (Elt F) (o1Loc d) := m (o1Loc d)

abbrev PP : (K (F := F)).Pay (nD := nD) (Val := Elt F) (Name := ℕ) (U := UU) := P (Am m) (Bm m) (f0m m)

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch deals the TensorCore's proof beyond its arrays: the pipelined region's ghost state. -/
abbrev GG (d : Dev nD) : sProp 𝕄 := iprop(Pipeline.cellsGhost cfgs (EP (F := F)) 0 d ∗ Pipeline.toksInit cfgs (EP (F := F)) 0 d)

omit [FloatOps F] in
/-- The region's ghost state, per device, regrouped: the one pipeline's cells and tokens side by side. -/
theorem GG_deal :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => GG (F := F) d := by
  rw [bigSep_sep',
    bigSep_congr (fun c _ => bigSep_univ_of_subsingleton (0 : Fin 1) (Φ := fun p => Pipeline.cellsGhost cfgs (EP (F := F)) p c)),
    bigSep_congr (fun c _ => bigSep_univ_of_subsingleton (0 : Fin 1) (Φ := fun p => (Pipeline.toksInit cfgs (EP (F := F)) p c : sProp 𝕄)))]

omit [FloatOps F] in
theorem bigSep_emp' {I : Type} (s : Finset I) : (bigSep s fun _ => iprop(emp)) = (iprop(emp) : sProp 𝕄) := bigSep_emp_const s

omit [FloatOps F] in
/-- The launch deals the kernels' proofs nothing of its own. -/
theorem Px_emp : (bigSep Finset.univ fun thr : Thread nD τ => bigSep Finset.univ fun q : Fin 1 => (PP m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  rw [Px_emp]
  unfold u₀
  have hfund : (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄) ⊢ _ :=
    Pipeline.fund_ghost (nD := nD) (τ := τ) cfgs (EP (F := F)) cellOf_inj
  iintro Hu
  ihave H := (ownU_pair _ _) $$ Hu
  icases H with ⟨HH, HR⟩
  ihave HR' := (own_pair_emb (embR : Emb (UP × Counters) 𝕄) _ _) $$ HR
  icases HR' with ⟨HP, -⟩
  imod hfund $$ HP with Hgt
  imodintro
  isplitl [HH]; · iexact HH
  isplitl [Hgt]
  · iapply (GG_deal (F := F)); iexact Hgt
  iempintro

/-! ## @main on the TensorCore -/

abbrev x1' : DevRef τ sig := Proc.devRef .tc (main_arg0 : Ref sig .tc)
abbrev x2' : DevRef τ sig := Proc.devRef .tc (main_arg1 : Ref sig .tc)
abbrev a' : DevRef τ sig := Proc.devRef .tc (main_v0 : Ref sig .tc)
abbrev b' : DevRef τ sig := Proc.devRef .tc (main_v1 : Ref sig .tc)
abbrev o1' : DevRef τ sig := Proc.devRef .tc (main_v2 : Ref sig .tc)
abbrev o2' : DevRef τ sig := Proc.devRef .tc (main_v3 : Ref sig .tc)

/-- The two reshapes. -/
abbrev op0 : HloOp τ sig (Elt F) := StableHlo.reshape main_arg0 main_v0 rfl shapeCasts_S8x192x64x64_S8x96x2x64x64
abbrev op1 : HloOp τ sig (Elt F) := StableHlo.reshape main_arg1 main_v1 rfl shapeCasts_S8x192x64x64_S8x96x2x64x64

/-- The TensorCore's six arrays, all unscoped. -/
abbrev S6 : Finset (DevRef τ sig) := {x1', x2', a', b', o1', o2'}

omit [FloatOps F] in
theorem held_S6 (d : Dev nD) (W : Valuation τ sig (Elt F)) :
    (held (T d) S6 W : sProp 𝕄) = iprop((x1Loc d ↦{fullShare} W x1') ∗ (x2Loc d ↦{fullShare} W x2') ∗ (aLoc d ↦{fullShare} W a')
      ∗ (bLoc d ↦{fullShare} W b') ∗ (o1Loc d ↦{fullShare} W o1') ∗ (o2Loc d ↦{fullShare} W o2')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((x1Loc d ↦{fullShare} W main_arg0) ∗ (x2Loc d ↦{fullShare} W main_arg1) ∗ (aLoc d ↦{fullShare} W main_v0)
      ∗ (bLoc d ↦{fullShare} W main_v1) ∗ (o1Loc d ↦{fullShare} W main_v2) ∗ (o2Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S6 (V0 m d) := by
  rw [unscopedBufs_eq, held_S6]; rfl

theorem h0 : (op0 (F := F)).bufs ⊆ S6 := show ({x1', a'} : Finset (DevRef τ sig)) ⊆ S6 by decide
theorem h1 : (op1 (F := F)).bufs ⊆ S6 := show ({x2', b'} : Finset (DevRef τ sig)) ⊆ S6 by decide

/-- The contents after the two reshapes. -/
abbrev V2 (d : Dev nD) : Valuation τ sig (Elt F) := (op1 (F := F)).result ((op0 (F := F)).result (V0 m d))

theorem V2_x1 (d : Dev nD) : V2 m d x1' = m (x1Loc d) := by
  unfold V2
  rw [(op1 (F := F)).result_of_not_mem _ (b := x1') (show x1' ∉ ({b'} : Finset (DevRef τ sig)) by decide),
    (op0 (F := F)).result_of_not_mem _ (b := x1') (show x1' ∉ ({a'} : Finset (DevRef τ sig)) by decide)]
  rfl
theorem V2_x2 (d : Dev nD) : V2 m d x2' = m (x2Loc d) := by
  unfold V2
  rw [(op1 (F := F)).result_of_not_mem _ (b := x2') (show x2' ∉ ({b'} : Finset (DevRef τ sig)) by decide),
    (op0 (F := F)).result_of_not_mem _ (b := x2') (show x2' ∉ ({a'} : Finset (DevRef τ sig)) by decide)]
  rfl
theorem V2_o1 (d : Dev nD) : V2 m d o1' = m (o1Loc d) := by
  unfold V2
  rw [(op1 (F := F)).result_of_not_mem _ (b := o1') (show o1' ∉ ({b'} : Finset (DevRef τ sig)) by decide),
    (op0 (F := F)).result_of_not_mem _ (b := o1') (show o1' ∉ ({a'} : Finset (DevRef τ sig)) by decide)]
  rfl
theorem V2_o2 (d : Dev nD) : V2 m d o2' = m (o2Loc d) := by
  unfold V2
  rw [(op1 (F := F)).result_of_not_mem _ (b := o2') (show o2' ∉ ({b'} : Finset (DevRef τ sig)) by decide),
    (op0 (F := F)).result_of_not_mem _ (b := o2') (show o2' ∉ ({a'} : Finset (DevRef τ sig)) by decide)]
  rfl
theorem V2_a (d : Dev nD) : V2 m d a' = Am m d := by
  unfold V2
  rw [(op1 (F := F)).result_of_not_mem _ (b := a') (show a' ∉ ({b'} : Finset (DevRef τ sig)) by decide)]
  exact (StableHlo.reshape_result _ _ _ _ _ _ (V0 m d)).trans rfl
theorem V2_b (d : Dev nD) : V2 m d b' = Bm m d := by
  unfold V2
  refine (StableHlo.reshape_result _ _ _ _ _ _ ((op0 (F := F)).result (V0 m d))).trans ?_
  show rs ((op0 (F := F)).result (V0 m d) x2') = _
  rw [(op0 (F := F)).result_of_not_mem _ (b := x2') (show x2' ∉ ({a'} : Finset (DevRef τ sig)) by decide)]
  rfl

theorem held_V2 (d : Dev nD) :
    (held (T d) S6 (V2 m d) : sProp 𝕄) = iprop((x1Loc d ↦{fullShare} m (x1Loc d)) ∗ (x2Loc d ↦{fullShare} m (x2Loc d)) ∗ (aLoc d ↦{fullShare} Am m d)
      ∗ (bLoc d ↦{fullShare} Bm m d) ∗ (o1Loc d ↦{fullShare} m (o1Loc d)) ∗ (o2Loc d ↦{fullShare} m (o2Loc d))) := by
  rw [held_S6, V2_x1, V2_x2, V2_a, V2_b, V2_o1, V2_o2]

/-- What the call takes for the two SparseCores, and what it hands back. -/
theorem st0_eq (d : Dev nD) : (bigSep Finset.univ fun c : Fin ((K (F := F)).nCore 0) => (PP m).st 0 d c)
    = iprop((bigSep Finset.univ fun c : Fin 2 => aLoc d ↦{qC c} Am m d) ∗ (bigSep Finset.univ fun c : Fin 2 => bLoc d ↦{qC c} Bm m d)
      ∗ bigSep Finset.univ fun c : Fin 2 => bigSep Finset.univ fun i : Fin 16 => bigSep Finset.univ fun k : Fin 24 =>
          o1Loc d ↦[oSet (coordsV c i) k]{fullShare} f0m m d) := by
  show (bigSep Finset.univ fun c : Fin ((K (F := F)).nCore 0) => stP (Am m) (Bm m) (f0m m) d (Fin.cast nCore_zero c)) = _
  rw [bigSep_cores (F := F) (fun c => stP (Am m) (Bm m) (f0m m) d c)]
  unfold stP tileSlices
  rw [bigSep_sep', bigSep_sep']
theorem dn0_eq (d : Dev nD) : (bigSep Finset.univ fun c : Fin ((K (F := F)).nCore 0) => (PP m).dn 0 d c)
    = iprop((bigSep Finset.univ fun c : Fin 2 => aLoc d ↦{qC c} Am m d) ∗ (bigSep Finset.univ fun c : Fin 2 => bLoc d ↦{qC c} Bm m d)
      ∗ bigSep Finset.univ fun c : Fin 2 => bigSep Finset.univ fun i : Fin 16 => bigSep Finset.univ fun k : Fin 24 =>
          o1Loc d ↦[oSet (coordsV c i) k]{fullShare} G1 (Am m d) (Bm m d)) := by
  show (bigSep Finset.univ fun c : Fin ((K (F := F)).nCore 0) => dnP (Am m) (Bm m) d (Fin.cast nCore_zero c)) = _
  rw [bigSep_cores (F := F) (fun c => dnP (Am m) (Bm m) d c)]
  unfold dnP tileSlices
  rw [bigSep_sep', bigSep_sep']

/-- The TensorCore's handshake state after the one call: it owes nothing; what it holds beside that is kept as it is. -/
theorem tcSt_one (d : Dev nD) :
    (K (F := F)).tcSt EH d 1 ⊢ (iprop(∃ W : Waits sig (HIx 1), ⌜(K (F := F)).WBelow (T d) W (8 * 1)⌝ ∗ owes (T d) 0 W
      ∗ (∀ W' : Waits sig (HIx 1), (⌜(K (F := F)).WBelow (T d) W' (8 * 1)⌝ ∗ owes (T d) 0 W') -∗ (K (F := F)).tcSt EH d 1)) : sProp 𝕄) := by
  unfold SparseCore.Cfg.tcSt
  rw [(K (F := F)).Otc_end d le_rfl]
  iintro ⟨⟨%W, %hW, HO⟩, Hrest⟩
  iexists W
  isplitr; · ipureintro; exact hW
  isplitl [HO]; · iexact HO
  iintro %W' ⟨%hW', HO'⟩
  isplitl [HO']
  · iexists W'
    isplitr; · ipureintro; exact hW'
    iexact HO'
  iexact Hrest

/-- What @main leaves the claim: the inputs at their launch contents, the two results at their values. -/
abbrev FIN (d : Dev nD) : sProp 𝕄 :=
  iprop((x1Loc d ↦{fullShare} m (x1Loc d)) ∗ (x2Loc d ↦{fullShare} m (x2Loc d))
    ∗ (o1Loc d ↦{fullShare} G1 (Am m d) (Bm m d)) ∗ (o2Loc d ↦{fullShare} G2 (Am m d) (Bm m d)))

/-- @main on device d's TensorCore: the two reshapes, the call (the reshaped inputs' read shares and the first
    result's slices out to the two SparseCores and back), the pipelined region for the second result. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg, Ht⟩
  -- the first reshape
  iapply (wp_hlo_within 𝒱 (SparseCore.T d) none Set.univ (op := op0) (S := S6) h0 (V := V0 m d)) $$ [Hb Hheld]
  · isplitl [Hb]; · iexact Hb
    iexact Hheld
  iintro ⟨Hb, Hheld⟩
  rw [wp_ret]; imodintro
  -- the second
  iapply (wp_hlo_within 𝒱 (SparseCore.T d) none Set.univ (op := op1) (S := S6) h1 (V := (op0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Hx1, Hx2, Ha, Hbb, Ho1, Ho2⟩
  -- a read share of each reshaped input per SparseCore, the first result cut into the tiles' slices
  ihave Ha' := (Transfers.pointsTo_toks_split fullShare 2) $$ Ha
  icases Ha' with ⟨Had, Hat⟩
  ihave Hb' := (Transfers.pointsTo_toks_split fullShare 2) $$ Hbb
  icases Hb' with ⟨Hbd, Hbt⟩
  ihave Ho := (Entails.of_eq (o1_split (F := F) d (f0m m d))) $$ Ho1
  -- the call
  iapply ((K (F := F)).wp_run (D (F := F)) 𝒱 (EH := EH) (P := PP m) κ d 0) $$ [Hst Hat Hbt Ho Hb Hx1 Hx2 Had Hbd Ho2 Hg Ht]
  isplitr; · iexact Hctx
  isplitl [Hst]; · iexact Hst
  isplitl [Hat Hbt Ho]
  · rw [st0_eq]
    isplitl [Hat]; · iexact Hat
    isplitl [Hbt]; · iexact Hbt
    iexact Ho
  iintro ⟨Hst, Hdn⟩
  ihave Hdn' := (Entails.of_eq (dn0_eq m d)) $$ Hdn
  icases Hdn' with ⟨Hat, Hbt, Ho⟩
  ihave Ha := (Transfers.pointsTo_toks_join fullShare 2) $$ [Had Hat]
  · isplitl [Had]; · iexact Had
    iexact Hat
  ihave Hbb := (Transfers.pointsTo_toks_join fullShare 2) $$ [Hbd Hbt]
  · isplitl [Hbd]; · iexact Hbd
    iexact Hbt
  ihave Ho1 := (Entails.of_eq (o1_split (F := F) d (G1 (Am m d) (Bm m d))).symm) $$ Ho
  -- the pipelined region, entered owing nothing
  ihave Hst1 := (Entails.of_eq (show ((K (F := F)).tcSt EH d ((0 : Fin 1).val + 1) : sProp 𝕄) = (K (F := F)).tcSt EH d 1 from rfl)) $$ Hst
  ihave Hst' := (tcSt_one (F := F) d) $$ Hst1
  icases Hst' with ⟨%W, %hW, HO, Hback⟩
  ihave Hlev := (SparseCore.Cfg.ctx_levAts κ) $$ Hctx
  iapply (region_wp (F := F) (Am m d) (Bm m d) (m (o2Loc d)) W (K (F := F)).L (K (F := F)).lev d _) $$ [Hlev Hb Ha Hbb Ho2 HO Hg Ht Hback Hx1 Hx2 Ho1]
  isplitl [Hlev]; · iexact Hlev
  isplitl [Hb]; · iexact Hb
  isplitl [Ha Hbb Ho2 HO]
  · unfold regPre
    isplitl [Ha]; · iexact Ha
    isplitl [Hbb]; · iexact Hbb
    isplitl [Ho2]; · iexact Ho2
    iexact HO
  isplitl [Hg]; · iexact Hg
  isplitl [Ht]; · iexact Ht
  iintro ⟨-, Hpost⟩
  unfold regPost
  icases Hpost with ⟨-, -, Ho2, %W', %hW', HO⟩
  imodintro
  isplitl [Hback HO]
  · iapply Hback
    isplitr
    · ipureintro
      intro p hp
      rcases hW' hp with h | ⟨w, s, rfl⟩
      · exact hW p h
      · rw [(K (F := F)).lev_none]; exact Nat.zero_le _
    iexact HO
  isplitl [Hx1]; · iexact Hx1
  isplitl [Hx2]; · iexact Hx2
  isplitl [Ho1]; · iexact Ho1
  iexact Ho2

def fq (d : Dev nD) (s' : Phys nD τ sig (Elt F)) : Prop :=
  s'.mem.mem (x1Loc d) = m (x1Loc d) ∧ s'.mem.mem (x2Loc d) = m (x2Loc d)
    ∧ s'.mem.mem (o1Loc d) = G1 (Am m d) (Bm m d) ∧ s'.mem.mem (o2Loc d) = G2 (Am m d) (Bm m d)

theorem hfin (d : Dev nD) (s' : Phys nD τ sig (Elt F)) : iprop(FIN m d ∗ SI s') ⊢ (⌜fq m d s'⌝ : sProp 𝕄) := by
  iintro ⟨⟨H1, H2, H3, H4⟩, HSI⟩
  ihave H := (persistent_entails_right (SI_pointsTo_agree (st := s') (ℓ := x1Loc d) (I := Finset.univ) (q := fullShare) (f := m (x1Loc d)))) $$ [HSI H1]
  · isplitl [HSI] <;> iassumption
  icases H with ⟨%h1, HSI, -⟩
  ihave H := (persistent_entails_right (SI_pointsTo_agree (st := s') (ℓ := x2Loc d) (I := Finset.univ) (q := fullShare) (f := m (x2Loc d)))) $$ [HSI H2]
  · isplitl [HSI] <;> iassumption
  icases H with ⟨%h2, HSI, -⟩
  ihave H := (persistent_entails_right (SI_pointsTo_agree (st := s') (ℓ := o1Loc d) (I := Finset.univ) (q := fullShare) (f := G1 (Am m d) (Bm m d)))) $$ [HSI H3]
  · isplitl [HSI] <;> iassumption
  icases H with ⟨%h3, HSI, -⟩
  ihave H := (SI_pointsTo_agree (st := s') (ℓ := o2Loc d) (I := Finset.univ) (q := fullShare) (f := G2 (Am m d) (Bm m d))) $$ [HSI H4]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

def QC : PUnit × MemSt nD τ sig (Elt F) → Prop := fun r => ∀ c : Dev nD,
  r.2.mem (x1Loc c) = m (x1Loc c) ∧ r.2.mem (x2Loc c) = m (x2Loc c)
    ∧ r.2.mem (o1Loc c) = Cert.Proof.Spec.swapEven (m (x1Loc c)) (m (x2Loc c))
    ∧ r.2.mem (o2Loc c) = Cert.Proof.Spec.swapEven (m (x2Loc c)) (m (x1Loc c))

theorem run_main [∀ e, Nonempty (Elt F e)]
    (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (Am m) (Bm m) (f0m m)))
    m ρ main (fun d => GG (F := F) d) (FIN m) (u₀ (F := F)) (sep_elim_left.trans (hu₀ m)) (hmain m ρ) (fq m) (hfin m) (QC m)
    (fun s' h c => by
      obtain ⟨h1, h2, h3, h4⟩ := h c
      exact ⟨h1, h2, h3.trans (G1_rs _ _), h4.trans (G2_rs _ _)⟩)

end Cert.Proof.KI

end
-- ==== Proof.RefRun.lean ====
/-
  The reference program's run.

  The reference computes, over the channel axis (192 channels), the mask "channel index is even":
  an iota over the channels, its remainder modulo 2 (the truncated remainder followed by the sign
  correction that turns it into the floored one), and the comparison of that remainder with zero.
  The mask is stretched over the whole shape [8, 192, 64, 64], and each result selects, element by
  element, one of the two argument arrays by it.  Here the program is listed as the straight line of
  its thirty-one operations (the outlined helper functions unfolded where they are called), run, and
  each result is shown to be the exchange of the even channels of the two arguments.
-/
import proofs.«204280_g3796751090005_cont_sun_c4_229_23_alg».proof.Proof.Gen.ReferenceIdeal
import proofs.«204280_g3796751090005_cont_sun_c4_229_23_alg».proof.Proof.Spec
import Idealize.ShloMosaic.Lib.StableHlo.Run
import Idealize.ShloMosaic.Lib.ValueIdx
import Idealize.ShloMosaic.Lib.Pipeline.Value

noncomputable section

namespace Cert.Proof.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The program's thirty-one operations, in order: the channel iota and the modulus 2; the remainder
    helper's twenty-one (its own selection helper's one among them); the zero, its stretch, the
    comparison and the mask's placement on the channel axis; then twice the stretch of the mask over
    the whole shape and the selection. -/
abbrev ops : List (HloOp τ sig (Elt F)) :=
  [ nullary main_v0 (iotaInDim S192 32 0),
    nullary main_c (constantI S_ 32 2#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S192 ![] bcast_S_S192),
    TRef.binary (.of main_v0) main_call0.v3 main_call0.v4 Host.remsi,
    TRef.nullary main_call0.c_1 (constantI S_ 32 0#32),
    TRef.unary main_call0.c_1 main_call0.v5 (broadcastInDim S192 ![] bcast_S_S192),
    TRef.binary main_call0.v4 main_call0.v5 main_call0.v6 (cmpi .ne),
    TRef.nullary main_call0.c_2 (constantI S_ 32 0#32),
    TRef.unary main_call0.c_2 main_call0.v7 (broadcastInDim S192 ![] bcast_S_S192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S192 ![] bcast_S_S192),
    TRef.binary main_call0.v8 main_call0.v10 main_call0.v11 (cmpi .ne),
    TRef.binary main_call0.v11 main_call0.v6 main_call0.v12 andi,
    TRef.unary main_call0.call0.v0 main_call0.v13 (broadcastInDim S192 ![] bcast_S_S192),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S192 ![] bcast_S_S192 : (⟨S_, .i32⟩ : BufTy).Contents (Elt F) → (⟨S192, .i32⟩ : BufTy).Contents (Elt F)),
    binary main_v1 main_v2 main_v3 (cmpi .eq : (⟨S192, .i32⟩ : BufTy).Contents (Elt F) → (⟨S192, .i32⟩ : BufTy).Contents (Elt F) → (⟨S192, .i1⟩ : BufTy).Contents (Elt F)),
    unary main_v3 main_v4 (broadcastInDim S1x192x1x1 ![1] bcast_S192_S1x192x1x1_1 : (⟨S192, .i1⟩ : BufTy).Contents (Elt F) → (⟨S1x192x1x1, .i1⟩ : BufTy).Contents (Elt F)),
    TRef.unary (.of main_v4 : TRef sig ⟨S1x192x1x1, .i1⟩) main_call1.v0 (broadcastInDim S8x192x64x64 ![0, 1, 2, 3] bcast_S1x192x1x1_S8x192x64x64_0_1_2_3),
    TRef.ternary main_call1.v0 (.of main_arg1) (.of main_arg0) main_call1.v1 select,
    TRef.unary (.of main_v4 : TRef sig ⟨S1x192x1x1, .i1⟩) main_call2.v0 (broadcastInDim S8x192x64x64 ![0, 1, 2, 3] bcast_S1x192x1x1_S8x192x64x64_0_1_2_3),
    TRef.ternary main_call2.v0 (.of main_arg0) (.of main_arg1) main_call2.v1 select ]

set_option maxRecDepth 1024 in
/-- The program is that straight line: the helper functions' bodies unfolded at their calls, both sides
    are one chain of steps once sequencing is reassociated. -/
theorem main_eq (c : Dev nD) : main (F := F) c = seq ops := by
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., nullary_bufs_sub .., binary_bufs_sub ..,
    nullary_bufs_sub .., ternary_bufs_sub .., unary_bufs_sub .., binary_bufs_sub .., nullary_bufs_sub ..,
    unary_bufs_sub .., binary_bufs_sub .., nullary_bufs_sub .., unary_bufs_sub .., binary_bufs_sub ..,
    nullary_bufs_sub .., binary_bufs_sub .., unary_bufs_sub .., binary_bufs_sub .., binary_bufs_sub ..,
    unary_bufs_sub .., binary_bufs_sub .., ternary_bufs_sub .., nullary_bufs_sub .., unary_bufs_sub ..,
    binary_bufs_sub .., unary_bufs_sub .., unary_bufs_sub .., ternary_bufs_sub .., unary_bufs_sub ..,
    ternary_bufs_sub ..⟩

/-- Every fair execution of the program terminates, each buffer ending at the fold of the operations
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The mask, as a pure term

The integer chain the program runs before it touches the arrays, written once as a function of nothing:
every operation of it is over the 192 channel indices (or a scalar), none over the arrays' shape. -/

section Mask

/-- The channel indices 0 … 191 as 32-bit words. -/
def chan : IVec S192 32 := iotaInDim S192 32 0

/-- The modulus as the remainder helper reads it: 2, replaced by 1 were it 0 (it is not). -/
def modulus : IVec S_ 32 :=
  select (cmpi .eq (constantI S_ 32 2#32) (constantI S_ 32 0#32)) (constantI S_ 32 1#32) (constantI S_ 32 2#32)

/-- The modulus at every channel. -/
def modulusV : IVec S192 32 := broadcastInDim S192 ![] Gen.bcast_S_S192 modulus

/-- Zero at every channel. -/
def zeroV : IVec S192 32 := broadcastInDim S192 ![] Gen.bcast_S_S192 (constantI S_ 32 0#32)

/-- The truncated remainder of each channel index by the modulus (it has the dividend's sign). -/
def truncRem : IVec S192 32 := Host.remsi chan modulusV

/-- Where the truncated remainder must be corrected to the floored one: it is not zero and its sign is not
    the modulus's. -/
def fixup : IVec S192 1 :=
  andi (cmpi .ne (cmpi .slt truncRem zeroV) (broadcastInDim S192 ![] Gen.bcast_S_S192 (cmpi .slt modulus (constantI S_ 32 0#32))))
    (cmpi .ne truncRem zeroV)

/-- The floored remainder: the truncated one, the modulus added where the correction applies. -/
def flooredRem : IVec S192 32 := select fixup (addi truncRem modulusV) truncRem

/-- The mask over the channels: the remainder is zero. -/
def evenMask : IVec S192 1 := cmpi .eq flooredRem zeroV

/-- The mask over the whole shape: the channel mask placed on the channel axis, then stretched along the
    other three. -/
def mask4 : IVec S8x192x64x64 1 :=
  broadcastInDim S8x192x64x64 ![0, 1, 2, 3] Gen.bcast_S1x192x1x1_S8x192x64x64_0_1_2_3
    (broadcastInDim S1x192x1x1 ![1] Gen.bcast_S192_S1x192x1x1_1 evenMask)

/-- The channel mask is the parity of the channel: one at the even channels, zero at the odd ones. Each of
    the 192 channels is a computation on 32-bit words. -/
theorem evenMask_apply : ∀ c : Fin 192, evenMask (ValueIdx.ix1 c) = if c.val % 2 = 0 then 1#1 else 0#1 := by
  decide +kernel

/-- The full mask at an index is the channel mask at the index's channel. -/
theorem mask4_apply (i : S8x192x64x64.Idx) : mask4 i = evenMask (ValueIdx.ix1 (i 1)) := by
  unfold mask4
  refine (broadcastInDim_apply _ _ _ i (ValueIdx.ix4 (0 : Fin 1) (i 1) (0 : Fin 1) (0 : Fin 1)) fun a => ?_).trans ?_
  · match a with
    | ⟨0, _⟩ => rfl
    | ⟨1, _⟩ => rfl
    | ⟨2, _⟩ => rfl
    | ⟨3, _⟩ => rfl
  · refine broadcastInDim_apply _ _ _ _ (ValueIdx.ix1 (i 1)) fun a => ?_
    match a with
    | ⟨0, _⟩ => rfl

/-- Selecting by the mask is the exchange of the even channels: the first operand on the even channels, the
    second on the odd ones. -/
theorem select_mask4 {α : Type} (a b : S8x192x64x64.Idx → α) :
    select mask4 b a = Cert.Proof.Spec.swapEven a b := by
  funext i
  have hm : mask4 i = if (i 1).val % 2 = 0 then 1#1 else 0#1 := (mask4_apply i).trans (evenMask_apply (i 1))
  rw [ValueIdx.select_apply, hm, Cert.Proof.Spec.swapEven_apply]
  by_cases h : (i 1).val % 2 = 0
  · rw [if_pos h, if_pos h]; rfl
  · rw [if_neg h, if_neg h]; rfl

end Mask

/-! ## The results of the fold -/

theorem v5_eq (V : Valuation τ sig (Elt F)) :
    after ops V (main_v5 : DevRef τ sig) = select mask4 (V (main_arg1 : DevRef τ sig)) (V (main_arg0 : DevRef τ sig)) := by
  after_results_simp
  rfl

theorem v6_eq (V : Valuation τ sig (Elt F)) :
    after ops V (main_v6 : DevRef τ sig) = select mask4 (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

end Cert.Proof.RefRun

open Idealize.ShloMosaic Idealize.SL.Sem Cert.ReferenceIdeal in
/-- On every device, from any memory with zero counters: every fair execution of the reference terminates;
    its first result is the first argument with its even channels taken from the second, its second result
    the mirror image, and the two arguments are unchanged. -/
theorem Cert.Proof.RefRun.run [Cert.ReferenceIdeal.Facts]
    (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v5) = Cert.Proof.Spec.swapEven (m ((c.tc : Thread nD τ).loc main_arg0)) (m ((c.tc : Thread nD τ).loc main_arg1))
        ∧ r.2.mem ((c.tc : Thread nD τ).loc main_v6) = Cert.Proof.Spec.swapEven (m ((c.tc : Thread nD τ).loc main_arg1)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.ReferenceIdeal.defs (F := Ideal)) _ _).mono
    (fun _ h c =>
      ⟨(h c main_v5).trans ((Cert.Proof.RefRun.v5_eq _).trans (Cert.Proof.RefRun.select_mask4 _ _)),
       (h c main_v6).trans ((Cert.Proof.RefRun.v6_eq _).trans (Cert.Proof.RefRun.select_mask4 _ _)),
       (h c main_arg0).trans (Cert.Proof.RefRun.arg0_eq _),
       (h c main_arg1).trans (Cert.Proof.RefRun.arg1_eq _)⟩)
    (Cert.Proof.RefRun.run_fold m ρ)

end
-- ==== Proof.ClaimKI.lean ====
/-
  The claims about the idealized kernel and the reference, read off the two runs.

  Both programs are run to the same statement: the arguments end unchanged, the first result is the first
  argument with its even channels taken from the second, the second result the mirror image.  The frames drop
  the values; the agreement of the two programs names the two exchanged arrays as the common results.
-/
import proofs.«204280_g3796751090005_cont_sun_c4_229_23_alg».proof.Defs
import proofs.«204280_g3796751090005_cont_sun_c4_229_23_alg».proof.Proof.Gen.Pre_finite_inputs
import proofs.«204280_g3796751090005_cont_sun_c4_229_23_alg».proof.Proof.Launch
import proofs.«204280_g3796751090005_cont_sun_c4_229_23_alg».proof.Proof.RefRun

noncomputable section

namespace Cert.Proof.KI

open Cert.KernelIdeal Cert.KernelIdeal.Gen
open Idealize.ShloMosaic
open Idealize.ShloMosaic.SparseCore (S V T)
open Idealize.SL.Sem

/-- The tile obligation at every launch memory: what the assembly takes from the body's proof. -/
abbrev TileHyp : Prop :=
  ∀ m : (ℓ : Loc nD τ sig) → Buf (Elt Ideal) ℓ, (K (F := Ideal)).TileObl (D (F := Ideal)) 𝒱 (PP m) v₀ 0

/-- The idealized kernel runs and leaves its arguments unchanged. -/
theorem frame_KernelIdeal (htile : TileHyp) : Cert.frame_KernelIdeal := fun m g _ =>
  (θ_run (Cert.KernelIdeal.defs (F := Ideal)) _ _).mono (fun _ h c => ⟨(h c).1, (h c).2.1⟩)
    (run_main (F := Ideal) m g (htile m))

/-- The reference runs and leaves its arguments unchanged. -/
theorem frame_ReferenceIdeal : Cert.frame_ReferenceIdeal := fun m g _ =>
  (θ_run (Cert.ReferenceIdeal.defs (F := Ideal)) _ _).mono (fun _ h c => ⟨(h c).2.2.1, (h c).2.2.2⟩)
    (Cert.Proof.RefRun.run m g)

/-- From memories agreeing on the arguments, the idealized kernel and the reference end with equal results:
    the two exchanged arrays. -/
theorem algebraic (htile : TileHyp) : Cert.algebraic_KernelIdeal_ReferenceIdeal := fun m g m' g' _ hagree =>
  ⟨fun c => Cert.Proof.Spec.swapEven (m (x1Loc c)) (m (x2Loc c)),
   fun c => Cert.Proof.Spec.swapEven (m (x2Loc c)) (m (x1Loc c)),
   (θ_run (Cert.KernelIdeal.defs (F := Ideal)) _ _).mono
     (fun _ h c => ⟨(h c).2.2.1, (h c).2.2.2, (h c).1, (h c).2.1⟩) (run_main (F := Ideal) m g (htile m)),
   (θ_run (Cert.ReferenceIdeal.defs (F := Ideal)) _ _).mono
     (fun _ h c => by
       obtain ⟨h1, h2, h3, h4⟩ := h c
       have e0 := (hagree c).1
       have e1 := (hagree c).2
       refine ⟨?_, ?_, h3, h4⟩
       · rw [h1, e0, e1]
       · rw [h2, e0, e1])
     (Cert.Proof.RefRun.run m' g')⟩

end Cert.Proof.KI

end
-- ==== Proof.SetupB.lean ====
/-
  The kernel program as the launch theorem of a SparseCore program sees it, and the resource algebra the
  proof works in.

  The program's @main runs on the TensorCore: two reshapes of the inputs [8,192,64,64] → [8,96,2,64,64]
  (channel c = 2p + e becomes the pair (p, e)), one call that runs a copying kernel on the 2 × 16 vector
  subcores, and one pipelined kernel region on the TensorCore itself.  The threads are the TensorCore, the two
  sequencers and the thirty-two vector subcores.

  Ghost state, three components side by side: the launch handshakes' rounds (left), the rounds of the
  pipelined region's staging cells, and the counters of the copying kernel's local transfers (found in the
  right factor by instance).
-/
import proofs.«204280_g3796751090005_cont_sun_c4_229_23_alg».proof.Kernel
import proofs.«204280_g3796751090005_cont_sun_c4_229_23_alg».proof.Proof.Gen.Kernel
import proofs.«204280_g3796751090005_cont_sun_c4_229_23_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the certificate's own body table: the two kernels' and the pipelined region's. -/
abbrev ΛP : Labels := Pipeline.Sig Λ₀ (Fin 1) fun p => (pcfgs (F := F) p).Adm
/-- The one SparseCore call. -/
abbrev K : SparseCore.Cfg τ sig (ΛP (F := F)) 1 := sc (F := F)
/-- The body table under the SparseCore dispatch: the kernels' bodies and the pipelined region. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The four launch semaphores are distinct, unscoped, and no buffer is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelined region's rounds (its staging cells). -/
abbrev UP : Type := URounds (GSem nD τ sig) Unit
/-- Handshakes, the region's cells, and the local transfers' counters. -/
abbrev UU : Type := UH × (UP × Counters)

/-- The machine's algebra over those. -/
abbrev MM (F : FTy → Type) : Type := MT nD τ sig (HIx 1) (Elt F) ℕ UU ℕ

/-- The handshakes' component, embedded. -/
abbrev EH : Emb UH (MM F) := embL
/-- The pipelined region's component, embedded: left of the right factor. -/
def EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP (MM F)).LandsIn (upEmb : UEmb _ (MM F)) := by unfold EP; infer_instance

/-! ## The arrays, as the TensorCore names them -/

/-- The two inputs, their two reshapes, and the two results. -/
abbrev x1Loc (d : Dev nD) : Loc nD τ sig := (SparseCore.T d).loc main_arg0
abbrev x2Loc (d : Dev nD) : Loc nD τ sig := (SparseCore.T d).loc main_arg1
abbrev aLoc (d : Dev nD) : Loc nD τ sig := (SparseCore.T d).loc main_v0
abbrev bLoc (d : Dev nD) : Loc nD τ sig := (SparseCore.T d).loc main_v1
abbrev o1Loc (d : Dev nD) : Loc nD τ sig := (SparseCore.T d).loc main_v2
abbrev o2Loc (d : Dev nD) : Loc nD τ sig := (SparseCore.T d).loc main_v3

end Cert.Proof.KB

end
-- ==== Proof.TilesB.lean ====
/-
  The copying kernel's memrefs and one tile's share of the work, named.

  Worker number `wid = 2·(subcore) + core` (0 … 31) handles sample `wid / 4` and the 24 channel pairs
  `(wid % 4)·24 + k`, `k < 24`.  Output slice `k` of a tile is the block [1, 2, 64, 64] of the first result at
  (sample, 2·pair, 0, 0): the two channels of one pair.  The slices of all tiles tile the result array.
-/
import proofs.«204280_g3796751090005_cont_sun_c4_229_23_alg».proof.Proof.SetupB

noncomputable section

namespace Cert.Proof.KB

open Cert.Kernel Cert.Kernel.Gen
open Idealize.ShloMosaic
open Idealize.ShloMosaic.SparseCore (S V T)

/-- The two reshaped inputs, the first result and the scratch, as a vector subcore's kernel is passed them. -/
abbrev aV : Memref sig .scVector .hbm S8x96x2x64x64 .f32 := Memref.whole main_v0_scv
abbrev bV : Memref sig .scVector .hbm S8x96x2x64x64 .f32 := Memref.whole main_v1_scv
abbrev oV : Memref sig .scVector .hbm S8x192x64x64 .f32 := Memref.whole main_v2_scv
abbrev sB : Memref sig .scVector .vmem S6x2x64x64 .f32 := Memref.whole cc0_scratch0

/-- The SparseCore and the subcore of a grid point. -/
abbrev cV (L : grid0.Coords) : Fin τ.nSC := (L 0).castLE hcore0
abbrev jV (L : grid0.Coords) : Fin τ.nSub := (L 1).castLE hsub0

/-- The grid point of a core and a subcore of the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- Output slice number `k` of the tile at `L`: the two channels of its `k`-th pair, one sample. -/
abbrev oSl (L : grid0.Coords) (k : Fin 24) : Memref sig .scVector .hbm S2x64x64 .f32 :=
  ((oV : Memref sig .scVector .hbm S8x192x64x64 .f32).slice (Rect.unit (s := S8x192x64x64) (k0_off3 L (BitVec.ofNat 32 k.val)) S1x2x64x64.size (k0_off3_inb L k)) (fun _ => rfl)).squeeze S2x64x64 squeezes_S1x2x64x64_S2x64x64

/-- The tile's thread. -/
abbrev thrL (d : Dev nD) (L : grid0.Coords) : Thread nD τ := V d (cV L) (jV L)

/-- DMA semaphore `j` of the tile: 0 … 5 complete the inbound copies of ring slot `j`, 6 … 11 the outbound copy of slot `j - 6`. -/
abbrev cellIn (d : Dev nD) (L : grid0.Coords) (j : Fin 18) : GSem nD τ sig := (thrL d L, SemLoc.dma (j : DmaSem sig))

end Cert.Proof.KB

end
-- ==== Proof.OffsetsB.lean ====
/-
  The copying kernel's slice offsets in closed form.

  A tile at grid point (core, subcore) is worker number wid = 2·subcore + core (0 … 31).  The kernel computes
  from it, in 32-bit words, the sample  wid / 4  (a floored division written as the truncated one with its
  sign correction) and the first channel pair  (wid mod 4)·24  (a floored remainder, likewise), and addresses
  pair number k of the tile at pair index (wid mod 4)·24 + k.  For the 2 × 16 grid points and the 24 pairs of a
  tile none of these words wraps, so the offsets are the natural-number expressions themselves; each of the
  768 cases is a computation on 32-bit words.
-/
import proofs.«204280_g3796751090005_cont_sun_c4_229_23_alg».proof.Proof.TilesB

namespace Cert.Proof.KB

open Cert.Kernel
open Idealize.ShloMosaic

/-- The worker number of a grid point: twice the subcore plus the core. -/
def wid (L : grid0.Coords) : ℕ := 2 * (L 1).val + (L 0).val

/-- Every grid point is the point of its core and its subcore. -/
theorem eq_coordsV (L : grid0.Coords) : L = coordsV (L 0) (L 1) := by
  funext a
  match a with
  | ⟨0, _⟩ => rfl
  | ⟨1, _⟩ => rfl

theorem wid_coordsV (c : Fin (grid0.bound 0)) (s : Fin (grid0.bound 1)) : wid (coordsV c s) = 2 * s.val + c.val := rfl

/-- The worker number is below 32. -/
theorem wid_lt (L : grid0.Coords) : wid L < 32 := by
  have h0 : (L 0).val < 2 := (L 0).isLt
  have h1 : (L 1).val < 16 := (L 1).isLt
  unfold wid; omega

/-- The two computed offsets of the first input's slices, at every grid point and pair. -/
theorem off1_cases : ∀ (c : Fin 2) (s : Fin 16) (k : Fin 24),
    k0_off1 (coordsV c s) (BitVec.ofNat 32 k.val) 0 = (2 * s.val + c.val) / 4
      ∧ k0_off1 (coordsV c s) (BitVec.ofNat 32 k.val) 1 = ((2 * s.val + c.val) % 4) * 24 + k.val := by
  decide +kernel

/-- The two computed offsets of the second input's slices, at every grid point and pair. -/
theorem off2_cases : ∀ (c : Fin 2) (s : Fin 16) (k : Fin 24),
    k0_off2 (coordsV c s) (BitVec.ofNat 32 k.val) 0 = (2 * s.val + c.val) / 4
      ∧ k0_off2 (coordsV c s) (BitVec.ofNat 32 k.val) 1 = ((2 * s.val + c.val) % 4) * 24 + k.val := by
  decide +kernel

/-- The two computed offsets of the result's slices, at every grid point and pair. -/
theorem off3_cases : ∀ (c : Fin 2) (s : Fin 16) (k : Fin 24),
    k0_off3 (coordsV c s) (BitVec.ofNat 32 k.val) 0 = (2 * s.val + c.val) / 4
      ∧ k0_off3 (coordsV c s) (BitVec.ofNat 32 k.val) 1 = 2 * (((2 * s.val + c.val) % 4) * 24 + k.val) := by
  decide +kernel

/-- Slice k of the first reshaped input read by the tile at L: sample wid / 4, pair (wid % 4)·24 + k,
    pair member 0. -/
theorem k0_off1_eq (L : grid0.Coords) (k : Fin 24) :
    k0_off1 L (BitVec.ofNat 32 k.val) = ![wid L / 4, (wid L % 4) * 24 + k.val, 0, 0, 0] := by
  obtain ⟨c, s, rfl⟩ : ∃ c s, L = coordsV c s := ⟨L 0, L 1, eq_coordsV L⟩
  have h := off1_cases c s k
  funext a
  match a with
  | ⟨0, _⟩ => exact h.1
  | ⟨1, _⟩ => exact h.2
  | ⟨2, _⟩ => rfl
  | ⟨3, _⟩ => rfl
  | ⟨4, _⟩ => rfl

/-- Slice k of the second reshaped input read by the tile at L: the same sample and pair, pair member 1. -/
theorem k0_off2_eq (L : grid0.Coords) (k : Fin 24) :
    k0_off2 L (BitVec.ofNat 32 k.val) = ![wid L / 4, (wid L % 4) * 24 + k.val, 1, 0, 0] := by
  obtain ⟨c, s, rfl⟩ : ∃ c s, L = coordsV c s := ⟨L 0, L 1, eq_coordsV L⟩
  have h := off2_cases c s k
  funext a
  match a with
  | ⟨0, _⟩ => exact h.1
  | ⟨1, _⟩ => exact h.2
  | ⟨2, _⟩ => rfl
  | ⟨3, _⟩ => rfl
  | ⟨4, _⟩ => rfl

/-- Slice k of the first result written by the tile at L: the same sample, channels 2·pair and 2·pair + 1. -/
theorem k0_off3_eq (L : grid0.Coords) (k : Fin 24) :
    k0_off3 L (BitVec.ofNat 32 k.val) = ![wid L / 4, 2 * ((wid L % 4) * 24 + k.val), 0, 0] := by
  obtain ⟨c, s, rfl⟩ : ∃ c s, L = coordsV c s := ⟨L 0, L 1, eq_coordsV L⟩
  have h := off3_cases c s k
  funext a
  match a with
  | ⟨0, _⟩ => exact h.1
  | ⟨1, _⟩ => exact h.2
  | ⟨2, _⟩ => rfl
  | ⟨3, _⟩ => rfl

/-- The same three at a word given as the pair number's word (the program spells the pair numbers as literals). -/
theorem k0_off1_eq' (L : grid0.Coords) (k : Fin 24) (r : BitVec 32) (h : r = BitVec.ofNat 32 k.val) :
    k0_off1 L r = ![wid L / 4, (wid L % 4) * 24 + k.val, 0, 0, 0] := h ▸ k0_off1_eq L k
theorem k0_off2_eq' (L : grid0.Coords) (k : Fin 24) (r : BitVec 32) (h : r = BitVec.ofNat 32 k.val) :
    k0_off2 L r = ![wid L / 4, (wid L % 4) * 24 + k.val, 1, 0, 0] := h ▸ k0_off2_eq L k
theorem k0_off3_eq' (L : grid0.Coords) (k : Fin 24) (r : BitVec 32) (h : r = BitVec.ofNat 32 k.val) :
    k0_off3 L r = ![wid L / 4, 2 * ((wid L % 4) * 24 + k.val), 0, 0] := h ▸ k0_off3_eq L k

/-- At a literal pair number the statement is the one over the literal word. -/
example (L : grid0.Coords) : k0_off3 L 22#32 = ![wid L / 4, 2 * ((wid L % 4) * 24 + 22), 0, 0] := k0_off3_eq L 22

end Cert.Proof.KB
-- ==== Proof.SplitB.lean ====
/-
  The first result array is tiled by the tiles' output slices.

  Output slice k of the tile with worker number wid is the block of the result at sample wid / 4 and channels
  2p, 2p + 1 of the pair p = (wid mod 4)·24 + k, all rows and columns.  The map
      (core, subcore, k)  ↦  (wid / 4, (wid mod 4)·24 + k)
  is a bijection from the 2 × 16 × 24 triples onto the 8 × 96 (sample, pair) couples: wid = 4·(wid / 4) + wid mod 4
  and k < 24 recover the triple, and every couple (n, p) is hit by wid = 4n + p / 24, k = p mod 24.  So the 768
  slices are pairwise disjoint and cover the array, and owning the array is owning every slice.
-/
import proofs.«204280_g3796751090005_cont_sun_c4_229_23_alg».proof.Proof.OffsetsB
import Idealize.ShloMosaic.Lib.ValueIdx

noncomputable section

namespace Cert.Proof.KB

open Cert.Kernel Cert.Kernel.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-- The elements of the first result under output slice k of the tile at L. -/
abbrev oSet (L : grid0.Coords) (k : Fin 24) : Finset S8x192x64x64.Idx := (oSl L k).view.set

/-- They are the slice's rectangle. -/
theorem oSet_eq (L : grid0.Coords) (k : Fin 24) :
    oSet L k = (Rect.unit (s := S8x192x64x64) (k0_off3 L (BitVec.ofNat 32 k.val)) S1x2x64x64.size (k0_off3_inb L k)).set := by
  show (((View.whole (main_v2_scv : Ref sig .scVector)).slice _).reshape _ _).set = _
  rw [View.set_reshape, View.set_slice_whole]

/-- An element is under the slice exactly when its sample is the tile's and its channel is one of the pair's two. -/
theorem mem_oSet (L : grid0.Coords) (k : Fin 24) (i : S8x192x64x64.Idx) :
    i ∈ oSet L k ↔ (i 0).val = wid L / 4 ∧ (i 1).val / 2 = (wid L % 4) * 24 + k.val := by
  rw [oSet_eq, Rect.mem_set_unit, k0_off3_eq]
  have h2 : (i 2).val < 64 := (i 2).isLt
  have h3 : (i 3).val < 64 := (i 3).isLt
  constructor
  · intro h
    have h0 : wid L / 4 ≤ (i 0).val ∧ (i 0).val < wid L / 4 + 1 := h 0
    have h1 : 2 * ((wid L % 4) * 24 + k.val) ≤ (i 1).val ∧ (i 1).val < 2 * ((wid L % 4) * 24 + k.val) + 2 := h 1
    omega
  · rintro ⟨h0, h1⟩ a
    match a with
    | ⟨0, _⟩ =>
      show wid L / 4 ≤ (i 0).val ∧ (i 0).val < wid L / 4 + 1
      omega
    | ⟨1, _⟩ =>
      show 2 * ((wid L % 4) * 24 + k.val) ≤ (i 1).val ∧ (i 1).val < 2 * ((wid L % 4) * 24 + k.val) + 2
      omega
    | ⟨2, _⟩ =>
      show 0 ≤ (i 2).val ∧ (i 2).val < 0 + 64
      omega
    | ⟨3, _⟩ =>
      show 0 ≤ (i 3).val ∧ (i 3).val < 0 + 64
      omega

/-- The slices, indexed by (core, subcore, pair number). -/
abbrev oSetT (t : Fin 2 × Fin 16 × Fin 24) : Finset S8x192x64x64.Idx := oSet (coordsV t.1 t.2.1) t.2.2

/-- Two different triples have disjoint slices: the sample and the pair determine the triple. -/
theorem oSetT_disjoint : ∀ t ∈ (Finset.univ : Finset (Fin 2 × Fin 16 × Fin 24)), ∀ t' ∈ (Finset.univ : Finset (Fin 2 × Fin 16 × Fin 24)),
    t ≠ t' → Disjoint (oSetT t) (oSetT t') := by
  rintro ⟨c, s, k⟩ - ⟨c', s', k'⟩ - hne
  rw [Finset.disjoint_left]
  intro i hi hi'
  have hi1 : (i 0).val = (2 * s.val + c.val) / 4 ∧ (i 1).val / 2 = ((2 * s.val + c.val) % 4) * 24 + k.val :=
    (mem_oSet _ _ i).mp hi
  have hi2 : (i 0).val = (2 * s'.val + c'.val) / 4 ∧ (i 1).val / 2 = ((2 * s'.val + c'.val) % 4) * 24 + k'.val :=
    (mem_oSet _ _ i).mp hi'
  have hc : c.val < 2 := c.isLt
  have hc' : c'.val < 2 := c'.isLt
  have hk : k.val < 24 := k.isLt
  have hk' : k'.val < 24 := k'.isLt
  apply hne
  have e1 : c.val = c'.val := by omega
  have e2 : s.val = s'.val := by omega
  have e3 : k.val = k'.val := by omega
  rw [Prod.mk.injEq, Prod.mk.injEq]
  exact ⟨Fin.ext e1, Fin.ext e2, Fin.ext e3⟩

/-- Every element is under some slice. -/
theorem oSetT_cover : (Finset.univ : Finset (Fin 2 × Fin 16 × Fin 24)).biUnion oSetT = Finset.univ := by
  rw [Finset.eq_univ_iff_forall]
  intro i
  rw [Finset.mem_biUnion]
  have h0 : (i 0).val < 8 := (i 0).isLt
  have h1 : (i 1).val < 192 := (i 1).isLt
  refine ⟨(⟨(4 * (i 0).val + (i 1).val / 2 / 24) % 2, by omega⟩, ⟨(4 * (i 0).val + (i 1).val / 2 / 24) / 2, by omega⟩,
    ⟨(i 1).val / 2 % 24, by omega⟩), Finset.mem_univ _, (mem_oSet _ _ i).mpr ?_⟩
  show (i 0).val = (2 * ((4 * (i 0).val + (i 1).val / 2 / 24) / 2) + (4 * (i 0).val + (i 1).val / 2 / 24) % 2) / 4
    ∧ (i 1).val / 2 = ((2 * ((4 * (i 0).val + (i 1).val / 2 / 24) / 2) + (4 * (i 0).val + (i 1).val / 2 / 24) % 2) % 4) * 24 + (i 1).val / 2 % 24
  omega

/-! ## Where a slice's elements sit in the array -/

/-- The index of the slice's block [1, 2, 64, 64] with the same row-major position as y of [2, 64, 64]. -/
abbrev blockIdx (y : S2x64x64.Idx) : S1x2x64x64.Idx :=
  ValueIdx.ix4 (n0 := 1) (n1 := 2) (n2 := 64) (n3 := 64) 0 (y 0) (y 1) (y 2)

theorem reshape_blockIdx (h : S2x64x64.numel = S1x2x64x64.numel) (y : S2x64x64.Idx) :
    Shape.reshapeEquiv h y = blockIdx y := by
  refine Shape.reshapeEquiv_eq_of_rowMajor h ?_
  have e4 : (S1x2x64x64.rowMajor (blockIdx y)).val = (((0 * 2 + (y 0).val) * 64 + (y 1).val) * 64 + (y 2).val) :=
    Shape.rowMajor_val_four (d := ![1, 2, 64, 64]) (blockIdx y)
  have e3 : (S2x64x64.rowMajor y).val = ((y 0).val * 64 + (y 1).val) * 64 + (y 2).val :=
    Shape.rowMajor_val_three (d := ![2, 64, 64]) y
  rw [e4, e3]; omega

/-- Element y of output slice k of the tile at L is the result's element at the tile's sample, channel
    2·pair + y₀, row y₁, column y₂. -/
theorem oSl_emb (L : grid0.Coords) (k : Fin 24) (y : S2x64x64.Idx) :
    (((oSl L k).view.emb y : S8x192x64x64.Idx) 0).val = wid L / 4
      ∧ (((oSl L k).view.emb y : S8x192x64x64.Idx) 1).val = 2 * ((wid L % 4) * 24 + k.val) + (y 0).val
      ∧ (((oSl L k).view.emb y : S8x192x64x64.Idx) 2).val = (y 1).val
      ∧ (((oSl L k).view.emb y : S8x192x64x64.Idx) 3).val = (y 2).val := by
  have he : ((oSl L k).view.emb y : S8x192x64x64.Idx)
      = (Rect.unit (s := S8x192x64x64) (k0_off3 L (BitVec.ofNat 32 k.val)) S1x2x64x64.size (k0_off3_inb L k)).emb (blockIdx y) := by
    show (Rect.unit (s := S8x192x64x64) (k0_off3 L (BitVec.ofNat 32 k.val)) S1x2x64x64.size (k0_off3_inb L k)).emb
        (Shape.reshapeEquiv _ y) = _
    rw [reshape_blockIdx]
  have ho := k0_off3_eq L k
  have h0 : k0_off3 L (BitVec.ofNat 32 k.val) 0 = wid L / 4 := congrFun ho 0
  have h1 : k0_off3 L (BitVec.ofNat 32 k.val) 1 = 2 * ((wid L % 4) * 24 + k.val) := congrFun ho 1
  have h2 : k0_off3 L (BitVec.ofNat 32 k.val) 2 = 0 := congrFun ho 2
  have h3 : k0_off3 L (BitVec.ofNat 32 k.val) 3 = 0 := congrFun ho 3
  refine ⟨?_, ?_, ?_, ?_⟩
  · rw [he, Rect.emb_apply, Rect.off_unit, Rect.stride_unit, h0]; show wid L / 4 + 1 * 0 = _; omega
  · rw [he, Rect.emb_apply, Rect.off_unit, Rect.stride_unit, h1]
    show 2 * ((wid L % 4) * 24 + k.val) + 1 * (y 0).val = _; omega
  · rw [he, Rect.emb_apply, Rect.off_unit, Rect.stride_unit, h2]; show 0 + 1 * (y 1).val = _; omega
  · rw [he, Rect.emb_apply, Rect.off_unit, Rect.stride_unit, h3]; show 0 + 1 * (y 2).val = _; omega

variable {F : FTy → Type}

/-- Owning the first result is owning each tile's each output slice of it. -/
theorem o1_split (d : Dev nD) (f : Buf (Elt F) (o1Loc d)) :
    (o1Loc d ↦{fullShare} f : sProp (MM F))
      = bigSep Finset.univ fun c : Fin 2 => bigSep Finset.univ fun s : Fin 16 => bigSep Finset.univ fun k : Fin 24 =>
          o1Loc d ↦[oSet (coordsV c s) k]{fullShare} f := by
  have h1 : (o1Loc d ↦{fullShare} f : sProp (MM F))
      = bigSep Finset.univ fun t : Fin 2 × Fin 16 × Fin 24 => o1Loc d ↦[oSetT t]{fullShare} f := by
    rw [← pointsTo_biUnion Finset.univ (ℓ := o1Loc d) oSetT oSetT_disjoint, oSetT_cover]
  refine h1.trans ?_
  refine (bigSep_univ_prod (fun t : Fin 2 × Fin 16 × Fin 24 => (o1Loc d ↦[oSetT t]{fullShare} f : sProp (MM F)))).trans ?_
  refine bigSep_congr fun c _ => ?_
  exact bigSep_univ_prod (fun p : Fin 16 × Fin 24 => (o1Loc d ↦[oSetT (c, p)]{fullShare} f : sProp (MM F)))

end Cert.Proof.KB

end
-- ==== Proof.ValuesB.lean ====
/-
  The two results as functions of the RESHAPED inputs.

  @main reshapes each input [8,192,64,64] to [8,96,2,64,64]: channel `c = 2p + e` becomes the pair `(p, e)`.
  Over the reshaped arrays `A` (of the first input) and `B` (of the second):
    the first result at (n, c, h, w) is  B (n, c/2, 0, h, w) for even c  and  A (n, c/2, 1, h, w) for odd c;
    the second result                 is  A (n, c/2, 0, h, w) for even c  and  B (n, c/2, 1, h, w) for odd c.
  Since c = 2·(c/2) + (c mod 2), both read their argument at channel c itself: the first is the second input
  on even channels and the first input on odd ones, the second the mirror image (`Spec.swapEven`).
-/
import proofs.«204280_g3796751090005_cont_sun_c4_229_23_alg».proof.Proof.SetupB
import Idealize.ShloMosaic.Lib.ValueIdx

namespace Cert.Proof.KB

open Cert.Kernel
open Idealize.ShloMosaic Idealize.ShloMosaic.ValueIdx

/-- The index (n, c/2, e, h, w) of the reshaped array that holds channel pair `c/2`, member `e`, of (n, c, h, w). -/
def pairIdx (i : S8x192x64x64.Idx) (e : Fin 2) : S8x96x2x64x64.Idx :=
  ix5 (n0 := 8) (n1 := 96) (n2 := 2) (n3 := 64) (n4 := 64) (i 0)
    ⟨(i 1).val / 2, Nat.div_lt_of_lt_mul (show (i 1).val < 2 * 96 from (i 1).isLt)⟩ e (i 2) (i 3)

/-- The first result: pair member 0 of `B` on even channels, member 1 of `A` on odd channels. -/
def G1 {α : Type} (A B : S8x96x2x64x64.Idx → α) : S8x192x64x64.Idx → α :=
  fun i => if (i 1).val % 2 = 0 then B (pairIdx i 0) else A (pairIdx i 1)

/-- The second result: pair member 0 of `A` on even channels, member 1 of `B` on odd channels. -/
def G2 {α : Type} (A B : S8x96x2x64x64.Idx → α) : S8x192x64x64.Idx → α :=
  fun i => if (i 1).val % 2 = 0 then A (pairIdx i 0) else B (pairIdx i 1)

theorem G1_apply {α : Type} (A B : S8x96x2x64x64.Idx → α) (i : S8x192x64x64.Idx) :
    G1 A B i = if (i 1).val % 2 = 0 then B (pairIdx i 0) else A (pairIdx i 1) := rfl
theorem G2_apply {α : Type} (A B : S8x96x2x64x64.Idx → α) (i : S8x192x64x64.Idx) :
    G2 A B i = if (i 1).val % 2 = 0 then A (pairIdx i 0) else B (pairIdx i 1) := rfl

end Cert.Proof.KB
-- ==== Proof.PayB.lean ====
/-
  What the launch handshakes carry.

  The call hands each of the two SparseCores a read share of both reshaped inputs and the result slices of its
  sixteen tiles (at the contents the result array has before the call), and takes them back with every slice
  at the result function `G1 A B`.  A SparseCore hands each tile a read share cut from its own and the tile's
  24 slices, and takes them back likewise.  Shares: the full share is cut into one token per SparseCore, a
  SparseCore's token into one per tile; what is left over stays with whoever did the cutting.
-/
import proofs.«204280_g3796751090005_cont_sun_c4_229_23_alg».proof.Proof.SplitB
import proofs.«204280_g3796751090005_cont_sun_c4_229_23_alg».proof.Proof.ValuesB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- SparseCore `c`'s read share, and tile `i`'s cut from it. -/
abbrev qC (c : Fin 2) : PosShare TreeShare := Transfers.shareTok fullShare 2 c
abbrev qT (c : Fin 2) (i : Fin 16) : PosShare TreeShare := Transfers.shareTok (qC c) 16 i

variable (A B : (d : Dev nD) → Buf (Elt F) (aLoc d)) (f0 : (d : Dev nD) → Buf (Elt F) (o1Loc d))

/-- The result slices of tile (c, i), all at contents `f`. -/
abbrev tileSlices (d : Dev nD) (c : Fin 2) (i : Fin 16) (f : Buf (Elt F) (o1Loc d)) : sProp 𝕄 :=
  bigSep Finset.univ fun k : Fin 24 => o1Loc d ↦[oSet (coordsV c i) k]{fullShare} f

/-- What a tile is handed and hands back. -/
abbrev goP (d : Dev nD) (c : Fin 2) (i : Fin 16) : sProp 𝕄 :=
  iprop((aLoc d ↦{qT c i} A d) ∗ (bLoc d ↦{qT c i} B d) ∗ tileSlices d c i (f0 d))
abbrev tdP (d : Dev nD) (c : Fin 2) (i : Fin 16) : sProp 𝕄 :=
  iprop((aLoc d ↦{qT c i} A d) ∗ (bLoc d ↦{qT c i} B d) ∗ tileSlices d c i (G1 (A d) (B d)))
/-- What a SparseCore is handed and hands back. -/
abbrev stP (d : Dev nD) (c : Fin 2) : sProp 𝕄 :=
  iprop((aLoc d ↦{qC c} A d) ∗ (bLoc d ↦{qC c} B d) ∗ bigSep Finset.univ fun i : Fin 16 => tileSlices d c i (f0 d))
abbrev dnP (d : Dev nD) (c : Fin 2) : sProp 𝕄 :=
  iprop((aLoc d ↦{qC c} A d) ∗ (bLoc d ↦{qC c} B d) ∗ bigSep Finset.univ fun i : Fin 16 => tileSlices d c i (G1 (A d) (B d)))

/-- The one call's payloads. The kernel owes nothing beyond the handshakes and consumes nothing of the launch's. -/
def P : (K (F := F)).Pay (nD := nD) (Val := Elt F) (Name := ℕ) (U := UU) where
  st := fun q d c => match q with | 0 => stP A B f0 d (Fin.cast nCore_zero c)
  dn := fun q d c => match q with | 0 => dnP A B d (Fin.cast nCore_zero c)
  go := fun q d c i => match q with | 0 => goP A B f0 d (Fin.cast nCore_zero c) (Fin.cast nSub_zero i)
  td := fun q d c i => match q with | 0 => tdP A B d (Fin.cast nCore_zero c) (Fin.cast nSub_zero i)
  x := fun _ _ => iprop(emp)

instance P_storable : (P (F := F) A B f0).IsStorable where
  st q d c := match q with | 0 => (inferInstance : BI.Storable (upEmb : UEmb _ 𝕄) (stP A B f0 d (Fin.cast nCore_zero c)))
  dn q d c := match q with | 0 => (inferInstance : BI.Storable (upEmb : UEmb _ 𝕄) (dnP A B d (Fin.cast nCore_zero c)))
  go q d c i := match q with | 0 => (inferInstance : BI.Storable (upEmb : UEmb _ 𝕄) (goP A B f0 d (Fin.cast nCore_zero c) (Fin.cast nSub_zero i)))
  td q d c i := match q with | 0 => (inferInstance : BI.Storable (upEmb : UEmb _ 𝕄) (tdP A B d (Fin.cast nCore_zero c) (Fin.cast nSub_zero i)))

end Cert.Proof.KB

end
-- ==== Proof.ReshapeB.lean ====
/-
  The reshape of an input, read at an index.

  @main reshapes each input [8, 192, 64, 64] to [8, 96, 2, 64, 64] before the kernels run: the same elements in
  row-major order.  The row-major position of (n, c, h, w) in the first shape is ((n·192 + c)·64 + h)·64 + w; that
  of (n, p, e, h, w) in the second is (((n·96 + p)·2 + e)·64 + h)·64 + w.  They agree exactly when c = 2p + e, so
  the reshaped array at (n, c / 2, c mod 2, h, w) is the input at (n, c, h, w), and the two results stated over
  the reshaped inputs are the exchange of the even channels of the inputs themselves.
-/
import proofs.«204280_g3796751090005_cont_sun_c4_229_23_alg».proof.Proof.ValuesB
import Idealize.ShloMosaic.Lib.Pipeline.Value

namespace Cert.Proof.KB

open Cert.Kernel
open Idealize.ShloMosaic Idealize.ShloMosaic.ValueIdx

/-- What the reshape writes: the input's elements at the shape [8, 96, 2, 64, 64]. -/
def rs {α : Type} (x : S8x192x64x64.Idx → α) : S8x96x2x64x64.Idx → α :=
  shapeCast S8x96x2x64x64 x Gen.shapeCasts_S8x192x64x64_S8x96x2x64x64

/-- The reshaped array at (n, c / 2, e, h, w), for e the parity of c, is the input at (n, c, h, w). -/
theorem rs_pairIdx {α : Type} (x : S8x192x64x64.Idx → α) (i : S8x192x64x64.Idx) (e : Fin 2)
    (he : e.val = (i 1).val % 2) : rs x (pairIdx i e) = x i := by
  unfold rs
  refine shapeCast_apply x _ (pairIdx i e) i ?_
  have e5 : (S8x96x2x64x64.rowMajor (pairIdx i e)).val
      = (((((i 0).val * 96 + (i 1).val / 2) * 2 + e.val) * 64 + (i 2).val) * 64 + (i 3).val) :=
    Shape.rowMajor_val_five (d := ![8, 96, 2, 64, 64]) (pairIdx i e)
  have e4 : (S8x192x64x64.rowMajor i).val = ((((i 0).val * 192 + (i 1).val) * 64 + (i 2).val) * 64 + (i 3).val) :=
    Shape.rowMajor_val_four (d := ![8, 192, 64, 64]) i
  rw [e4, e5]; omega

/-- The first result over the reshaped inputs is the first input with its even channels taken from the second. -/
theorem G1_rs {α : Type} (x1 x2 : S8x192x64x64.Idx → α) : G1 (rs x1) (rs x2) = Cert.Proof.Spec.swapEven x1 x2 := by
  funext i
  rw [G1_apply, Cert.Proof.Spec.swapEven_apply]
  by_cases h : (i 1).val % 2 = 0
  · rw [if_pos h, if_pos h]; exact rs_pairIdx x2 i 0 h.symm
  · rw [if_neg h, if_neg h]
    have h1 : (i 1).val % 2 = 1 := by omega
    exact rs_pairIdx x1 i 1 h1.symm

/-- The second result over the reshaped inputs is the second input with its even channels taken from the first. -/
theorem G2_rs {α : Type} (x1 x2 : S8x192x64x64.Idx → α) : G2 (rs x1) (rs x2) = Cert.Proof.Spec.swapEven x2 x1 := by
  funext i
  rw [G2_apply, Cert.Proof.Spec.swapEven_apply]
  by_cases h : (i 1).val % 2 = 0
  · rw [if_pos h, if_pos h]; exact rs_pairIdx x1 i 0 h.symm
  · rw [if_neg h, if_neg h]
    have h1 : (i 1).val % 2 = 1 := by omega
    exact rs_pairIdx x2 i 1 h1.symm

section Program
open Idealize.ShloMosaic.StableHlo Idealize.ShloMosaic.TcCoe
variable {F : FTy → Type} [FloatOps F] [Cert.Kernel.Facts]

/-- After the program's first reshape its result buffer holds the first input reshaped, -/
theorem reshape0_result (V : Valuation τ sig (Elt F)) :
    (StableHlo.reshape main_arg0 main_v0 rfl Facts₀.shapeCasts_S8x192x64x64_S8x96x2x64x64 : HloOp τ sig (Elt F)).result V
        (main_v0 : DevRef τ sig) = rs (V (main_arg0 : DevRef τ sig)) :=
  reshape_result _ _ _ _ _ _ V

/-- and after the second the second input reshaped. -/
theorem reshape1_result (V : Valuation τ sig (Elt F)) :
    (StableHlo.reshape main_arg1 main_v1 rfl Facts₀.shapeCasts_S8x192x64x64_S8x96x2x64x64 : HloOp τ sig (Elt F)).result V
        (main_v1 : DevRef τ sig) = rs (V (main_arg1 : DevRef τ sig)) :=
  reshape_result _ _ _ _ _ _ V

end Program

end Cert.Proof.KB
-- ==== Proof.TcRegionB.lean ====
/-
  The pipelined kernel region of the TensorCore: the second result.

  The region runs on the grid 8 × 6.  At the point (n, b) it stages the block of sixteen channel pairs
  [16 b, 16 b + 16) of sample n from two arrays of shape [8, 96, 2, 64, 64]: member 0 of each pair of the first
  array, member 1 of each pair of the second.  The body interleaves the two blocks along the pair axis and
  flattens pair and member into thirty-two channels, so that channel 2 p + e of the output block is member e's
  row: from the first array when e = 0, from the second when e = 1.  The block is written back as channels
  [32 b, 32 b + 32) of sample n of the result.  The forty-eight blocks tile the result, so after the region
  the result at (n, c, h, w) is the first array at (n, c / 2, 0, h, w) for even c and the second array at
  (n, c / 2, 1, h, w) for odd c.
-/
import proofs.«204280_g3796751090005_cont_sun_c4_229_23_alg».proof.Proof.SetupB
import proofs.«204280_g3796751090005_cont_sun_c4_229_23_alg».proof.Proof.ValuesB
import proofs.«204280_g3796751090005_cont_sun_c4_229_23_alg».proof.Proof.Gen.Kernel.Launch
import proofs.«204280_g3796751090005_cont_sun_c4_229_23_alg».proof.Proof.Gen.Kernel.Points
import proofs.«204280_g3796751090005_cont_sun_c4_229_23_alg».proof.Proof.Gen.Kernel.Skeleton
import Idealize.ShloMosaic.Lib.Pipeline.Regions
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The admissible table contents of the one pipeline: it prefetches nothing. -/
abbrev adm : (p : Fin 1) → (pcfgs (F := F) p).Adm := fun p => (cfgs p).toPCfg_adm

section Kernel

/-- The body's two accesses: each staging buffer whole. -/
abbrev rIn : Rect S1x16x1x64x64 := Rect.unit (s := S1x16x1x64x64) ![0, 0, 0, 0, 0] S1x16x1x64x64.size inb_S1x16x1x64x64_S1x16x1x64x64_0_0_0_0_0
abbrev rOut : Rect S1x32x64x64 := Rect.unit (s := S1x32x64x64) ![0, 0, 0, 0] S1x32x64x64.size inb_S1x32x64x64_S1x32x64x64_0_0_0_0

/-- What the body leaves in the output window's buffer, from the two input blocks: its one store. -/
def out2 (x0 x1 : Vec F S1x16x1x64x64 .f32) : Vec F S1x32x64x64 .f32 :=
  View.canon [⟨rOut, k1_pay1 (View.ld x0 rIn) (View.ld x1 rIn)⟩]

/-- The one store covers the buffer. -/
theorem cover2 (p0 : Vec F S1x32x64x64 .f32) (y : S1x32x64x64.Idx) :
    ∃ pc ∈ ([⟨rOut, p0⟩] : List (View.Piece (Elt F) S1x32x64x64 .f32)), y ∈ pc.1.set :=
  View.cover_of_tiled [⟨rOut, p0⟩] S1x32x64x64.size (by rfl) y

set_option maxHeartbeats 1000000 in
/-- The body on whole staging buffers: the inputs' at `x0`, `x1` and the output's at anything; it leaves the
    inputs as they were and the output at `out2 x0 x1`. -/
theorem sound_kernel (c : Dev nD) (E : Set ℕ) (i : grid1.Coords)
    (arg2 : Memref sig .tc .vmem S1x16x1x64x64 .f32) (harg2 : arg2.IsWhole) (arg3 : Memref sig .tc .vmem S1x16x1x64x64 .f32) (harg3 : arg3.IsWhole)
    (arg4 : Memref sig .tc .vmem S1x32x64x64 .f32) (harg4 : arg4.IsWhole)
    (x0 x1 : Vec F S1x16x1x64x64 .f32) (Kc : PUnit → sProp (MM F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ Kc ⟨⟩))
      ⊢ wp frame (wpE (defs₀ (F := F)) Variants.none c none) E (cc1__tc_out2_body i arg2 harg2 arg3 harg3 arg4 harg4) Kc := by
  simp only [cc1__tc_out2_body_eq_skeleton]; unfold cc1__tc_out2_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Kernel

section Data

variable (A B : S8x96x2x64x64.Idx → Elt F .f32) (f3 : S8x192x64x64.Idx → Elt F .f32) (W₀ : Waits sig (HIx 1))

/-- The three arrays the region's windows move, as the region finds them: the two inputs, and the result at
    whatever it held. -/
def arr0 (c : Dev nD) (w : Fin cfg1.W) : Buf (Elt F) ((cfg1.win w).arr.view.loc (c.tc : Thread nD τ)) :=
  match w with
  | ⟨0, _⟩ => A
  | ⟨1, _⟩ => B
  | ⟨2, _⟩ => f3

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (arr0 A B f3 c w)

/-- The proof data of the region on core `c`. -/
def dats (_ : Fin 1) (c : Dev nD) : Dat τ (Elt F) (HIx 1) ℕ UU ℕ cfg1 c where
  A w := arr0 A B f3 c w
  after w t := match w with
    | ⟨0, _⟩ => iblk A B f3 c 0 t
    | ⟨1, _⟩ => iblk A B f3 c 1 t
    | ⟨2, _⟩ => out2 (iblk A B f3 c 0 t) (iblk A B f3 c 1 t)
  Φ _ := Pipeline.scopedRest (Ix := HIx 1) (Name := ℕ) (U := UU) (Lvl := ℕ) (Val := Elt F) (Pipeline.pin (pcfgs (F := F)) adm 0).spec c
  q _ := fullShare
  owed _ := 0
  recorded _ := ↑W₀

end Data

section Body

variable (A B : S8x96x2x64x64.Idx → Elt F .f32) (f3 : S8x192x64x64.Idx → Elt F .f32) (W₀ : Waits sig (HIx 1))

theorem A_eq (c : Dev nD) (w : Fin cfg1.W) : (dats A B f3 W₀ 0 c).A w = arr0 A B f3 c w := by
  dsimp only [dats]

theorem after1_0 (c : Dev nD) (t : Fin cfg1.N) : (dats A B f3 W₀ 0 c).after 0 t = iblk A B f3 c 0 t := by dsimp only [dats]
theorem after1_1 (c : Dev nD) (t : Fin cfg1.N) : (dats A B f3 W₀ 0 c).after 1 t = iblk A B f3 c 1 t := by dsimp only [dats]
theorem after1_2 (c : Dev nD) (t : Fin cfg1.N) :
    (dats A B f3 W₀ 0 c).after 2 t = out2 (iblk A B f3 c 0 t) (iblk A B f3 c 1 t) := by dsimp only [dats]

/-- Each input's current staging buffer holds its block at every point. -/
theorem before1_0 (c : Dev nD) (t : Fin cfg1.N) (d) : (dats A B f3 W₀ 0 c).before 0 t d = iblk A B f3 c 0 t :=
  ((dats A B f3 W₀ 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats A B f3 W₀ 0 c).before 1 t d = iblk A B f3 c 1 t :=
  ((dats A B f3 W₀ 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp (MM F) :=
  iprop((dats A B f3 W₀ 0 c).Φ t.castSucc ∗ (dats A B f3 W₀ 0 c).owesAt none t.castSucc
    ∗ (∃ d, owns (c : Thread nD τ) (st1_0 t) fullShare ((dats A B f3 W₀ 0 c).before 0 t d))
    ∗ (∃ d, owns (c : Thread nD τ) (st1_1 t) fullShare ((dats A B f3 W₀ 0 c).before 1 t d))
    ∗ (∃ d, owns (c : Thread nD τ) (st1_2 t) fullShare ((dats A B f3 W₀ 0 c).before 2 t d)))

/-- and what it returns. -/
def bodyPost (c : Dev nD) (t : Fin cfg1.N) : sProp (MM F) :=
  iprop((dats A B f3 W₀ 0 c).Φ t.succ ∗ (dats A B f3 W₀ 0 c).owesAt none t.succ
    ∗ owns (c : Thread nD τ) (st1_0 t) fullShare ((dats A B f3 W₀ 0 c).after 0 t)
    ∗ owns (c : Thread nD τ) (st1_1 t) fullShare ((dats A B f3 W₀ 0 c).after 1 t)
    ∗ owns (c : Thread nD τ) (st1_2 t) fullShare ((dats A B f3 W₀ 0 c).after 2 t))

/-- The body at any point: the inputs' buffers hold their blocks, so the kernel's triple applies; the invariant and
    what the core owes pass through unread. -/
theorem sound_body (c : Dev nD) (t : Fin cfg1.N) :
    bodyPre A B f3 W₀ c t ⊢ wp frame (wpE (defs₀ (F := F)) Variants.none c none) Set.univ (bodyAt1 t) (fun _ => bodyPost A B f3 W₀ c t) := by
  unfold bodyPre bodyPost bodyAt1
  simp only [before1_0, before1_1]
  rw [show (dats A B f3 W₀ 0 c).Φ t.succ = (dats A B f3 W₀ 0 c).Φ t.castSucc from rfl,
    show (dats A B f3 W₀ 0 c).owesAt none t.succ = (dats A B f3 W₀ 0 c).owesAt none t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk A B f3 c 0 t) (iblk A B f3 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats A B f3 W₀ 0 c) (defs₀ (F := F)) Variants.none none Set.univ := fun t => by
  rw [bigSep_W1, bigSep_W1]
  exact sound_body A B f3 W₀ c t

end Body

section Payload

/-- The stored vector at an index: channel `2 p + e` of the output block is pair `p` of the first input block when
    `e = 0` and of the second when `e = 1` (the concatenation along the member axis, then pair and member flattened
    row-major). -/
theorem pay_apply (x0 x1 : Vec F S1x16x1x64x64 .f32) (j : S1x32x64x64.Idx) :
    k1_pay1 x0 x1 j
      = if (j 1).val % 2 = 0 then
          x0 (ix5 (n0 := 1) (n1 := 16) (n2 := 1) (n3 := 64) (n4 := 64) 0 ⟨(j 1).val / 2, Nat.div_lt_of_lt_mul (show (j 1).val < 2 * 16 from (j 1).isLt)⟩ 0 (j 2) (j 3))
        else
          x1 (ix5 (n0 := 1) (n1 := 16) (n2 := 1) (n3 := 64) (n4 := 64) 0 ⟨(j 1).val / 2, Nat.div_lt_of_lt_mul (show (j 1).val < 2 * 16 from (j 1).isLt)⟩ 0 (j 2) (j 3)) := by
  have hj0 : (j 0).val < 1 := (j 0).isLt
  have hj1 : (j 1).val < 32 := (j 1).isLt
  have hj2 : (j 2).val < 64 := (j 2).isLt
  have hj3 : (j 3).val < 64 := (j 3).isLt
  unfold k1_pay1
  -- the flattening: the same row-major position
  let k : S1x16x2x64x64.Idx := ix5 (n0 := 1) (n1 := 16) (n2 := 2) (n3 := 64) (n4 := 64) 0
    ⟨(j 1).val / 2, by omega⟩ ⟨(j 1).val % 2, by omega⟩ (j 2) (j 3)
  refine (shapeCast_apply _ shapeCasts_S1x16x2x64x64_S1x32x64x64 j k ?_).trans ?_
  · rw [Shape.rowMajor_val_five, Shape.rowMajor_val_four]
    show ((((0 * 16 + (j 1).val / 2) * 2 + (j 1).val % 2) * 64 + (j 2).val) * 64 + (j 3).val)
      = ((((j 0).val * 32 + (j 1).val) * 64 + (j 2).val) * 64 + (j 3).val)
    omega
  by_cases he : (j 1).val % 2 = 0
  · rw [if_pos he]
    refine (concatenate_pair_apply_left (t := S1x16x2x64x64) (s₁ := S1x16x1x64x64) (s₂ := S1x16x1x64x64) (2 : Fin 5) _ _ concatenates_S1x16x1x64x64_S1x16x1x64x64_S1x16x2x64x64_d2 k rfl
      (ix5 (n0 := 1) (n1 := 16) (n2 := 1) (n3 := 64) (n4 := 64) 0 ⟨(j 1).val / 2, by omega⟩ 0 (j 2) (j 3)) ?_).trans ?_
    · intro b
      match b with
      | ⟨0, _⟩ => rfl
      | ⟨1, _⟩ => rfl
      | ⟨2, _⟩ => show (0 : Nat) = (j 1).val % 2; omega
      | ⟨3, _⟩ => rfl
      | ⟨4, _⟩ => rfl
    · exact shapeCast_apply _ shapeCasts_S1x16x1x64x64_S1x16x1x64x64 _ _ rfl
  · rw [if_neg he]
    refine (concatenate_pair_apply_right (t := S1x16x2x64x64) (s₁ := S1x16x1x64x64) (s₂ := S1x16x1x64x64) (2 : Fin 5) _ _ concatenates_S1x16x1x64x64_S1x16x1x64x64_S1x16x2x64x64_d2 k rfl rfl
      (ix5 (n0 := 1) (n1 := 16) (n2 := 1) (n3 := 64) (n4 := 64) 0 ⟨(j 1).val / 2, by omega⟩ 0 (j 2) (j 3)) ?_ ?_).trans ?_
    · intro b hb
      match b with
      | ⟨0, _⟩ => rfl
      | ⟨1, _⟩ => rfl
      | ⟨2, _⟩ => exact absurd rfl hb
      | ⟨3, _⟩ => rfl
      | ⟨4, _⟩ => rfl
    · show (0 : Nat) + 1 = (j 1).val % 2; omega
    · exact shapeCast_apply _ shapeCasts_S1x16x1x64x64_S1x16x1x64x64 _ _ rfl

end Payload

section Value

variable (A B : S8x96x2x64x64.Idx → Elt F .f32) (f3 : S8x192x64x64.Idx → Elt F .f32) (W₀ : Waits sig (HIx 1))

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The three index maps, decided over the grid: the input windows move with the output window on sample and
    block, the first stays on member 0 and the second on member 1, and nothing moves on rows and columns. -/
theorem idx_facts : ∀ t : Fin cfg1.N,
    win1_0.index t (0 : Fin 5) = win1_2.index t (0 : Fin 4) ∧ win1_0.index t (1 : Fin 5) = win1_2.index t (1 : Fin 4)
    ∧ win1_0.index t (2 : Fin 5) = 0 ∧ win1_0.index t (3 : Fin 5) = 0 ∧ win1_0.index t (4 : Fin 5) = 0
    ∧ win1_1.index t (0 : Fin 5) = win1_2.index t (0 : Fin 4) ∧ win1_1.index t (1 : Fin 5) = win1_2.index t (1 : Fin 4)
    ∧ win1_1.index t (2 : Fin 5) = 1 ∧ win1_1.index t (3 : Fin 5) = 0 ∧ win1_1.index t (4 : Fin 5) = 0
    ∧ win1_2.index t (0 : Fin 4) ≤ 7 ∧ win1_2.index t (1 : Fin 4) ≤ 5
    ∧ win1_2.index t (2 : Fin 4) = 0 ∧ win1_2.index t (3 : Fin 4) = 0 :=
  (by decide +kernel : ∀ t : Fin grid1.N, _)

/-- Every (sample, block) is some point's. -/
theorem idx_onto : ∀ (q0 : Fin 8) (q1 : Fin 6), ∃ t : Fin cfg1.N, win1_2.index t = ![q0.val, q1.val, 0, 0] :=
  (by decide +kernel : ∀ (q0 : Fin 8) (q1 : Fin 6), ∃ t : Fin grid1.N, win1_2.index t = ![q0.val, q1.val, 0, 0])

/-- What point `t` writes back is block `t` of the interleaving. -/
theorem flushed2_eq (c : Dev nD) (t : Fin cfg1.N) :
    (dats A B f3 W₀ 0 c).flushed 2 t = ((cfg1.win 2).blk t).view.read (Elt F) (G2 A B) := by
  show (cfg1.win 2).cut (grid1.coords t) ((dats A B f3 W₀ 0 c).after 2 t) = _
  rw [after1_2]
  unfold out2
  rw [View.canon_unit_zero hz4]
  simp only [View.ld_unit_zero (S := S1x16x1x64x64) hz5]
  obtain ⟨a0, a1, a2, a3, a4, b0, b1, b2, b3, b4, c0, c1, c2, c3⟩ := idx_facts t
  funext j
  show k1_pay1 (iblk A B f3 c 0 t) (iblk A B f3 c 1 t) j = G2 A B (((cfg1.win 2).blk t).view.emb j)
  rw [pay_apply, G2_apply]
  have hj0 : (j 0).val < 1 := (j 0).isLt
  have hj1 : (j 1).val < 32 := (j 1).isLt
  have e1 : ((((cfg1.win 2).blk t).view.emb j) 1).val = win1_2.index t (1 : Fin 4) * 32 + 1 * (j 1).val := rfl
  have hpar : ((((cfg1.win 2).blk t).view.emb j) 1).val % 2 = (j 1).val % 2 := by rw [e1]; omega
  rw [hpar]
  by_cases he : (j 1).val % 2 = 0
  · rw [if_pos he, if_pos he]
    show A (((cfg1.win 0).blk t).view.emb _) = A (pairIdx _ 0)
    congr 1
    funext a; apply Fin.ext
    match a with
    | ⟨0, _⟩ => show win1_0.index t (0 : Fin 5) * 1 + 1 * 0 = win1_2.index t (0 : Fin 4) * 1 + 1 * (j 0).val; omega
    | ⟨1, _⟩ => show win1_0.index t (1 : Fin 5) * 16 + 1 * ((j 1).val / 2) = (win1_2.index t (1 : Fin 4) * 32 + 1 * (j 1).val) / 2; omega
    | ⟨2, _⟩ => show win1_0.index t (2 : Fin 5) * 1 + 1 * 0 = 0; omega
    | ⟨3, _⟩ => show win1_0.index t (3 : Fin 5) * 64 + 1 * (j 2).val = win1_2.index t (2 : Fin 4) * 64 + 1 * (j 2).val; omega
    | ⟨4, _⟩ => show win1_0.index t (4 : Fin 5) * 64 + 1 * (j 3).val = win1_2.index t (3 : Fin 4) * 64 + 1 * (j 3).val; omega
  · rw [if_neg he, if_neg he]
    show B (((cfg1.win 1).blk t).view.emb _) = B (pairIdx _ 1)
    congr 1
    funext a; apply Fin.ext
    match a with
    | ⟨0, _⟩ => show win1_1.index t (0 : Fin 5) * 1 + 1 * 0 = win1_2.index t (0 : Fin 4) * 1 + 1 * (j 0).val; omega
    | ⟨1, _⟩ => show win1_1.index t (1 : Fin 5) * 16 + 1 * ((j 1).val / 2) = (win1_2.index t (1 : Fin 4) * 32 + 1 * (j 1).val) / 2; omega
    | ⟨2, _⟩ => show win1_1.index t (2 : Fin 5) * 1 + 1 * 0 = 1; omega
    | ⟨3, _⟩ => show win1_1.index t (3 : Fin 5) * 64 + 1 * (j 2).val = win1_2.index t (2 : Fin 4) * 64 + 1 * (j 2).val; omega
    | ⟨4, _⟩ => show win1_1.index t (4 : Fin 5) * 64 + 1 * (j 3).val = win1_2.index t (3 : Fin 4) * 64 + 1 * (j 3).val; omega

/-- An index of the result is in point `t`'s block iff each coordinate is in the block's range on its axis. -/
theorem mem_blk2 (t : Fin cfg1.N) (i : S8x192x64x64.Idx) :
    i ∈ ((cfg1.win 2).blk t).view.set ↔ ∀ a : Fin 4, win1_2.index t a * S1x32x64x64.size a ≤ (i a).val ∧ (i a).val < win1_2.index t a * S1x32x64x64.size a + S1x32x64x64.size a := by
  show i ∈ ((View.whole main_v3).slice (win1_2.rect t)).set ↔ _
  rw [View.set_slice_whole, Rect.mem_set_unit]
  exact Iff.rfl

/-- The blocks tile the result: the point (n, c / 32) covers (n, c, h, w). -/
theorem covered2 (i : S8x192x64x64.Idx) :
    ∃ t : Fin cfg1.N, (cfg1.win 2).flush t = true ∧ i ∈ ((cfg1.win 2).blk t).view.set := by
  have hi0 : (i 0).val < 8 := (i 0).isLt
  have hi1 : (i 1).val < 192 := (i 1).isLt
  have hi2 : (i 2).val < 64 := (i 2).isLt
  have hi3 : (i 3).val < 64 := (i 3).isLt
  obtain ⟨t, ht⟩ := idx_onto ⟨(i 0).val, hi0⟩ ⟨(i 1).val / 32, by omega⟩
  have q0 : win1_2.index t (0 : Fin 4) = (i 0).val := congrFun ht 0
  have q1 : win1_2.index t (1 : Fin 4) = (i 1).val / 32 := congrFun ht 1
  have q2 : win1_2.index t (2 : Fin 4) = 0 := congrFun ht 2
  have q3 : win1_2.index t (3 : Fin 4) = 0 := congrFun ht 3
  refine ⟨t, flush1_2 t, ?_⟩
  rw [mem_blk2]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 32 ≤ (i 1).val ∧ (i 1).val < win1_2.index t (1 : Fin 4) * 32 + 32; omega
  | ⟨2, _⟩ => show win1_2.index t (2 : Fin 4) * 64 ≤ (i 2).val ∧ (i 2).val < win1_2.index t (2 : Fin 4) * 64 + 64; omega
  | ⟨3, _⟩ => show win1_2.index t (3 : Fin 4) * 64 ≤ (i 3).val ∧ (i 3).val < win1_2.index t (3 : Fin 4) * 64 + 64; omega

/-- After every write-back the result's array is the interleaving of the two inputs. -/
theorem final2 (c : Dev nD) : (dats A B f3 W₀ 0 c).arrAt 2 cfg1.N = G2 A B :=
  (dats A B f3 W₀ 0 c).arrAt_eq_of_cover 2 (G2 A B) (fun t _ => flushed2_eq A B f3 W₀ c t) covered2

end Value

section Region

variable (A B : S8x96x2x64x64.Idx → Elt F .f32) (f3 : S8x192x64x64.Idx → Elt F .f32) (W₀ : Waits sig (HIx 1))
variable (L : GSem nD τ sig → Finset (HIx 1)) (lv : GSem nD τ sig → HIx 1 → ℕ)

/-- What the region is entered from on core `c`: the three arrays, and the core owing nothing with the recorded
    pairs `W₀`. -/
def regPre (c : Dev nD) : sProp (MM F) :=
  iprop((aLoc c ↦{fullShare} A) ∗ (bLoc c ↦{fullShare} B) ∗ (o2Loc c ↦{fullShare} f3) ∗ owes (T c) 0 W₀)

/-- What it leaves: the inputs as they were, the result at the interleaving, and the core owing nothing, its
    recorded pairs those of before and the staging cells' at the region's own index. -/
def regPost (c : Dev nD) : sProp (MM F) :=
  iprop((aLoc c ↦{fullShare} A) ∗ (bLoc c ↦{fullShare} B) ∗ (o2Loc c ↦{fullShare} G2 A B)
    ∗ ∃ W : Waits sig (HIx 1), ⌜(↑W : Set (SemLoc sig × HIx 1)) ⊆ ↑W₀ ∪ cfg1.waitPairs none⌝ ∗ owes (T c) 0 W)

/-- The invariant between points: the scoped buffers no window stages, untouched. -/
theorem Phi_eq (c : Dev nD) (t : Fin (cfg1.N + 1)) :
    (dats A B f3 W₀ 0 c).Φ t = Pipeline.scopedRest (Pipeline.pin (pcfgs (F := F)) adm 0).spec c := by
  dsimp only [dats]

theorem share1 (c : Dev nD) (w : Fin cfg1.W) : (dats A B f3 W₀ 0 c).share w = fullShare :=
  (dats A B f3 W₀ 0 c).share_full (fun _ => rfl) w

/-- The windows' arrays as three points-to assertions. -/
theorem arrays1_eq (c : Dev nD) (Fw : (w : Fin cfg1.W) → Buf (Elt F) ((cfg1.win w).arr.view.loc (c.tc : Thread nD τ))) :
    (dats A B f3 W₀ 0 c).arrays Fw
      = iprop((aLoc c ↦{fullShare} Fw 0) ∗ (bLoc c ↦{fullShare} Fw 1) ∗ (o2Loc c ↦{fullShare} Fw 2)) := by
  rw [Pipeline.arrays_eq cfgs (dats A B f3 W₀) 0 c arr_whole1 (share1 A B f3 W₀ c) Fw, bigSep_W1]

set_option backward.isDefEq.respectTransparency.types false in
/-- The region: the launch's layout, no semaphore of the kernel's own, the body obligation; entered from the three
    arrays and left with the result at the interleaving. -/
def reg : Pipeline.RegionSeg (pcfgs (F := F)) adm (dats A B f3 W₀) none defs₀ 𝒱₀ L lv 0 where
  win := launch1.win.to₀
  block_pos := launch1.block_pos
  stage_whole := launch1.stage_whole
  K := PEmpty
  osem := fun k => k.elim
  ho := Pipeline.OwnSemFacts.none _
  hbody c := (body_obligation A B f3 W₀ c).loose
  hwaits := Pipeline.hwaits_of_owed_zero _ _ _ _ L lv 0 fun _ _ => rfl
  pre c := regPre A B f3 W₀ c
  post c := regPost A B W₀ c
  X c := BI.emp
  Y c := BI.emp
  Z c := BI.emp
  hentry c := by
    have ha := arrays1_eq A B f3 W₀ c (fun w => (dats A B f3 W₀ 0 c).arrAt w 0)
    unfold regPre
    iintro ⟨⟨Ha, Hb, Ho, HO⟩, -, -⟩
    imodintro
    isplitl [Ha Hb Ho]
    · iapply (Entails.of_eq ha.symm)
      isplitl [Ha]; · iexact Ha
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr; · iempintro
    iempintro
  hin c := by
    rw [Phi_eq]
    iintro ⟨-, -, Hr⟩
    iexact Hr
  hout c := by
    rw [Pipeline.ownSems0_none, Phi_eq]
    iintro Hr
    isplitr; · iempintro
    isplitr; · iempintro
    iexact Hr
  hexit c := by
    have ha := arrays1_eq A B f3 W₀ c (fun w => (dats A B f3 W₀ 0 c).arrAt w cfg1.N)
    have h0 : (dats A B f3 W₀ 0 c).arrAt 0 cfg1.N = A := ((dats A B f3 W₀ 0 c).arrAt_in 0 rfl _).trans (A_eq A B f3 W₀ c 0)
    have h1 : (dats A B f3 W₀ 0 c).arrAt 1 cfg1.N = B := ((dats A B f3 W₀ 0 c).arrAt_in 1 rfl _).trans (A_eq A B f3 W₀ c 1)
    have h2 := final2 A B f3 W₀ c
    unfold regPost
    iintro ⟨Ha, HO, -, -⟩
    imodintro
    ihave Ha' := (Entails.of_eq ha) $$ Ha
    icases Ha' with ⟨Ha, Hb, Ho⟩
    isplitl [Ha]; · rw [← h0]; iexact Ha
    isplitl [Hb]; · rw [← h1]; iexact Hb
    isplitl [Ho]; · rw [← h2]; iexact Ho
    unfold Pipeline.Dat.owesAt Pipeline.owesWithin
    iexact HO

theorem reg_pre (c : Dev nD) : (reg A B f3 W₀ L lv).pre c = regPre A B f3 W₀ c := rfl
theorem reg_post (c : Dev nD) : (reg A B f3 W₀ L lv).post c = regPost A B W₀ c := rfl

/-- A proof about the region's call under the certificate's own body table is one about it under the table
    extended by the subcores' dispatch. -/
theorem enter_lift (d : Dev nD) (Φ : PUnit → sProp (MM F)) :
    wp frame (wpE (Pipeline.defs (pcfgs (F := F)) defs₀) (Variants.lift 𝒱₀) (d.tc : Thread nD τ) none) Set.univ
        (Prog.op (TpuEff.customCall (Pipeline.entry (0 : Fin 1)) ()) Prog.ret) Φ
      ⊢ wp frame (wpE ((K (F := F)).defs (D (F := F))) 𝒱 (T d) none) Set.univ
          (Prog.lift (.customCall (SparseCore.inner (Pipeline.entry 0)) ())) Φ :=
  (K (F := F)).wp_liftProg (D (F := F)) 𝒱 (T d) Set.univ none (Prog.lift (.customCall (Pipeline.entry (0 : Fin 1)) ())) Φ

/-- The region as one step of @main on the TensorCore. -/
theorem region_wp (d : Dev nD) (Φ : PUnit → sProp (MM F)) :
    iprop(levAts L lv ∗ boundary (T d) ∗ regPre A B f3 W₀ d
        ∗ Pipeline.cellsGhost cfgs (EP (F := F)) 0 d ∗ Pipeline.toksInit cfgs (EP (F := F)) 0 d
        ∗ (iprop(boundary (T d) ∗ regPost A B W₀ d) -∗ Φ ⟨⟩))
      ⊢ wp frame (wpE ((K (F := F)).defs (D (F := F))) 𝒱 (T d) none) Set.univ
          (Prog.lift (.customCall (SparseCore.inner (Pipeline.entry 0)) ())) Φ := by
  have h := Pipeline.RegionSeg.wp (pcfgs (F := F)) adm (dats A B f3 W₀) none cellOf_inj (EP (F := F)) defs₀ 𝒱₀ L lv
    (reg A B f3 W₀ L lv) d none (fun _ h => by cases h) Prog.ret Φ
  rw [reg_pre, reg_post] at h
  refine BIBase.Entails.trans ?_ (enter_lift d Φ)
  refine BIBase.Entails.trans ?_ h
  iintro ⟨Hl, Hb, Hpre, Hg, Ht, Hk⟩
  isplitl [Hk]
  · iintro H
    rw [wp_ret]
    imodintro
    iapply Hk
    iexact H
  isplitl [Hb]; · iexact Hb
  isplitl [Hpre]; · iexact Hpre
  isplitl [Hl]; · iexact Hl
  isplitl [Hg]; · iexact Hg
  iexact Ht

end Region

end Cert.Proof.KB
end
-- ==== Proof.LaunchB.lean ====
/-
  The launch: from each thread's body to the run of the whole program.
-/
import proofs.«204280_g3796751090005_cont_sun_c4_229_23_alg».proof.Proof.PayB
import proofs.«204280_g3796751090005_cont_sun_c4_229_23_alg».proof.Proof.ReshapeB
import proofs.«204280_g3796751090005_cont_sun_c4_229_23_alg».proof.Proof.TcRegionB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

section Split
variable (A B : (d : Dev nD) → Buf (Elt F) (aLoc d)) (f0 : (d : Dev nD) → Buf (Elt F) (o1Loc d))

omit [FloatOps F] in
/-- A family over the sixteen tiles, indexed as the call indexes its tasks. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the two SparseCores, indexed as the call indexes its grid. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's operands split among its sixteen tiles: its read share of each reshaped input is cut into
    sixteen, the remainder kept until the tiles' shares come back; the result slices are already the tiles'. -/
theorem vecSplit : (K (F := F)).VecSplit' (P A B f0) 0 := by
  intro d c
  show stP A B f0 d (Fin.cast nCore_zero c) ⊢ |={Set.univ}=> iprop(
      (bigSep Finset.univ fun i : Fin ((K (F := F)).nSub 0) => goP A B f0 d (Fin.cast nCore_zero c) (Fin.cast nSub_zero i))
      ∗ ((bigSep Finset.univ fun i : Fin ((K (F := F)).nSub 0) => tdP A B d (Fin.cast nCore_zero c) (Fin.cast nSub_zero i))
          -∗ dnP A B d (Fin.cast nCore_zero c)))
  rw [bigSep_tasks (F := F) (fun i => goP A B f0 d (Fin.cast nCore_zero c) i),
    bigSep_tasks (F := F) (fun i => tdP A B d (Fin.cast nCore_zero c) i)]
  generalize Fin.cast nCore_zero c = c'
  unfold goP tdP stP dnP
  rw [bigSep_sep', bigSep_sep', bigSep_sep', bigSep_sep']
  iintro ⟨Ha, Hb, Hs⟩
  ihave Ha' := (Transfers.pointsTo_toks_split (qC c') 16) $$ Ha
  ihave Hb' := (Transfers.pointsTo_toks_split (qC c') 16) $$ Hb
  icases Ha' with ⟨Had, Hat⟩
  icases Hb' with ⟨Hbd, Hbt⟩
  imodintro
  isplitl [Hat Hbt Hs]
  · isplitl [Hat]; · iexact Hat
    isplitl [Hbt]; · iexact Hbt
    iexact Hs
  iintro ⟨Hat, Hbt, Hs⟩
  isplitl [Had Hat]
  · iapply (Transfers.pointsTo_toks_join (qC c') 16)
    isplitl [Had]; · iexact Had
    iexact Hat
  isplitl [Hbd Hbt]
  · iapply (Transfers.pointsTo_toks_join (qC c') 16)
    isplitl [Hbd]; · iexact Hbd
    iexact Hbt
  iexact Hs

end Split

variable (m : (ℓ : Loc nD τ sig) → Buf (Elt F) ℓ) (ρ : Dev nD → PrngReg)

/-- The reshaped inputs and the first result's launch contents. -/
def Am (d : Dev nD) : Buf (Elt F) (aLoc d) := rs (m (x1Loc d))
def Bm (d : Dev nD) : Buf (Elt F) (aLoc d) := rs (m (x2Loc d))
abbrev f0m (d : Dev nD) : Buf (Elt F) (o1Loc d) := m (o1Loc d)

abbrev PP : (K (F := F)).Pay (nD := nD) (Val := Elt F) (Name := ℕ) (U := UU) := P (Am m) (Bm m) (f0m m)

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch deals the TensorCore's proof beyond its arrays: the pipelined region's ghost state. -/
abbrev GG (d : Dev nD) : sProp 𝕄 := iprop(Pipeline.cellsGhost cfgs (EP (F := F)) 0 d ∗ Pipeline.toksInit cfgs (EP (F := F)) 0 d)

omit [FloatOps F] in
/-- The region's ghost state, per device, regrouped: the one pipeline's cells and tokens side by side. -/
theorem GG_deal :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => GG (F := F) d := by
  rw [bigSep_sep',
    bigSep_congr (fun c _ => bigSep_univ_of_subsingleton (0 : Fin 1) (Φ := fun p => Pipeline.cellsGhost cfgs (EP (F := F)) p c)),
    bigSep_congr (fun c _ => bigSep_univ_of_subsingleton (0 : Fin 1) (Φ := fun p => (Pipeline.toksInit cfgs (EP (F := F)) p c : sProp 𝕄)))]

omit [FloatOps F] in
theorem bigSep_emp' {I : Type} (s : Finset I) : (bigSep s fun _ => iprop(emp)) = (iprop(emp) : sProp 𝕄) := bigSep_emp_const s

omit [FloatOps F] in
/-- The launch deals the kernels' proofs nothing of its own. -/
theorem Px_emp : (bigSep Finset.univ fun thr : Thread nD τ => bigSep Finset.univ fun q : Fin 1 => (PP m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  rw [Px_emp]
  unfold u₀
  have hfund : (BI.own (((Emb.inl : Emb UP (UP × Counters)).trans (embR : Emb (UP × Counters) 𝕄))
        (initOf (Pipeline.cells (nD := nD) (τ := τ) cfgs cellOf_inj) (Pipeline.launchToks (nD := nD) (τ := τ) cfgs cellOf_inj))) : sProp 𝕄) ⊢ _ :=
    Pipeline.fund_ghost (nD := nD) (τ := τ) cfgs (EP (F := F)) cellOf_inj
  iintro Hu
  ihave H := (ownU_pair _ _) $$ Hu
  icases H with ⟨HH, HR⟩
  ihave HR' := (own_pair_emb (embR : Emb (UP × Counters) 𝕄) _ _) $$ HR
  icases HR' with ⟨HP, -⟩
  imod hfund $$ HP with Hgt
  imodintro
  isplitl [HH]; · iexact HH
  isplitl [Hgt]
  · iapply (GG_deal (F := F)); iexact Hgt
  iempintro

/-! ## @main on the TensorCore -/

abbrev x1' : DevRef τ sig := Proc.devRef .tc (main_arg0 : Ref sig .tc)
abbrev x2' : DevRef τ sig := Proc.devRef .tc (main_arg1 : Ref sig .tc)
abbrev a' : DevRef τ sig := Proc.devRef .tc (main_v0 : Ref sig .tc)
abbrev b' : DevRef τ sig := Proc.devRef .tc (main_v1 : Ref sig .tc)
abbrev o1' : DevRef τ sig := Proc.devRef .tc (main_v2 : Ref sig .tc)
abbrev o2' : DevRef τ sig := Proc.devRef .tc (main_v3 : Ref sig .tc)

/-- The two reshapes. -/
abbrev op0 : HloOp τ sig (Elt F) := StableHlo.reshape main_arg0 main_v0 rfl shapeCasts_S8x192x64x64_S8x96x2x64x64
abbrev op1 : HloOp τ sig (Elt F) := StableHlo.reshape main_arg1 main_v1 rfl shapeCasts_S8x192x64x64_S8x96x2x64x64

/-- The TensorCore's six arrays, all unscoped. -/
abbrev S6 : Finset (DevRef τ sig) := {x1', x2', a', b', o1', o2'}

omit [FloatOps F] in
theorem held_S6 (d : Dev nD) (W : Valuation τ sig (Elt F)) :
    (held (T d) S6 W : sProp 𝕄) = iprop((x1Loc d ↦{fullShare} W x1') ∗ (x2Loc d ↦{fullShare} W x2') ∗ (aLoc d ↦{fullShare} W a')
      ∗ (bLoc d ↦{fullShare} W b') ∗ (o1Loc d ↦{fullShare} W o1') ∗ (o2Loc d ↦{fullShare} W o2')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((x1Loc d ↦{fullShare} W main_arg0) ∗ (x2Loc d ↦{fullShare} W main_arg1) ∗ (aLoc d ↦{fullShare} W main_v0)
      ∗ (bLoc d ↦{fullShare} W main_v1) ∗ (o1Loc d ↦{fullShare} W main_v2) ∗ (o2Loc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S6 (V0 m d) := by
  rw [unscopedBufs_eq, held_S6]; rfl

theorem h0 : (op0 (F := F)).bufs ⊆ S6 := show ({x1', a'} : Finset (DevRef τ sig)) ⊆ S6 by decide
theorem h1 : (op1 (F := F)).bufs ⊆ S6 := show ({x2', b'} : Finset (DevRef τ sig)) ⊆ S6 by decide

/-- The contents after the two reshapes. -/
abbrev V2 (d : Dev nD) : Valuation τ sig (Elt F) := (op1 (F := F)).result ((op0 (F := F)).result (V0 m d))

theorem V2_x1 (d : Dev nD) : V2 m d x1' = m (x1Loc d) := by
  unfold V2
  rw [(op1 (F := F)).result_of_not_mem _ (b := x1') (show x1' ∉ ({b'} : Finset (DevRef τ sig)) by decide),
    (op0 (F := F)).result_of_not_mem _ (b := x1') (show x1' ∉ ({a'} : Finset (DevRef τ sig)) by decide)]
  rfl
theorem V2_x2 (d : Dev nD) : V2 m d x2' = m (x2Loc d) := by
  unfold V2
  rw [(op1 (F := F)).result_of_not_mem _ (b := x2') (show x2' ∉ ({b'} : Finset (DevRef τ sig)) by decide),
    (op0 (F := F)).result_of_not_mem _ (b := x2') (show x2' ∉ ({a'} : Finset (DevRef τ sig)) by decide)]
  rfl
theorem V2_o1 (d : Dev nD) : V2 m d o1' = m (o1Loc d) := by
  unfold V2
  rw [(op1 (F := F)).result_of_not_mem _ (b := o1') (show o1' ∉ ({b'} : Finset (DevRef τ sig)) by decide),
    (op0 (F := F)).result_of_not_mem _ (b := o1') (show o1' ∉ ({a'} : Finset (DevRef τ sig)) by decide)]
  rfl
theorem V2_o2 (d : Dev nD) : V2 m d o2' = m (o2Loc d) := by
  unfold V2
  rw [(op1 (F := F)).result_of_not_mem _ (b := o2') (show o2' ∉ ({b'} : Finset (DevRef τ sig)) by decide),
    (op0 (F := F)).result_of_not_mem _ (b := o2') (show o2' ∉ ({a'} : Finset (DevRef τ sig)) by decide)]
  rfl
theorem V2_a (d : Dev nD) : V2 m d a' = Am m d := by
  unfold V2
  rw [(op1 (F := F)).result_of_not_mem _ (b := a') (show a' ∉ ({b'} : Finset (DevRef τ sig)) by decide)]
  exact (StableHlo.reshape_result _ _ _ _ _ _ (V0 m d)).trans rfl
theorem V2_b (d : Dev nD) : V2 m d b' = Bm m d := by
  unfold V2
  refine (StableHlo.reshape_result _ _ _ _ _ _ ((op0 (F := F)).result (V0 m d))).trans ?_
  show rs ((op0 (F := F)).result (V0 m d) x2') = _
  rw [(op0 (F := F)).result_of_not_mem _ (b := x2') (show x2' ∉ ({a'} : Finset (DevRef τ sig)) by decide)]
  rfl

theorem held_V2 (d : Dev nD) :
    (held (T d) S6 (V2 m d) : sProp 𝕄) = iprop((x1Loc d ↦{fullShare} m (x1Loc d)) ∗ (x2Loc d ↦{fullShare} m (x2Loc d)) ∗ (aLoc d ↦{fullShare} Am m d)
      ∗ (bLoc d ↦{fullShare} Bm m d) ∗ (o1Loc d ↦{fullShare} m (o1Loc d)) ∗ (o2Loc d ↦{fullShare} m (o2Loc d))) := by
  rw [held_S6, V2_x1, V2_x2, V2_a, V2_b, V2_o1, V2_o2]

/-- What the call takes for the two SparseCores, and what it hands back. -/
theorem st0_eq (d : Dev nD) : (bigSep Finset.univ fun c : Fin ((K (F := F)).nCore 0) => (PP m).st 0 d c)
    = iprop((bigSep Finset.univ fun c : Fin 2 => aLoc d ↦{qC c} Am m d) ∗ (bigSep Finset.univ fun c : Fin 2 => bLoc d ↦{qC c} Bm m d)
      ∗ bigSep Finset.univ fun c : Fin 2 => bigSep Finset.univ fun i : Fin 16 => bigSep Finset.univ fun k : Fin 24 =>
          o1Loc d ↦[oSet (coordsV c i) k]{fullShare} f0m m d) := by
  show (bigSep Finset.univ fun c : Fin ((K (F := F)).nCore 0) => stP (Am m) (Bm m) (f0m m) d (Fin.cast nCore_zero c)) = _
  rw [bigSep_cores (F := F) (fun c => stP (Am m) (Bm m) (f0m m) d c)]
  unfold stP tileSlices
  rw [bigSep_sep', bigSep_sep']
theorem dn0_eq (d : Dev nD) : (bigSep Finset.univ fun c : Fin ((K (F := F)).nCore 0) => (PP m).dn 0 d c)
    = iprop((bigSep Finset.univ fun c : Fin 2 => aLoc d ↦{qC c} Am m d) ∗ (bigSep Finset.univ fun c : Fin 2 => bLoc d ↦{qC c} Bm m d)
      ∗ bigSep Finset.univ fun c : Fin 2 => bigSep Finset.univ fun i : Fin 16 => bigSep Finset.univ fun k : Fin 24 =>
          o1Loc d ↦[oSet (coordsV c i) k]{fullShare} G1 (Am m d) (Bm m d)) := by
  show (bigSep Finset.univ fun c : Fin ((K (F := F)).nCore 0) => dnP (Am m) (Bm m) d (Fin.cast nCore_zero c)) = _
  rw [bigSep_cores (F := F) (fun c => dnP (Am m) (Bm m) d c)]
  unfold dnP tileSlices
  rw [bigSep_sep', bigSep_sep']

/-- The TensorCore's handshake state after the one call: it owes nothing; what it holds beside that is kept as it is. -/
theorem tcSt_one (d : Dev nD) :
    (K (F := F)).tcSt EH d 1 ⊢ (iprop(∃ W : Waits sig (HIx 1), ⌜(K (F := F)).WBelow (T d) W (8 * 1)⌝ ∗ owes (T d) 0 W
      ∗ (∀ W' : Waits sig (HIx 1), (⌜(K (F := F)).WBelow (T d) W' (8 * 1)⌝ ∗ owes (T d) 0 W') -∗ (K (F := F)).tcSt EH d 1)) : sProp 𝕄) := by
  unfold SparseCore.Cfg.tcSt
  rw [(K (F := F)).Otc_end d le_rfl]
  iintro ⟨⟨%W, %hW, HO⟩, Hrest⟩
  iexists W
  isplitr; · ipureintro; exact hW
  isplitl [HO]; · iexact HO
  iintro %W' ⟨%hW', HO'⟩
  isplitl [HO']
  · iexists W'
    isplitr; · ipureintro; exact hW'
    iexact HO'
  iexact Hrest

/-- What @main leaves the claim: the inputs at their launch contents, the two results at their values. -/
abbrev FIN (d : Dev nD) : sProp 𝕄 :=
  iprop((x1Loc d ↦{fullShare} m (x1Loc d)) ∗ (x2Loc d ↦{fullShare} m (x2Loc d))
    ∗ (o1Loc d ↦{fullShare} G1 (Am m d) (Bm m d)) ∗ (o2Loc d ↦{fullShare} G2 (Am m d) (Bm m d)))

/-- @main on device d's TensorCore: the two reshapes, the call (the reshaped inputs' read shares and the first
    result's slices out to the two SparseCores and back), the pipelined region for the second result. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg, Ht⟩
  -- the first reshape
  iapply (wp_hlo_within 𝒱 (SparseCore.T d) none Set.univ (op := op0) (S := S6) h0 (V := V0 m d)) $$ [Hb Hheld]
  · isplitl [Hb]; · iexact Hb
    iexact Hheld
  iintro ⟨Hb, Hheld⟩
  rw [wp_ret]; imodintro
  -- the second
  iapply (wp_hlo_within 𝒱 (SparseCore.T d) none Set.univ (op := op1) (S := S6) h1 (V := (op0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Hx1, Hx2, Ha, Hbb, Ho1, Ho2⟩
  -- a read share of each reshaped input per SparseCore, the first result cut into the tiles' slices
  ihave Ha' := (Transfers.pointsTo_toks_split fullShare 2) $$ Ha
  icases Ha' with ⟨Had, Hat⟩
  ihave Hb' := (Transfers.pointsTo_toks_split fullShare 2) $$ Hbb
  icases Hb' with ⟨Hbd, Hbt⟩
  ihave Ho := (Entails.of_eq (o1_split (F := F) d (f0m m d))) $$ Ho1
  -- the call
  iapply ((K (F := F)).wp_run (D (F := F)) 𝒱 (EH := EH) (P := PP m) κ d 0) $$ [Hst Hat Hbt Ho Hb Hx1 Hx2 Had Hbd Ho2 Hg Ht]
  isplitr; · iexact Hctx
  isplitl [Hst]; · iexact Hst
  isplitl [Hat Hbt Ho]
  · rw [st0_eq]
    isplitl [Hat]; · iexact Hat
    isplitl [Hbt]; · iexact Hbt
    iexact Ho
  iintro ⟨Hst, Hdn⟩
  ihave Hdn' := (Entails.of_eq (dn0_eq m d)) $$ Hdn
  icases Hdn' with ⟨Hat, Hbt, Ho⟩
  ihave Ha := (Transfers.pointsTo_toks_join fullShare 2) $$ [Had Hat]
  · isplitl [Had]; · iexact Had
    iexact Hat
  ihave Hbb := (Transfers.pointsTo_toks_join fullShare 2) $$ [Hbd Hbt]
  · isplitl [Hbd]; · iexact Hbd
    iexact Hbt
  ihave Ho1 := (Entails.of_eq (o1_split (F := F) d (G1 (Am m d) (Bm m d))).symm) $$ Ho
  -- the pipelined region, entered owing nothing
  ihave Hst1 := (Entails.of_eq (show ((K (F := F)).tcSt EH d ((0 : Fin 1).val + 1) : sProp 𝕄) = (K (F := F)).tcSt EH d 1 from rfl)) $$ Hst
  ihave Hst' := (tcSt_one (F := F) d) $$ Hst1
  icases Hst' with ⟨%W, %hW, HO, Hback⟩
  ihave Hlev := (SparseCore.Cfg.ctx_levAts κ) $$ Hctx
  iapply (region_wp (F := F) (Am m d) (Bm m d) (m (o2Loc d)) W (K (F := F)).L (K (F := F)).lev d _) $$ [Hlev Hb Ha Hbb Ho2 HO Hg Ht Hback Hx1 Hx2 Ho1]
  isplitl [Hlev]; · iexact Hlev
  isplitl [Hb]; · iexact Hb
  isplitl [Ha Hbb Ho2 HO]
  · unfold regPre
    isplitl [Ha]; · iexact Ha
    isplitl [Hbb]; · iexact Hbb
    isplitl [Ho2]; · iexact Ho2
    iexact HO
  isplitl [Hg]; · iexact Hg
  isplitl [Ht]; · iexact Ht
  iintro ⟨-, Hpost⟩
  unfold regPost
  icases Hpost with ⟨-, -, Ho2, %W', %hW', HO⟩
  imodintro
  isplitl [Hback HO]
  · iapply Hback
    isplitr
    · ipureintro
      intro p hp
      rcases hW' hp with h | ⟨w, s, rfl⟩
      · exact hW p h
      · rw [(K (F := F)).lev_none]; exact Nat.zero_le _
    iexact HO
  isplitl [Hx1]; · iexact Hx1
  isplitl [Hx2]; · iexact Hx2
  isplitl [Ho1]; · iexact Ho1
  iexact Ho2

def fq (d : Dev nD) (s' : Phys nD τ sig (Elt F)) : Prop :=
  s'.mem.mem (x1Loc d) = m (x1Loc d) ∧ s'.mem.mem (x2Loc d) = m (x2Loc d)
    ∧ s'.mem.mem (o1Loc d) = G1 (Am m d) (Bm m d) ∧ s'.mem.mem (o2Loc d) = G2 (Am m d) (Bm m d)

theorem hfin (d : Dev nD) (s' : Phys nD τ sig (Elt F)) : iprop(FIN m d ∗ SI s') ⊢ (⌜fq m d s'⌝ : sProp 𝕄) := by
  iintro ⟨⟨H1, H2, H3, H4⟩, HSI⟩
  ihave H := (persistent_entails_right (SI_pointsTo_agree (st := s') (ℓ := x1Loc d) (I := Finset.univ) (q := fullShare) (f := m (x1Loc d)))) $$ [HSI H1]
  · isplitl [HSI] <;> iassumption
  icases H with ⟨%h1, HSI, -⟩
  ihave H := (persistent_entails_right (SI_pointsTo_agree (st := s') (ℓ := x2Loc d) (I := Finset.univ) (q := fullShare) (f := m (x2Loc d)))) $$ [HSI H2]
  · isplitl [HSI] <;> iassumption
  icases H with ⟨%h2, HSI, -⟩
  ihave H := (persistent_entails_right (SI_pointsTo_agree (st := s') (ℓ := o1Loc d) (I := Finset.univ) (q := fullShare) (f := G1 (Am m d) (Bm m d)))) $$ [HSI H3]
  · isplitl [HSI] <;> iassumption
  icases H with ⟨%h3, HSI, -⟩
  ihave H := (SI_pointsTo_agree (st := s') (ℓ := o2Loc d) (I := Finset.univ) (q := fullShare) (f := G2 (Am m d) (Bm m d))) $$ [HSI H4]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

def QC : PUnit × MemSt nD τ sig (Elt F) → Prop := fun r => ∀ c : Dev nD,
  r.2.mem (x1Loc c) = m (x1Loc c) ∧ r.2.mem (x2Loc c) = m (x2Loc c)
    ∧ r.2.mem (o1Loc c) = Cert.Proof.Spec.swapEven (m (x1Loc c)) (m (x2Loc c))
    ∧ r.2.mem (o2Loc c) = Cert.Proof.Spec.swapEven (m (x2Loc c)) (m (x1Loc c))

theorem run_main [∀ e, Nonempty (Elt F e)]
    (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (Am m) (Bm m) (f0m m)))
    m ρ main (fun d => GG (F := F) d) (FIN m) (u₀ (F := F)) (sep_elim_left.trans (hu₀ m)) (hmain m ρ) (fq m) (hfin m) (QC m)
    (fun s' h c => by
      obtain ⟨h1, h2, h3, h4⟩ := h c
      exact ⟨h1, h2, h3.trans (G1_rs _ _), h4.trans (G2_rs _ _)⟩)

end Cert.Proof.KB

end
-- ==== Proof.ClaimKB.lean ====
/-
  The claim about the word-level kernel, read off its run.

  The program is run to the statement of its idealized twin: the arguments end unchanged, the first result is
  the first argument with its even channels taken from the second, the second result the mirror image.  The
  frame drops the values.
-/
import proofs.«204280_g3796751090005_cont_sun_c4_229_23_alg».proof.Defs
import proofs.«204280_g3796751090005_cont_sun_c4_229_23_alg».proof.Proof.Gen.Pre_finite_inputs
import proofs.«204280_g3796751090005_cont_sun_c4_229_23_alg».proof.Proof.LaunchB

noncomputable section

namespace Cert.Proof.KB

open Cert.Kernel Cert.Kernel.Gen
open Idealize.ShloMosaic
open Idealize.ShloMosaic.SparseCore (S V T)
open Idealize.SL.Sem

/-- The tile obligation at every launch memory: what the assembly takes from the body's proof. -/
abbrev TileHyp : Prop :=
  ∀ m : (ℓ : Loc nD τ sig) → Buf (Elt Bits) ℓ, (K (F := Bits)).TileObl (D (F := Bits)) 𝒱 (PP m) v₀ 0

/-- The word-level kernel runs and leaves its arguments unchanged. -/
theorem frame_Kernel (htile : TileHyp) : Cert.frame_Kernel := fun m g _ =>
  (θ_run (Cert.Kernel.defs (F := Bits)) _ _).mono (fun _ h c => ⟨(h c).1, (h c).2.1⟩)
    (run_main (F := Bits) m g (htile m))

end Cert.Proof.KB

end
-- ==== Proof.SlotValue.lean ====
/-
  What the copying kernel's ring buffer holds, and where each copied element comes from.

  The scratch [6, 2, 64, 64] is a ring of six slots of two images each.  For chunk `k` (slot `k mod 6`) the
  kernel copies image (n, p, 0) of the second reshaped input into half 0 of the slot and image (n, p, 1) of the
  first into half 1 — `p = p0 + k` the tile's `k`-th channel pair —, then copies the slot to the two channels
  `2p`, `2p + 1` of sample `n` of the result.  Every view involved is a unit-stride block with its leading
  unit axes dropped, so element `y` of the view sits at `offset + (0, …, 0, y)` of the array; the lemmas
  `*_emb` say so coordinate by coordinate.  `Holds g s e p` says that half `e` of slot `s` of contents `g`
  is the image `p`: a write to that half establishes it (`Holds.hit`), a write to any other half keeps it
  (`Holds.miss`).  `chunk_value` puts the pieces together: a result slice written with a slot whose two halves
  are those two images is the result function `G1` on the slice's elements, because channel `2p + e` is even
  exactly when `e = 0` and its pair is `p`.
-/
import proofs.«204280_g3796751090005_cont_sun_c4_229_23_alg».proof.Proof.Tiles
import proofs.«204280_g3796751090005_cont_sun_c4_229_23_alg».proof.Proof.Values
import proofs.«204280_g3796751090005_cont_sun_c4_229_23_alg».proof.Proof.Offsets
import Idealize.ShloMosaic.Lib.ValueLayout
import Idealize.ShloMosaic.Lib.Writes

noncomputable section
namespace Cert.Proof.KI
open Cert.KernelIdeal Cert.KernelIdeal.Gen
open Idealize.ShloMosaic Idealize.ShloMosaic.ValueIdx

/-- An index (x, y) matched with shape [1, 1, 1, a, b] is (0, 0, 0, x, y). -/
theorem reshapeEquiv_ix2_111ab {a b : ℕ} (h : (⟨2, ![a, b]⟩ : Shape).numel = (⟨5, ![1, 1, 1, a, b]⟩ : Shape).numel)
    (x : Fin a) (y : Fin b) :
    Shape.reshapeEquiv h (ix2 x y) = ix5 (⟨0, Nat.one_pos⟩ : Fin 1) (⟨0, Nat.one_pos⟩ : Fin 1) (⟨0, Nat.one_pos⟩ : Fin 1) x y :=
  Shape.reshapeEquiv_eq_of_rowMajor h (by
    rw [Shape.rowMajor_val_five, Shape.rowMajor_val_two]
    show ((((0 * 1 + 0) * 1 + 0) * a + x.val) * b + y.val) = x.val * b + y.val
    simp only [Nat.zero_mul, Nat.zero_add, Nat.mul_one, Nat.add_zero])

/-! ## The ring's views -/

theorem inb_half (s e : ℕ) (hs : s < 6) (he : e < 2) : ∀ a, (![s, e, 0, 0] : Fin 4 → Nat) a + S1x1x64x64.size a ≤ S6x2x64x64.size a := by
  intro a
  match a with
  | ⟨0, _⟩ => show s + 1 ≤ 6; omega
  | ⟨1, _⟩ => show e + 1 ≤ 2; omega
  | ⟨2, _⟩ => show 0 + 64 ≤ 64; omega
  | ⟨3, _⟩ => show 0 + 64 ≤ 64; omega

theorem inb_slot (s : ℕ) (hs : s < 6) : ∀ a, (![s, 0, 0, 0] : Fin 4 → Nat) a + S1x2x64x64.size a ≤ S6x2x64x64.size a := by
  intro a
  match a with
  | ⟨0, _⟩ => show s + 1 ≤ 6; omega
  | ⟨1, _⟩ => show 0 + 2 ≤ 2; omega
  | ⟨2, _⟩ => show 0 + 64 ≤ 64; omega
  | ⟨3, _⟩ => show 0 + 64 ≤ 64; omega

/-- Half `e` of ring slot `s`: one [64, 64] image. -/
abbrev hM (s e : ℕ) (hs : s < 6) (he : e < 2) : Memref sig .scVector .vmem S64x64 .f32 :=
  ((sB : Memref sig .scVector .vmem S6x2x64x64 .f32).slice (Rect.unit (s := S6x2x64x64) ![s, e, 0, 0] S1x1x64x64.size (inb_half s e hs he)) (fun _ => rfl)).squeeze S64x64 squeezes_S1x1x64x64_S64x64
/-- Ring slot `s`: two images. -/
abbrev sM (s : ℕ) (hs : s < 6) : Memref sig .scVector .vmem S2x64x64 .f32 :=
  ((sB : Memref sig .scVector .vmem S6x2x64x64 .f32).slice (Rect.unit (s := S6x2x64x64) ![s, 0, 0, 0] S1x2x64x64.size (inb_slot s hs)) (fun _ => rfl)).squeeze S2x64x64 squeezes_S1x2x64x64_S2x64x64

/-- Element (h, w) of half `e` of slot `s` is element (s, e, h, w) of the scratch. -/
theorem hM_emb (s e : ℕ) (hs : s < 6) (he : e < 2) (h : Fin 64) (w : Fin 64) :
    (hM s e hs he).view.emb (ix2 h w) = (ix4 (⟨s, hs⟩ : Fin 6) (⟨e, he⟩ : Fin 2) h w : S6x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix2_11ab]
  match a with
  | ⟨0, _⟩ => show s + 1 * 0 = s; omega
  | ⟨1, _⟩ => show e + 1 * 0 = e; omega
  | ⟨2, _⟩ => show 0 + 1 * h.val = h.val; omega
  | ⟨3, _⟩ => show 0 + 1 * w.val = w.val; omega

/-- Element (e, h, w) of slot `s` is element (s, e, h, w) of the scratch. -/
theorem sM_emb (s : ℕ) (hs : s < 6) (e : Fin 2) (h : Fin 64) (w : Fin 64) :
    (sM s hs).view.emb (ix3 e h w) = (ix4 (⟨s, hs⟩ : Fin 6) e h w : S6x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix3_1abc]
  match a with
  | ⟨0, _⟩ => show s + 1 * 0 = s; omega
  | ⟨1, _⟩ => show 0 + 1 * e.val = e.val; omega
  | ⟨2, _⟩ => show 0 + 1 * h.val = h.val; omega
  | ⟨3, _⟩ => show 0 + 1 * w.val = w.val; omega

/-- So element (e, h, w) of the slot is element (h, w) of its half `e`. -/
theorem sM_emb_half (s e : ℕ) (hs : s < 6) (he : e < 2) (h : Fin 64) (w : Fin 64) :
    (sM s hs).view.emb (ix3 (⟨e, he⟩ : Fin 2) h w) = (hM s e hs he).view.emb (ix2 h w) :=
  (sM_emb s hs ⟨e, he⟩ h w).trans (hM_emb s e hs he h w).symm

/-! ## What a half of a slot holds -/

variable {α : EltTy → Type}

/-- Half `e` of slot `s` of the scratch contents `g` is the image `p`. -/
def Holds (g : (sB : Memref sig .scVector .vmem S6x2x64x64 .f32).view.ty.Contents α) (s e : ℕ) (hs : s < 6) (he : e < 2) (p : S64x64.Idx → α .f32) : Prop :=
  ∀ (h w : Fin 64), g ((hM s e hs he).view.emb (ix2 h w)) = p (ix2 h w)

/-- A write of the image `p` to half `e` of slot `s` leaves it there. -/
theorem Holds.hit (g : (sB : Memref sig .scVector .vmem S6x2x64x64 .f32).view.ty.Contents α) (s e : ℕ) (hs : s < 6) (he : e < 2) (p : S64x64.Idx → α .f32) :
    Holds (View.write α (hM s e hs he).view g p Finset.univ) s e hs he p := by
  intro h w
  rw [View.write_emb_of_mem _ _ (Finset.mem_univ _)]; rfl

/-- Two different halves of the ring share no element. -/
theorem half_emb_ne {s s' e e' : ℕ} {hs : s < 6} {hs' : s' < 6} {he : e < 2} {he' : e' < 2} (hne : s ≠ s' ∨ e ≠ e') (h w h' w' : Fin 64) :
    (hM s e hs he).view.emb (ix2 h w) ≠ (hM s' e' hs' he').view.emb (ix2 h' w') := by
  rw [hM_emb, hM_emb]
  intro hh
  have h0 : s = s' := congrArg Fin.val (congrFun hh (⟨0, by decide⟩ : Fin 4))
  have h1 : e = e' := congrArg Fin.val (congrFun hh (⟨1, by decide⟩ : Fin 4))
  rcases hne with hn | hn
  · exact hn h0
  · exact hn h1

/-- A write to another half keeps what this half holds. -/
theorem Holds.miss {g : (sB : Memref sig .scVector .vmem S6x2x64x64 .f32).view.ty.Contents α} {s s' e e' : ℕ} {hs : s < 6} {he : e < 2} {p : S64x64.Idx → α .f32}
    (hyp : Holds g s e hs he p) (hs' : s' < 6) (he' : e' < 2) (hne : s ≠ s' ∨ e ≠ e') (p' : S64x64.Idx → α .f32) :
    Holds (View.write α (hM s' e' hs' he').view g p' Finset.univ) s e hs he p := by
  intro h w
  rw [View.write_of_not_mem]
  · exact hyp h w
  · rw [View.setOn_univ]
    intro hm
    obtain ⟨x', -, hx'⟩ := Finset.mem_map.mp hm
    obtain ⟨h', w', rfl⟩ : ∃ (h' w' : Fin 64), x' = ix2 h' w' := ⟨x' 0, x' 1, eq_ix2 x'⟩
    exact half_emb_ne hne h w h' w' hx'.symm

/-- Reading slot `s` whole: element (e, h, w) is what half `e` holds at (h, w). -/
theorem Holds.read_slot {g : (sB : Memref sig .scVector .vmem S6x2x64x64 .f32).view.ty.Contents α} {s : ℕ} {hs : s < 6} {p0 p1 : S64x64.Idx → α .f32}
    (h0 : Holds g s 0 hs (by decide) p0) (h1 : Holds g s 1 hs (by decide) p1) (e : Fin 2) (h w : Fin 64) :
    g ((sM s hs).view.emb (ix3 e h w)) = if e.val = 0 then p0 (ix2 h w) else p1 (ix2 h w) := by
  match e with
  | ⟨0, he⟩ =>
    rw [if_pos rfl]
    exact (congrArg g (sM_emb_half s 0 hs he h w)).trans (h0 h w)
  | ⟨1, he⟩ =>
    rw [if_neg (fun hh => Nat.one_ne_zero hh)]
    exact (congrArg g (sM_emb_half s 1 hs he h w)).trans (h1 h w)

/-! ## The sources and the destination of chunk `k` -/

/-- The tile's sample and its `k`-th channel pair. -/
def nF (L : grid0.Coords) : Fin 8 := ⟨wid L / 4, by have := wid_lt L; omega⟩
def pF (L : grid0.Coords) (k : Fin 24) : Fin 96 := ⟨(wid L % 4) * 24 + k.val, by have := k.isLt; omega⟩

/-- Image (n, p, 0) of the second reshaped input, as the kernel slices it. -/
abbrev srcB (L : grid0.Coords) (r : BitVec 32) (inb : ∀ a, (k0_off1 L r) a + S1x1x1x64x64.size a ≤ S8x96x2x64x64.size a) : Memref sig .scVector .hbm S64x64 .f32 :=
  ((bV : Memref sig .scVector .hbm S8x96x2x64x64 .f32).slice (Rect.unit (s := S8x96x2x64x64) (k0_off1 L r) S1x1x1x64x64.size inb) (fun _ => rfl)).squeeze S64x64 squeezes_S1x1x1x64x64_S64x64
/-- Image (n, p, 1) of the first reshaped input. -/
abbrev srcA (L : grid0.Coords) (r : BitVec 32) (inb : ∀ a, (k0_off2 L r) a + S1x1x1x64x64.size a ≤ S8x96x2x64x64.size a) : Memref sig .scVector .hbm S64x64 .f32 :=
  ((aV : Memref sig .scVector .hbm S8x96x2x64x64 .f32).slice (Rect.unit (s := S8x96x2x64x64) (k0_off2 L r) S1x1x1x64x64.size inb) (fun _ => rfl)).squeeze S64x64 squeezes_S1x1x1x64x64_S64x64

theorem srcB_emb (L : grid0.Coords) (k : Fin 24) (r : BitVec 32) (hr : r = BitVec.ofNat 32 k.val) (inb) (h w : Fin 64) :
    (srcB L r inb).view.emb (ix2 h w) = (ix5 (nF L) (pF L k) (0 : Fin 2) h w : S8x96x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix2_111ab]
  have e := k0_off1_eq' L k r hr
  match a with
  | ⟨0, _⟩ => show (k0_off1 L r) (⟨0, by decide⟩ : Fin 5) + 1 * 0 = wid L / 4; rw [e]; rfl
  | ⟨1, _⟩ => show (k0_off1 L r) (⟨1, by decide⟩ : Fin 5) + 1 * 0 = (wid L % 4) * 24 + k.val; rw [e]; rfl
  | ⟨2, _⟩ => show (k0_off1 L r) (⟨2, by decide⟩ : Fin 5) + 1 * 0 = 0; rw [e]; rfl
  | ⟨3, _⟩ => show (k0_off1 L r) (⟨3, by decide⟩ : Fin 5) + 1 * h.val = h.val; rw [e]; show 0 + 1 * h.val = h.val; omega
  | ⟨4, _⟩ => show (k0_off1 L r) (⟨4, by decide⟩ : Fin 5) + 1 * w.val = w.val; rw [e]; show 0 + 1 * w.val = w.val; omega

theorem srcA_emb (L : grid0.Coords) (k : Fin 24) (r : BitVec 32) (hr : r = BitVec.ofNat 32 k.val) (inb) (h w : Fin 64) :
    (srcA L r inb).view.emb (ix2 h w) = (ix5 (nF L) (pF L k) (1 : Fin 2) h w : S8x96x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix2_111ab]
  have e := k0_off2_eq' L k r hr
  match a with
  | ⟨0, _⟩ => show (k0_off2 L r) (⟨0, by decide⟩ : Fin 5) + 1 * 0 = wid L / 4; rw [e]; rfl
  | ⟨1, _⟩ => show (k0_off2 L r) (⟨1, by decide⟩ : Fin 5) + 1 * 0 = (wid L % 4) * 24 + k.val; rw [e]; rfl
  | ⟨2, _⟩ => show (k0_off2 L r) (⟨2, by decide⟩ : Fin 5) + 1 * 0 = 1; rw [e]; rfl
  | ⟨3, _⟩ => show (k0_off2 L r) (⟨3, by decide⟩ : Fin 5) + 1 * h.val = h.val; rw [e]; show 0 + 1 * h.val = h.val; omega
  | ⟨4, _⟩ => show (k0_off2 L r) (⟨4, by decide⟩ : Fin 5) + 1 * w.val = w.val; rw [e]; show 0 + 1 * w.val = w.val; omega

/-- Element (e, h, w) of result slice `k` is element (n, 2p + e, h, w) of the result. -/
theorem oSl_emb_val (L : grid0.Coords) (k : Fin 24) (e : Fin 2) (h w : Fin 64) :
    (((oSl L k).view.emb (ix3 e h w)) (⟨0, by decide⟩ : Fin 4)).val = wid L / 4
    ∧ (((oSl L k).view.emb (ix3 e h w)) (⟨1, by decide⟩ : Fin 4)).val = 2 * ((wid L % 4) * 24 + k.val) + e.val
    ∧ (((oSl L k).view.emb (ix3 e h w)) (⟨2, by decide⟩ : Fin 4)).val = h.val
    ∧ (((oSl L k).view.emb (ix3 e h w)) (⟨3, by decide⟩ : Fin 4)).val = w.val := by
  simp only [Memref.view_squeeze, Memref.view_slice, Memref.view_whole, View.emb_reshape, View.emb_slice,
    Function.Embedding.trans_apply, Equiv.coe_toEmbedding]
  rw [reshapeEquiv_ix3_1abc]
  have e3 := k0_off3_eq L k
  refine ⟨?_, ?_, ?_, ?_⟩
  · show (k0_off3 L (BitVec.ofNat 32 k.val)) (⟨0, by decide⟩ : Fin 4) + 1 * 0 = wid L / 4; rw [e3]; rfl
  · show (k0_off3 L (BitVec.ofNat 32 k.val)) (⟨1, by decide⟩ : Fin 4) + 1 * e.val = _; rw [e3]
    show 2 * ((wid L % 4) * 24 + k.val) + 1 * e.val = _; omega
  · show (k0_off3 L (BitVec.ofNat 32 k.val)) (⟨2, by decide⟩ : Fin 4) + 1 * h.val = h.val; rw [e3]; show 0 + 1 * h.val = h.val; omega
  · show (k0_off3 L (BitVec.ofNat 32 k.val)) (⟨3, by decide⟩ : Fin 4) + 1 * w.val = w.val; rw [e3]; show 0 + 1 * w.val = w.val; omega

/-- What the outbound copy of chunk `k` carries: the slot read whole, its half 0 the image of `B`, its half 1 the image of `A`. -/
theorem pay_value (L : grid0.Coords) (k : Fin 24) (s : ℕ) (hs : s < 6) (r : BitVec 32) (hr : r = BitVec.ofNat 32 k.val)
    (inb1 : ∀ a, (k0_off1 L r) a + S1x1x1x64x64.size a ≤ S8x96x2x64x64.size a) (inb2 : ∀ a, (k0_off2 L r) a + S1x1x1x64x64.size a ≤ S8x96x2x64x64.size a)
    (A B : S8x96x2x64x64.Idx → α .f32) (nest : (sB : Memref sig .scVector .vmem S6x2x64x64 .f32).view.ty.Contents α)
    (hB : Holds nest s 0 hs (by decide) (ReadAs.same.apply (View.read α (srcB L r inb1).view B)))
    (hA : Holds nest s 1 hs (by decide) (ReadAs.same.apply (View.read α (srcA L r inb2).view A)))
    (e : Fin 2) (h w : Fin 64) :
    (ReadAs.same.apply (View.read α (sM s hs).view nest)) (ix3 e h w)
      = if e.val = 0 then B (ix5 (nF L) (pF L k) (0 : Fin 2) h w) else A (ix5 (nF L) (pF L k) (1 : Fin 2) h w) := by
  have hr0 : (ReadAs.same.apply (View.read α (sM s hs).view nest)) (ix3 e h w) = nest ((sM s hs).view.emb (ix3 e h w)) := rfl
  rw [hr0, Holds.read_slot hB hA e h w]
  have eB : (ReadAs.same.apply (View.read α (srcB L r inb1).view B)) (ix2 h w) = B (ix5 (nF L) (pF L k) (0 : Fin 2) h w) :=
    (show _ = B ((srcB L r inb1).view.emb (ix2 h w)) from rfl).trans (congrArg B (srcB_emb L k r hr inb1 h w))
  have eA : (ReadAs.same.apply (View.read α (srcA L r inb2).view A)) (ix2 h w) = A (ix5 (nF L) (pF L k) (1 : Fin 2) h w) :=
    (show _ = A ((srcA L r inb2).view.emb (ix2 h w)) from rfl).trans (congrArg A (srcA_emb L k r hr inb2 h w))
  rw [eB, eA]

/-- A result slice written whole with a payload whose element (e, h, w) is image-pair member `e` of pair `p` —
    of `B` for `e = 0`, of `A` for `e = 1` — is the first result `G1 A B` on the slice's elements. -/
theorem chunk_value (L : grid0.Coords) (k : Fin 24) (f0 : (oSl L k).view.ty.Contents α)
    (A B : S8x96x2x64x64.Idx → α .f32) (pay : S2x64x64.Idx → α .f32)
    (hpay : ∀ (e : Fin 2) (h w : Fin 64), pay (ix3 e h w) = if e.val = 0 then B (ix5 (nF L) (pF L k) (0 : Fin 2) h w) else A (ix5 (nF L) (pF L k) (1 : Fin 2) h w)) :
    ∀ i ∈ (oSl L k).view.set, ((oSl L k).view.writes α f0 [⟨Rect.whole S2x64x64, pay⟩]) i = G1 A B i := by
  intro i hi
  obtain ⟨y, -, rfl⟩ := Finset.mem_map.mp hi
  obtain ⟨e, h, w, rfl⟩ : ∃ (e : Fin 2) (h w : Fin 64), y = ix3 e h w := ⟨y 0, y 1, y 2, eq_ix3 y⟩
  have hw := View.read_writes_cons_emb (oSl L k).view f0 (Rect.whole S2x64x64) pay [] (ix3 e h w)
  rw [Rect.emb_whole_apply] at hw
  have hL : ((oSl L k).view.writes α f0 [⟨Rect.whole S2x64x64, pay⟩]) ((oSl L k).view.emb (ix3 e h w)) = pay (ix3 e h w) := hw
  rw [hL, hpay e h w, G1_apply]
  obtain ⟨c0, c1, c2, c3⟩ := oSl_emb_val L k e h w
  have hpair0 : pairIdx ((oSl L k).view.emb (ix3 e h w)) 0 = ix5 (nF L) (pF L k) (0 : Fin 2) h w := by
    funext a; apply Fin.ext
    match a with
    | ⟨0, _⟩ => exact c0
    | ⟨1, _⟩ => show (((oSl L k).view.emb (ix3 e h w)) (⟨1, by decide⟩ : Fin 4)).val / 2 = (wid L % 4) * 24 + k.val; rw [c1]; have := e.isLt; omega
    | ⟨2, _⟩ => rfl
    | ⟨3, _⟩ => exact c2
    | ⟨4, _⟩ => exact c3
  have hpair1 : pairIdx ((oSl L k).view.emb (ix3 e h w)) 1 = ix5 (nF L) (pF L k) (1 : Fin 2) h w := by
    funext a; apply Fin.ext
    match a with
    | ⟨0, _⟩ => exact c0
    | ⟨1, _⟩ => show (((oSl L k).view.emb (ix3 e h w)) (⟨1, by decide⟩ : Fin 4)).val / 2 = (wid L % 4) * 24 + k.val; rw [c1]; have := e.isLt; omega
    | ⟨2, _⟩ => rfl
    | ⟨3, _⟩ => exact c2
    | ⟨4, _⟩ => exact c3
  have hpar : ((((oSl L k).view.emb (ix3 e h w)) (1 : Fin 4)).val % 2 = 0) ↔ (e.val = 0) := by
    show ((((oSl L k).view.emb (ix3 e h w)) (⟨1, by decide⟩ : Fin 4)).val % 2 = 0) ↔ _
    rw [c1]; have := e.isLt; omega
  by_cases he : e.val = 0
  · rw [if_pos he, if_pos (hpar.mpr he), hpair0]
  · rw [if_neg he, if_neg (fun hh => he (hpar.mp hh)), hpair1]

end Cert.Proof.KI
end
-- ==== Proof.TileBody.lean ====
/-
  One tile's task, run once at a symbolic grid point.

  The tile holds: a read share of each reshaped input, cut into six tokens (one per inbound DMA semaphore, so
  that six inbound copies can read the array at once); its 24 result slices, each by exactly its own elements;
  its scratch ring whole; its twelve DMA semaphores at zero.  The two inbound copies of a chunk complete on
  ONE semaphore: both are started, both are waited for, and only then is the slot read by the outbound copy —
  a batch of two, whose second wait is the one that knows both have landed.  A slot is refilled only after its
  outbound copy has been waited for.  So no copy's source or destination is touched while the copy is in flight,
  and the run below is a straight sequence of issues and waits.

  What comes back: the tokens, the semaphores at zero, the scratch at whatever it holds, and every result
  slice at the ONE function `G1 A B` of the reshaped inputs — the slot copied out for chunk `k` holds in its
  half 0 the image (n, p, 0) of `B` and in its half 1 the image (n, p, 1) of `A`, found in the ring by walking
  the later writes to other halves back to the two writes of chunk `k` (`SlotValue`).  The tile's waits are all
  on its own semaphores, at the level below everything it owes the launch.
-/
import proofs.«204280_g3796751090005_cont_sun_c4_229_23_alg».proof.Proof.SlotValue
import proofs.«204280_g3796751090005_cont_sun_c4_229_23_alg».proof.Proof.Gen.KernelIdeal.Skeleton

set_option maxHeartbeats 2000000

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Waits recorded at the tile's own level leave the recorded set within "old, or at that level". -/
theorem okW_base (W : Waits sig (HIx 1)) : ∀ p ∈ W, p ∈ W ∨ p.2 = (none : HIx 1) := fun _ hp => .inl hp
theorem okW_ins {W W' : Waits sig (HIx 1)} (sm : SemLoc sig) (h : ∀ p ∈ W', p ∈ W ∨ p.2 = (none : HIx 1)) :
    ∀ p ∈ insert (sm, (default : HIx 1)) W', p ∈ W ∨ p.2 = (none : HIx 1) := by
  intro p hp
  rcases Finset.mem_insert.mp hp with rfl | hp
  · exact .inr rfl
  · exact h p hp

variable [FloatOps F] (d : Dev nD) (L : grid0.Coords)

theorem tile_exec [∀ e, Nonempty (Elt F e)] (qa qb : PosShare TreeShare)
    (A : Buf (Elt F) ((aV).view.loc (thrL d L))) (B : Buf (Elt F) ((bV).view.loc (thrL d L)))
    (f0 : Buf (Elt F) ((oV).view.loc (thrL d L))) (g : Buf (Elt F) ((sB).view.loc (thrL d L)))
    (O : CellTallies nD τ sig (HIx 1)) (W : Waits sig (HIx 1))
    (_p0 : Transfers.BatchOf (thrL d L) (SemLoc.dma (sig := sig) (0 : DmaSem sig)) 2 (windows := true))
    (_p1 : Transfers.BatchOf (thrL d L) (SemLoc.dma (sig := sig) (1 : DmaSem sig)) 2 (windows := true))
    (_p2 : Transfers.BatchOf (thrL d L) (SemLoc.dma (sig := sig) (2 : DmaSem sig)) 2 (windows := true))
    (_p3 : Transfers.BatchOf (thrL d L) (SemLoc.dma (sig := sig) (3 : DmaSem sig)) 2 (windows := true))
    (_p4 : Transfers.BatchOf (thrL d L) (SemLoc.dma (sig := sig) (4 : DmaSem sig)) 2 (windows := true))
    (_p5 : Transfers.BatchOf (thrL d L) (SemLoc.dma (sig := sig) (5 : DmaSem sig)) 2 (windows := true)) :
    (iprop(Transfers.MayWaits (thrL d L) (none : HIx 1) O
        ∗ ((aV).view.loc (thrL d L) ↦{Transfers.shareTokN qa 0} A)
        ∗ ((aV).view.loc (thrL d L) ↦{Transfers.shareTokN qa 1} A)
        ∗ ((aV).view.loc (thrL d L) ↦{Transfers.shareTokN qa 2} A)
        ∗ ((aV).view.loc (thrL d L) ↦{Transfers.shareTokN qa 3} A)
        ∗ ((aV).view.loc (thrL d L) ↦{Transfers.shareTokN qa 4} A)
        ∗ ((aV).view.loc (thrL d L) ↦{Transfers.shareTokN qa 5} A)
        ∗ ((bV).view.loc (thrL d L) ↦{Transfers.shareTokN qb 0} B)
        ∗ ((bV).view.loc (thrL d L) ↦{Transfers.shareTokN qb 1} B)
        ∗ ((bV).view.loc (thrL d L) ↦{Transfers.shareTokN qb 2} B)
        ∗ ((bV).view.loc (thrL d L) ↦{Transfers.shareTokN qb 3} B)
        ∗ ((bV).view.loc (thrL d L) ↦{Transfers.shareTokN qb 4} B)
        ∗ ((bV).view.loc (thrL d L) ↦{Transfers.shareTokN qb 5} B)
        ∗ ((oSl L 0).view.loc (thrL d L) ↦[(oSl L 0).view.set]{fullShare} f0)
        ∗ ((oSl L 1).view.loc (thrL d L) ↦[(oSl L 1).view.set]{fullShare} f0)
        ∗ ((oSl L 2).view.loc (thrL d L) ↦[(oSl L 2).view.set]{fullShare} f0)
        ∗ ((oSl L 3).view.loc (thrL d L) ↦[(oSl L 3).view.set]{fullShare} f0)
        ∗ ((oSl L 4).view.loc (thrL d L) ↦[(oSl L 4).view.set]{fullShare} f0)
        ∗ ((oSl L 5).view.loc (thrL d L) ↦[(oSl L 5).view.set]{fullShare} f0)
        ∗ ((oSl L 6).view.loc (thrL d L) ↦[(oSl L 6).view.set]{fullShare} f0)
        ∗ ((oSl L 7).view.loc (thrL d L) ↦[(oSl L 7).view.set]{fullShare} f0)
        ∗ ((oSl L 8).view.loc (thrL d L) ↦[(oSl L 8).view.set]{fullShare} f0)
        ∗ ((oSl L 9).view.loc (thrL d L) ↦[(oSl L 9).view.set]{fullShare} f0)
        ∗ ((oSl L 10).view.loc (thrL d L) ↦[(oSl L 10).view.set]{fullShare} f0)
        ∗ ((oSl L 11).view.loc (thrL d L) ↦[(oSl L 11).view.set]{fullShare} f0)
        ∗ ((oSl L 12).view.loc (thrL d L) ↦[(oSl L 12).view.set]{fullShare} f0)
        ∗ ((oSl L 13).view.loc (thrL d L) ↦[(oSl L 13).view.set]{fullShare} f0)
        ∗ ((oSl L 14).view.loc (thrL d L) ↦[(oSl L 14).view.set]{fullShare} f0)
        ∗ ((oSl L 15).view.loc (thrL d L) ↦[(oSl L 15).view.set]{fullShare} f0)
        ∗ ((oSl L 16).view.loc (thrL d L) ↦[(oSl L 16).view.set]{fullShare} f0)
        ∗ ((oSl L 17).view.loc (thrL d L) ↦[(oSl L 17).view.set]{fullShare} f0)
        ∗ ((oSl L 18).view.loc (thrL d L) ↦[(oSl L 18).view.set]{fullShare} f0)
        ∗ ((oSl L 19).view.loc (thrL d L) ↦[(oSl L 19).view.set]{fullShare} f0)
        ∗ ((oSl L 20).view.loc (thrL d L) ↦[(oSl L 20).view.set]{fullShare} f0)
        ∗ ((oSl L 21).view.loc (thrL d L) ↦[(oSl L 21).view.set]{fullShare} f0)
        ∗ ((oSl L 22).view.loc (thrL d L) ↦[(oSl L 22).view.set]{fullShare} f0)
        ∗ ((oSl L 23).view.loc (thrL d L) ↦[(oSl L 23).view.set]{fullShare} f0)
        ∗ ((sB).view.loc (thrL d L) ↦{fullShare} g)
        ∗ semVal (cellIn d L 0) 0
        ∗ semVal (cellIn d L 1) 0
        ∗ semVal (cellIn d L 2) 0
        ∗ semVal (cellIn d L 3) 0
        ∗ semVal (cellIn d L 4) 0
        ∗ semVal (cellIn d L 5) 0
        ∗ semVal (cellIn d L 6) 0
        ∗ semVal (cellIn d L 7) 0
        ∗ semVal (cellIn d L 8) 0
        ∗ semVal (cellIn d L 9) 0
        ∗ semVal (cellIn d L 10) 0
        ∗ semVal (cellIn d L 11) 0
        ∗ owes (thrL d L) O W) : sProp 𝕄)
      ⊢ wp frame (wpE (defs₀ (F := F)) 𝒱₀ (thrL d L) none) Set.univ
          (cc0_sc_out1 L aV (Memref.isWhole_whole _) bV (Memref.isWhole_whole _) oV (Memref.isWhole_whole _) sB (Memref.isWhole_whole _) cc0_scratch1 cc0_scratch2)
          fun _ => iprop(
            (∃ g', (sB).view.loc (thrL d L) ↦{fullShare} g')
            ∗ (∃ W', ⌜∀ p ∈ W', p ∈ W ∨ p.2 = (none : HIx 1)⌝ ∗ owes (thrL d L) O W')
            ∗ semVal (cellIn d L 0) 0
            ∗ semVal (cellIn d L 1) 0
            ∗ semVal (cellIn d L 2) 0
            ∗ semVal (cellIn d L 3) 0
            ∗ semVal (cellIn d L 4) 0
            ∗ semVal (cellIn d L 5) 0
            ∗ semVal (cellIn d L 6) 0
            ∗ semVal (cellIn d L 7) 0
            ∗ semVal (cellIn d L 8) 0
            ∗ semVal (cellIn d L 9) 0
            ∗ semVal (cellIn d L 10) 0
            ∗ semVal (cellIn d L 11) 0
            ∗ ((aV).view.loc (thrL d L) ↦{Transfers.shareTokN qa 0} A)
            ∗ ((aV).view.loc (thrL d L) ↦{Transfers.shareTokN qa 1} A)
            ∗ ((aV).view.loc (thrL d L) ↦{Transfers.shareTokN qa 2} A)
            ∗ ((aV).view.loc (thrL d L) ↦{Transfers.shareTokN qa 3} A)
            ∗ ((aV).view.loc (thrL d L) ↦{Transfers.shareTokN qa 4} A)
            ∗ ((aV).view.loc (thrL d L) ↦{Transfers.shareTokN qa 5} A)
            ∗ ((bV).view.loc (thrL d L) ↦{Transfers.shareTokN qb 0} B)
            ∗ ((bV).view.loc (thrL d L) ↦{Transfers.shareTokN qb 1} B)
            ∗ ((bV).view.loc (thrL d L) ↦{Transfers.shareTokN qb 2} B)
            ∗ ((bV).view.loc (thrL d L) ↦{Transfers.shareTokN qb 3} B)
            ∗ ((bV).view.loc (thrL d L) ↦{Transfers.shareTokN qb 4} B)
            ∗ ((bV).view.loc (thrL d L) ↦{Transfers.shareTokN qb 5} B)
            ∗ ((oSl L 0).view.loc (thrL d L) ↦[(oSl L 0).view.set]{fullShare} G1 A B)
            ∗ ((oSl L 1).view.loc (thrL d L) ↦[(oSl L 1).view.set]{fullShare} G1 A B)
            ∗ ((oSl L 2).view.loc (thrL d L) ↦[(oSl L 2).view.set]{fullShare} G1 A B)
            ∗ ((oSl L 3).view.loc (thrL d L) ↦[(oSl L 3).view.set]{fullShare} G1 A B)
            ∗ ((oSl L 4).view.loc (thrL d L) ↦[(oSl L 4).view.set]{fullShare} G1 A B)
            ∗ ((oSl L 5).view.loc (thrL d L) ↦[(oSl L 5).view.set]{fullShare} G1 A B)
            ∗ ((oSl L 6).view.loc (thrL d L) ↦[(oSl L 6).view.set]{fullShare} G1 A B)
            ∗ ((oSl L 7).view.loc (thrL d L) ↦[(oSl L 7).view.set]{fullShare} G1 A B)
            ∗ ((oSl L 8).view.loc (thrL d L) ↦[(oSl L 8).view.set]{fullShare} G1 A B)
            ∗ ((oSl L 9).view.loc (thrL d L) ↦[(oSl L 9).view.set]{fullShare} G1 A B)
            ∗ ((oSl L 10).view.loc (thrL d L) ↦[(oSl L 10).view.set]{fullShare} G1 A B)
            ∗ ((oSl L 11).view.loc (thrL d L) ↦[(oSl L 11).view.set]{fullShare} G1 A B)
            ∗ ((oSl L 12).view.loc (thrL d L) ↦[(oSl L 12).view.set]{fullShare} G1 A B)
            ∗ ((oSl L 13).view.loc (thrL d L) ↦[(oSl L 13).view.set]{fullShare} G1 A B)
            ∗ ((oSl L 14).view.loc (thrL d L) ↦[(oSl L 14).view.set]{fullShare} G1 A B)
            ∗ ((oSl L 15).view.loc (thrL d L) ↦[(oSl L 15).view.set]{fullShare} G1 A B)
            ∗ ((oSl L 16).view.loc (thrL d L) ↦[(oSl L 16).view.set]{fullShare} G1 A B)
            ∗ ((oSl L 17).view.loc (thrL d L) ↦[(oSl L 17).view.set]{fullShare} G1 A B)
            ∗ ((oSl L 18).view.loc (thrL d L) ↦[(oSl L 18).view.set]{fullShare} G1 A B)
            ∗ ((oSl L 19).view.loc (thrL d L) ↦[(oSl L 19).view.set]{fullShare} G1 A B)
            ∗ ((oSl L 20).view.loc (thrL d L) ↦[(oSl L 20).view.set]{fullShare} G1 A B)
            ∗ ((oSl L 21).view.loc (thrL d L) ↦[(oSl L 21).view.set]{fullShare} G1 A B)
            ∗ ((oSl L 22).view.loc (thrL d L) ↦[(oSl L 22).view.set]{fullShare} G1 A B)
            ∗ ((oSl L 23).view.loc (thrL d L) ↦[(oSl L 23).view.set]{fullShare} G1 A B)) := by
  iintro ⟨Hmw, HA0, HA1, HA2, HA3, HA4, HA5, HB0, HB1, HB2, HB3, HB4, HB5, HO0, HO1, HO2, HO3, HO4, HO5, HO6, HO7, HO8, HO9, HO10, HO11, HO12, HO13, HO14, HO15, HO16, HO17, HO18, HO19, HO20, HO21, HO22, HO23, Hs, Hc0, Hc1, Hc2, Hc3, Hc4, Hc5, Hc6, Hc7, Hc8, Hc9, Hc10, Hc11, HO⟩
  sl_unfold [cc0_sc_out1]
  sl_exec
  sl_step
  isplitl [Hs]; · iexists _; iexact Hs
  isplitl [HO]
  · iexists _; isplitr
    on_goal 2 => iexact HO
    ipureintro; repeat (first | exact okW_base W | refine okW_ins _ ?_)
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [HA0]; · iexact HA0
  isplitl [HA1]; · iexact HA1
  isplitl [HA2]; · iexact HA2
  isplitl [HA3]; · iexact HA3
  isplitl [HA4]; · iexact HA4
  isplitl [HA5]; · iexact HA5
  isplitl [HB0]; · iexact HB0
  isplitl [HB1]; · iexact HB1
  isplitl [HB2]; · iexact HB2
  isplitl [HB3]; · iexact HB3
  isplitl [HB4]; · iexact HB4
  isplitl [HB5]; · iexact HB5
  isplitl [HO0]
  · iapply (Entails.of_eq (pointsTo_congr ?hv0))
    all_goals first | iexact HO0 | skip
    refine chunk_value L 0 _ A B _ ?_
    intro e h w
    refine pay_value L 0 0 (by decide) 0#32 rfl (k0_off1_inb L 0) (k0_off2_inb L 0) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO1]
  · iapply (Entails.of_eq (pointsTo_congr ?hv1))
    all_goals first | iexact HO1 | skip
    refine chunk_value L 1 _ A B _ ?_
    intro e h w
    refine pay_value L 1 1 (by decide) 1#32 rfl (k0_off1_inb L 1) (k0_off2_inb L 1) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO2]
  · iapply (Entails.of_eq (pointsTo_congr ?hv2))
    all_goals first | iexact HO2 | skip
    refine chunk_value L 2 _ A B _ ?_
    intro e h w
    refine pay_value L 2 2 (by decide) 2#32 rfl (k0_off1_inb L 2) (k0_off2_inb L 2) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO3]
  · iapply (Entails.of_eq (pointsTo_congr ?hv3))
    all_goals first | iexact HO3 | skip
    refine chunk_value L 3 _ A B _ ?_
    intro e h w
    refine pay_value L 3 3 (by decide) 3#32 rfl (k0_off1_inb L 3) (k0_off2_inb L 3) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO4]
  · iapply (Entails.of_eq (pointsTo_congr ?hv4))
    all_goals first | iexact HO4 | skip
    refine chunk_value L 4 _ A B _ ?_
    intro e h w
    refine pay_value L 4 4 (by decide) 4#32 rfl (k0_off1_inb L 4) (k0_off2_inb L 4) A B _ ?_ ?_ e h w
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      exact Holds.hit _ 4 1 (by decide) (by decide) _
  isplitl [HO5]
  · iapply (Entails.of_eq (pointsTo_congr ?hv5))
    all_goals first | iexact HO5 | skip
    refine chunk_value L 5 _ A B _ ?_
    intro e h w
    refine pay_value L 5 5 (by decide) 5#32 rfl (k0_off1_inb L 5) (k0_off2_inb L 5) A B _ ?_ ?_ e h w
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      exact Holds.hit _ 5 0 (by decide) (by decide) _
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      exact Holds.hit _ 5 1 (by decide) (by decide) _
  isplitl [HO6]
  · iapply (Entails.of_eq (pointsTo_congr ?hv6))
    all_goals first | iexact HO6 | skip
    refine chunk_value L 6 _ A B _ ?_
    intro e h w
    refine pay_value L 6 0 (by decide) 6#32 rfl (k0_off1_inb L 6) (k0_off2_inb L 6) A B _ ?_ ?_ e h w
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO7]
  · iapply (Entails.of_eq (pointsTo_congr ?hv7))
    all_goals first | iexact HO7 | skip
    refine chunk_value L 7 _ A B _ ?_
    intro e h w
    refine pay_value L 7 1 (by decide) 7#32 rfl (k0_off1_inb L 7) (k0_off2_inb L 7) A B _ ?_ ?_ e h w
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO8]
  · iapply (Entails.of_eq (pointsTo_congr ?hv8))
    all_goals first | iexact HO8 | skip
    refine chunk_value L 8 _ A B _ ?_
    intro e h w
    refine pay_value L 8 2 (by decide) 8#32 rfl (k0_off1_inb L 8) (k0_off2_inb L 8) A B _ ?_ ?_ e h w
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO9]
  · iapply (Entails.of_eq (pointsTo_congr ?hv9))
    all_goals first | iexact HO9 | skip
    refine chunk_value L 9 _ A B _ ?_
    intro e h w
    refine pay_value L 9 3 (by decide) 9#32 rfl (k0_off1_inb L 9) (k0_off2_inb L 9) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO10]
  · iapply (Entails.of_eq (pointsTo_congr ?hv10))
    all_goals first | iexact HO10 | skip
    refine chunk_value L 10 _ A B _ ?_
    intro e h w
    refine pay_value L 10 4 (by decide) 10#32 rfl (k0_off1_inb L 10) (k0_off2_inb L 10) A B _ ?_ ?_ e h w
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      exact Holds.hit _ 4 1 (by decide) (by decide) _
  isplitl [HO11]
  · iapply (Entails.of_eq (pointsTo_congr ?hv11))
    all_goals first | iexact HO11 | skip
    refine chunk_value L 11 _ A B _ ?_
    intro e h w
    refine pay_value L 11 5 (by decide) 11#32 rfl (k0_off1_inb L 11) (k0_off2_inb L 11) A B _ ?_ ?_ e h w
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      exact Holds.hit _ 5 0 (by decide) (by decide) _
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      exact Holds.hit _ 5 1 (by decide) (by decide) _
  isplitl [HO12]
  · iapply (Entails.of_eq (pointsTo_congr ?hv12))
    all_goals first | iexact HO12 | skip
    refine chunk_value L 12 _ A B _ ?_
    intro e h w
    refine pay_value L 12 0 (by decide) 12#32 rfl (k0_off1_inb L 12) (k0_off2_inb L 12) A B _ ?_ ?_ e h w
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO13]
  · iapply (Entails.of_eq (pointsTo_congr ?hv13))
    all_goals first | iexact HO13 | skip
    refine chunk_value L 13 _ A B _ ?_
    intro e h w
    refine pay_value L 13 1 (by decide) 13#32 rfl (k0_off1_inb L 13) (k0_off2_inb L 13) A B _ ?_ ?_ e h w
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO14]
  · iapply (Entails.of_eq (pointsTo_congr ?hv14))
    all_goals first | iexact HO14 | skip
    refine chunk_value L 14 _ A B _ ?_
    intro e h w
    refine pay_value L 14 2 (by decide) 14#32 rfl (k0_off1_inb L 14) (k0_off2_inb L 14) A B _ ?_ ?_ e h w
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO15]
  · iapply (Entails.of_eq (pointsTo_congr ?hv15))
    all_goals first | iexact HO15 | skip
    refine chunk_value L 15 _ A B _ ?_
    intro e h w
    refine pay_value L 15 3 (by decide) 15#32 rfl (k0_off1_inb L 15) (k0_off2_inb L 15) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO16]
  · iapply (Entails.of_eq (pointsTo_congr ?hv16))
    all_goals first | iexact HO16 | skip
    refine chunk_value L 16 _ A B _ ?_
    intro e h w
    refine pay_value L 16 4 (by decide) 16#32 rfl (k0_off1_inb L 16) (k0_off2_inb L 16) A B _ ?_ ?_ e h w
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      exact Holds.hit _ 4 1 (by decide) (by decide) _
  isplitl [HO17]
  · iapply (Entails.of_eq (pointsTo_congr ?hv17))
    all_goals first | iexact HO17 | skip
    refine chunk_value L 17 _ A B _ ?_
    intro e h w
    refine pay_value L 17 5 (by decide) 17#32 rfl (k0_off1_inb L 17) (k0_off2_inb L 17) A B _ ?_ ?_ e h w
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      exact Holds.hit _ 5 0 (by decide) (by decide) _
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      exact Holds.hit _ 5 1 (by decide) (by decide) _
  isplitl [HO18]
  · iapply (Entails.of_eq (pointsTo_congr ?hv18))
    all_goals first | iexact HO18 | skip
    refine chunk_value L 18 _ A B _ ?_
    intro e h w
    refine pay_value L 18 0 (by decide) 18#32 rfl (k0_off1_inb L 18) (k0_off2_inb L 18) A B _ ?_ ?_ e h w
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO19]
  · iapply (Entails.of_eq (pointsTo_congr ?hv19))
    all_goals first | iexact HO19 | skip
    refine chunk_value L 19 _ A B _ ?_
    intro e h w
    refine pay_value L 19 1 (by decide) 19#32 rfl (k0_off1_inb L 19) (k0_off2_inb L 19) A B _ ?_ ?_ e h w
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO20]
  · iapply (Entails.of_eq (pointsTo_congr ?hv20))
    all_goals first | iexact HO20 | skip
    refine chunk_value L 20 _ A B _ ?_
    intro e h w
    refine pay_value L 20 2 (by decide) 20#32 rfl (k0_off1_inb L 20) (k0_off2_inb L 20) A B _ ?_ ?_ e h w
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO21]
  · iapply (Entails.of_eq (pointsTo_congr ?hv21))
    all_goals first | iexact HO21 | skip
    refine chunk_value L 21 _ A B _ ?_
    intro e h w
    refine pay_value L 21 3 (by decide) 21#32 rfl (k0_off1_inb L 21) (k0_off2_inb L 21) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO22]
  · iapply (Entails.of_eq (pointsTo_congr ?hv22))
    all_goals first | iexact HO22 | skip
    refine chunk_value L 22 _ A B _ ?_
    intro e h w
    refine pay_value L 22 4 (by decide) 22#32 rfl (k0_off1_inb L 22) (k0_off2_inb L 22) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 5) (e' := 1) ?_ (by decide) (by decide) (by decide) _
      refine Holds.miss (s' := 5) (e' := 0) ?_ (by decide) (by decide) (by decide) _
      exact Holds.hit _ 4 1 (by decide) (by decide) _
  iapply (Entails.of_eq (pointsTo_congr ?hv23))
  all_goals first | iexact HO23 | skip
  refine chunk_value L 23 _ A B _ ?_
  intro e h w
  refine pay_value L 23 5 (by decide) 23#32 rfl (k0_off1_inb L 23) (k0_off2_inb L 23) A B _ ?_ ?_ e h w
  ·
    refine Holds.miss (s' := 5) (e' := 1) ?_ (by decide) (by decide) (by decide) _
    exact Holds.hit _ 5 0 (by decide) (by decide) _
  ·
    exact Holds.hit _ 5 1 (by decide) (by decide) _

end Cert.Proof.KI

end
-- ==== Proof.Chains.lean ====
/-
  A separating conjunction over a small finite index type, written out member by member.
-/
import Idealize.ShloMosaic.Lib.Pipeline.Kit

namespace Cert.Proof.Chains

open Idealize.SL Idealize.SL.RA Idealize.SL.BI
open scoped Idealize.SL.BI
open Idealize.SL.BI.BIBase Idealize.SL.BI.Laws Idealize.SL.ProofMode

variable {M : Type} [URA M]

theorem bigSep_fin6 (Φ : Fin 6 → sProp M) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem bigSep_fin12 (Φ : Fin 12 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

theorem bigSep_fin24 (Φ : Fin 24 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [(0 : Fin 24), 1, 2, 3, 4, 5, 6, 7, 8, 9, 10, 11, 12, 13, 14, 15, 16, 17, 18, 19, 20, 21, 22, 23] (by decide) (by decide) Φ

end Cert.Proof.Chains
-- ==== Proof.TileObl.lean ====
/-
  The tile's task as the launch theorem asks for it.

  The launch hands a tile its handshake payload (a read share of each reshaped input and its 24 result slices),
  its scoped buffers (among them the scratch ring) and its scoped semaphores at zero (among them the twelve DMA
  semaphores the kernel uses).  This module takes out what the kernel's run holds — the share cut into six
  tokens with a remainder kept aside, the slices one by one, the scratch, the twelve semaphores —, runs the
  task (`tile_exec`), and puts everything back: the tokens rejoin the share, the slices come back at the result
  function, the scratch and the semaphores rejoin what was left of the tile's scoped storage.
-/
import proofs.«204280_g3796751090005_cont_sun_c4_229_23_alg».proof.Proof.TileBody
import proofs.«204280_g3796751090005_cont_sun_c4_229_23_alg».proof.Proof.Pay
import proofs.«204280_g3796751090005_cont_sun_c4_229_23_alg».proof.Proof.Chains

set_option maxHeartbeats 1000000

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chains

variable {F : FTy → Type}

local notation "𝕄" => MT nD τ sig (HIx 1) (Elt F) ℕ UU ℕ

/-! ## The kernel's twelve semaphores among the tile's scoped ones -/

def cells12 (d : Dev nD) (L : grid0.Coords) : Finset (GSem nD τ sig) :=
  Finset.univ.image fun j : Fin 12 => cellIn d L (j.castLE (by decide))

theorem cells12_inj (d : Dev nD) (L : grid0.Coords) :
    Set.InjOn (fun j : Fin 12 => cellIn d L (j.castLE (by decide))) ((Finset.univ : Finset (Fin 12)) : Set (Fin 12)) := by
  intro a _ b _ e
  have h2 : (SemLoc.dma ((a.castLE (by decide) : Fin 18) : DmaSem sig) : SemLoc sig) = SemLoc.dma ((b.castLE (by decide) : Fin 18) : DmaSem sig) := (Prod.mk.inj e).2
  have h3 : (a.castLE (by decide) : Fin 18) = b.castLE (by decide) := SemLoc.dma.inj h2
  exact Fin.ext (by have := congrArg Fin.val h3; simpa using this)

theorem cells12_sub (d : Dev nD) (L : grid0.Coords) : cells12 d L ⊆ ownCells (thrL d L) := by
  intro g hg
  obtain ⟨j, -, rfl⟩ := Finset.mem_image.mp hg
  exact mem_ownCells.mpr ⟨rfl, rfl⟩

theorem ownSems0_tile (d : Dev nD) (L : grid0.Coords) :
    (ownSems0 (thrL d L) : sProp 𝕄)
      = iprop((semVal (cellIn d L 0) 0 ∗ semVal (cellIn d L 1) 0 ∗ semVal (cellIn d L 2) 0 ∗ semVal (cellIn d L 3) 0 ∗ semVal (cellIn d L 4) 0 ∗ semVal (cellIn d L 5) 0 ∗ semVal (cellIn d L 6) 0 ∗ semVal (cellIn d L 7) 0 ∗ semVal (cellIn d L 8) 0 ∗ semVal (cellIn d L 9) 0 ∗ semVal (cellIn d L 10) 0 ∗ semVal (cellIn d L 11) 0)
          ∗ bigSep (ownCells (thrL d L) \ cells12 d L) fun g => semVal g 0) := by
  unfold SparseCore.Cfg.ownSems0
  rw [SparseCore.bigSep_sdiff_split' (cells12_sub d L)]
  have h12 : (bigSep (cells12 d L) fun g => (semVal g 0 : sProp 𝕄))
      = iprop(semVal (cellIn d L 0) 0 ∗ semVal (cellIn d L 1) 0 ∗ semVal (cellIn d L 2) 0 ∗ semVal (cellIn d L 3) 0 ∗ semVal (cellIn d L 4) 0 ∗ semVal (cellIn d L 5) 0 ∗ semVal (cellIn d L 6) 0 ∗ semVal (cellIn d L 7) 0 ∗ semVal (cellIn d L 8) 0 ∗ semVal (cellIn d L 9) 0 ∗ semVal (cellIn d L 10) 0 ∗ semVal (cellIn d L 11) 0) := by
    unfold cells12
    rw [SparseCore.bigSep_image_of_injOn (cells12_inj d L)]
    exact bigSep_fin12 (fun j : Fin 12 => (semVal (cellIn d L (j.castLE (by decide))) 0 : sProp 𝕄))
  rw [h12]

/-- The scratch ring is one of the tile's own buffers. -/
theorem ownBufs_tile (d : Dev nD) (L : grid0.Coords) :
    (ownBufs (thrL d L) : sProp 𝕄)
      = iprop((∃ f, (thrL d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The task -/

variable [FloatOps F] (A B : (d : Dev nD) → Buf (Elt F) (aLoc d)) (f0 : (d : Dev nD) → Buf (Elt F) (o1Loc d))

theorem tile_body [∀ e, Nonempty (Elt F e)] (hF : (K (F := F)).Facts) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP A B f0 d c i
        ∗ scopedBufs (thrL d (coordsV c i)) ∗ scopedSems0 (thrL d (coordsV c i)) ∗ owes (thrL d (coordsV c i)) O W)
      ⊢ wp frame (wpE (defs₀ (F := F)) 𝒱₀ (thrL d (coordsV c i)) none) Set.univ
          (cc0_sc_out1 (coordsV c i) aV (Memref.isWhole_whole _) bV (Memref.isWhole_whole _) oV (Memref.isWhole_whole _) sB (Memref.isWhole_whole _) cc0_scratch1 cc0_scratch2)
          fun _ => iprop(tdP A B d c i ∗ scopedBufs (thrL d (coordsV c i)) ∗ scopedSems0 (thrL d (coordsV c i))
            ∗ ∃ W', ⌜∀ p ∈ W', p ∈ W ∨ p.2 = (none : HIx 1)⌝ ∗ owes (thrL d (coordsV c i)) O W') := by
  rw [(K (F := F)).scopedBufs_V hF d (cV (coordsV c i)) (jV (coordsV c i)),
    SparseCore.Cfg.scopedSems0_V (Val := Elt F) d (cV (coordsV c i)) (jV (coordsV c i)), ownSems0_tile, ownBufs_tile]
  iintro ⟨#Hlv, -, ⟨Ha, Hb, Hsl⟩, ⟨⟨%g, Hs⟩, Hbufs⟩, ⟨⟨Hc0, Hc1, Hc2, Hc3, Hc4, Hc5, Hc6, Hc7, Hc8, Hc9, Hc10, Hc11⟩, Hsems⟩, HO⟩
  ihave Hmw := ((K (F := F)).mayWaits_none (thr := thrL d (coordsV c i)) hO) $$ Hlv
  -- each input's share: six tokens, one per inbound semaphore, and a remainder
  ihave Ha2 := (Transfers.pointsTo_toks_split (Ix := HIx 1) (Name := ℕ) (U := UU) (Lvl := ℕ) (qT c i) 6) $$ Ha
  icases Ha2 with ⟨Har, Hat⟩
  ihave Hat2 := (Entails.of_eq (bigSep_fin6 _)) $$ Hat
  icases Hat2 with ⟨HA0, HA1, HA2, HA3, HA4, HA5⟩
  ihave Hb2 := (Transfers.pointsTo_toks_split (Ix := HIx 1) (Name := ℕ) (U := UU) (Lvl := ℕ) (qT c i) 6) $$ Hb
  icases Hb2 with ⟨Hbr, Hbt⟩
  ihave Hbt2 := (Entails.of_eq (bigSep_fin6 _)) $$ Hbt
  icases Hbt2 with ⟨HB0, HB1, HB2, HB3, HB4, HB5⟩
  -- the result slices, one by one
  ihave Hsl2 := (Entails.of_eq (bigSep_fin24 _)) $$ Hsl
  icases Hsl2 with ⟨HO0, HO1, HO2, HO3, HO4, HO5, HO6, HO7, HO8, HO9, HO10, HO11, HO12, HO13, HO14, HO15, HO16, HO17, HO18, HO19, HO20, HO21, HO22, HO23⟩
  iapply (wp_wand_r frame _ _)
  isplitl [Hmw HA0 HA1 HA2 HA3 HA4 HA5 HB0 HB1 HB2 HB3 HB4 HB5 HO0 HO1 HO2 HO3 HO4 HO5 HO6 HO7 HO8 HO9 HO10 HO11 HO12 HO13 HO14 HO15 HO16 HO17 HO18 HO19 HO20 HO21 HO22 HO23 Hs Hc0 Hc1 Hc2 Hc3 Hc4 Hc5 Hc6 Hc7 Hc8 Hc9 Hc10 Hc11 HO]
  · iapply (tile_exec d (coordsV c i) (qT c i) (qT c i) (A d) (B d) (f0 d) g O W trivial trivial trivial trivial trivial trivial)
    isplitl [Hmw]; · iexact Hmw
    isplitl [HA0]; · iexact HA0
    isplitl [HA1]; · iexact HA1
    isplitl [HA2]; · iexact HA2
    isplitl [HA3]; · iexact HA3
    isplitl [HA4]; · iexact HA4
    isplitl [HA5]; · iexact HA5
    isplitl [HB0]; · iexact HB0
    isplitl [HB1]; · iexact HB1
    isplitl [HB2]; · iexact HB2
    isplitl [HB3]; · iexact HB3
    isplitl [HB4]; · iexact HB4
    isplitl [HB5]; · iexact HB5
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HO14]; · iexact HO14
    isplitl [HO15]; · iexact HO15
    isplitl [HO16]; · iexact HO16
    isplitl [HO17]; · iexact HO17
    isplitl [HO18]; · iexact HO18
    isplitl [HO19]; · iexact HO19
    isplitl [HO20]; · iexact HO20
    isplitl [HO21]; · iexact HO21
    isplitl [HO22]; · iexact HO22
    isplitl [HO23]; · iexact HO23
    isplitl [Hs]; · iexact Hs
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexact HO
  iintro %_ Hpost
  icases Hpost with ⟨⟨%g', Hs⟩, ⟨%W', %hW', HO⟩, Hc0, Hc1, Hc2, Hc3, Hc4, Hc5, Hc6, Hc7, Hc8, Hc9, Hc10, Hc11, HA0, HA1, HA2, HA3, HA4, HA5, HB0, HB1, HB2, HB3, HB4, HB5, HV0, HV1, HV2, HV3, HV4, HV5, HV6, HV7, HV8, HV9, HV10, HV11, HV12, HV13, HV14, HV15, HV16, HV17, HV18, HV19, HV20, HV21, HV22, HV23⟩
  -- the handshake payload back
  isplitl [Har HA0 HA1 HA2 HA3 HA4 HA5 Hbr HB0 HB1 HB2 HB3 HB4 HB5 HV0 HV1 HV2 HV3 HV4 HV5 HV6 HV7 HV8 HV9 HV10 HV11 HV12 HV13 HV14 HV15 HV16 HV17 HV18 HV19 HV20 HV21 HV22 HV23]
  · isplitl [Har HA0 HA1 HA2 HA3 HA4 HA5]
    · iapply (Transfers.pointsTo_toks_join (Ix := HIx 1) (Name := ℕ) (U := UU) (Lvl := ℕ) (qT c i) 6)
      isplitl [Har]; · iexact Har
      iapply (Entails.of_eq (bigSep_fin6 _).symm)
      isplitl [HA0]; · iexact HA0
      isplitl [HA1]; · iexact HA1
      isplitl [HA2]; · iexact HA2
      isplitl [HA3]; · iexact HA3
      isplitl [HA4]; · iexact HA4
      iexact HA5
    isplitl [Hbr HB0 HB1 HB2 HB3 HB4 HB5]
    · iapply (Transfers.pointsTo_toks_join (Ix := HIx 1) (Name := ℕ) (U := UU) (Lvl := ℕ) (qT c i) 6)
      isplitl [Hbr]; · iexact Hbr
      iapply (Entails.of_eq (bigSep_fin6 _).symm)
      isplitl [HB0]; · iexact HB0
      isplitl [HB1]; · iexact HB1
      isplitl [HB2]; · iexact HB2
      isplitl [HB3]; · iexact HB3
      isplitl [HB4]; · iexact HB4
      iexact HB5
    iapply (Entails.of_eq (bigSep_fin24 _).symm)
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    isplitl [HV7]; · iexact HV7
    isplitl [HV8]; · iexact HV8
    isplitl [HV9]; · iexact HV9
    isplitl [HV10]; · iexact HV10
    isplitl [HV11]; · iexact HV11
    isplitl [HV12]; · iexact HV12
    isplitl [HV13]; · iexact HV13
    isplitl [HV14]; · iexact HV14
    isplitl [HV15]; · iexact HV15
    isplitl [HV16]; · iexact HV16
    isplitl [HV17]; · iexact HV17
    isplitl [HV18]; · iexact HV18
    isplitl [HV19]; · iexact HV19
    isplitl [HV20]; · iexact HV20
    isplitl [HV21]; · iexact HV21
    isplitl [HV22]; · iexact HV22
    iexact HV23
  -- the scoped storage back
  isplitl [Hs Hbufs]
  · isplitl [Hs]; · iexists _; iexact Hs
    iexact Hbufs
  isplitl [Hc0 Hc1 Hc2 Hc3 Hc4 Hc5 Hc6 Hc7 Hc8 Hc9 Hc10 Hc11 Hsems]
  · isplitl [Hc0 Hc1 Hc2 Hc3 Hc4 Hc5 Hc6 Hc7 Hc8 Hc9 Hc10 Hc11]
    ·
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      iexact Hc11
    iexact Hsems
  iexists W'; isplitr
  · ipureintro; exact hW'
  · iexact HO

/-! ## The launch theorem's obligation -/

theorem defs₀_vector (c : Fin τ.nSC) (s : Fin τ.nSub) :
    defs₀ (F := F) (.scVector c s) 0 ()
      = SparseCore.onTile hcore0 hsub0 (fun c s => cc0_sc_out1 (coordsV c s)
          aV (Memref.isWhole_whole _) bV (Memref.isWhole_whole _) oV (Memref.isWhole_whole _) sB (Memref.isWhole_whole _) cc0_scratch1 cc0_scratch2) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- The tile obligation of the one call. -/
theorem tileObl [∀ e, Nonempty (Elt F e)] : (K (F := F)).TileObl (D (F := F)) 𝒱 (P A B f0) v₀ 0 := by
  intro d c i O W hO _ _
  simp only [show (P A B f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body A B f0 facts d (Fin.cast nCore_zero c) (Fin.cast nSub_zero i) O W hO).trans (wp_mono frame _ _ fun _ => obl_post)

end Cert.Proof.KI

end
-- ==== Proof.SlotValueB.lean ====
/-
  What the copying kernel's ring buffer holds, and where each copied element comes from.

  The scratch [6, 2, 64, 64] is a ring of six slots of two images each.  For chunk `k` (slot `k mod 6`) the
  kernel copies image (n, p, 0) of the second reshaped input into half 0 of the slot and image (n, p, 1) of the
  first into half 1 — `p = p0 + k` the tile's `k`-th channel pair —, then copies the slot to the two channels
  `2p`, `2p + 1` of sample `n` of the result.  Every view involved is a unit-stride block with its leading
  unit axes dropped, so element `y` of the view sits at `offset + (0, …, 0, y)` of the array; the lemmas
  `*_emb` say so coordinate by coordinate.  `Holds g s e p` says that half `e` of slot `s` of contents `g`
  is the image `p`: a write to that half establishes it (`Holds.hit`), a write to any other half keeps it
  (`Holds.miss`).  `chunk_value` puts the pieces together: a result slice written with a slot whose two halves
  are those two images is the result function `G1` on the slice's elements, because channel `2p + e` is even
  exactly when `e = 0` and its pair is `p`.
-/
import proofs.«204280_g3796751090005_cont_sun_c4_229_23_alg».proof.Proof.TilesB
import proofs.«204280_g3796751090005_cont_sun_c4_229_23_alg».proof.Proof.ValuesB
import proofs.«204280_g3796751090005_cont_sun_c4_229_23_alg».proof.Proof.OffsetsB
import Idealize.ShloMosaic.Lib.ValueLayout
import Idealize.ShloMosaic.Lib.Writes

noncomputable section
namespace Cert.Proof.KB
open Cert.Kernel Cert.Kernel.Gen
open Idealize.ShloMosaic Idealize.ShloMosaic.ValueIdx

/-- An index (x, y) matched with shape [1, 1, 1, a, b] is (0, 0, 0, x, y). -/
theorem reshapeEquiv_ix2_111ab {a b : ℕ} (h : (⟨2, ![a, b]⟩ : Shape).numel = (⟨5, ![1, 1, 1, a, b]⟩ : Shape).numel)
    (x : Fin a) (y : Fin b) :
    Shape.reshapeEquiv h (ix2 x y) = ix5 (⟨0, Nat.one_pos⟩ : Fin 1) (⟨0, Nat.one_pos⟩ : Fin 1) (⟨0, Nat.one_pos⟩ : Fin 1) x y :=
  Shape.reshapeEquiv_eq_of_rowMajor h (by
    rw [Shape.rowMajor_val_five, Shape.rowMajor_val_two]
    show ((((0 * 1 + 0) * 1 + 0) * a + x.val) * b + y.val) = x.val * b + y.val
    simp only [Nat.zero_mul, Nat.zero_add, Nat.mul_one, Nat.add_zero])

/-! ## The ring's views -/

theorem inb_half (s e : ℕ) (hs : s < 6) (he : e < 2) : ∀ a, (![s, e, 0, 0] : Fin 4 → Nat) a + S1x1x64x64.size a ≤ S6x2x64x64.size a := by
  intro a
  match a with
  | ⟨0, _⟩ => show s + 1 ≤ 6; omega
  | ⟨1, _⟩ => show e + 1 ≤ 2; omega
  | ⟨2, _⟩ => show 0 + 64 ≤ 64; omega
  | ⟨3, _⟩ => show 0 + 64 ≤ 64; omega

theorem inb_slot (s : ℕ) (hs : s < 6) : ∀ a, (![s, 0, 0, 0] : Fin 4 → Nat) a + S1x2x64x64.size a ≤ S6x2x64x64.size a := by
  intro a
  match a with
  | ⟨0, _⟩ => show s + 1 ≤ 6; omega
  | ⟨1, _⟩ => show 0 + 2 ≤ 2; omega
  | ⟨2, _⟩ => show 0 + 64 ≤ 64; omega
  | ⟨3, _⟩ => show 0 + 64 ≤ 64; omega

/-- Half `e` of ring slot `s`: one [64, 64] image. -/
abbrev hM (s e : ℕ) (hs : s < 6) (he : e < 2) : Memref sig .scVector .vmem S64x64 .f32 :=
  ((sB : Memref sig .scVector .vmem S6x2x64x64 .f32).slice (Rect.unit (s := S6x2x64x64) ![s, e, 0, 0] S1x1x64x64.size (inb_half s e hs he)) (fun _ => rfl)).squeeze S64x64 squeezes_S1x1x64x64_S64x64
/-- Ring slot `s`: two images. -/
abbrev sM (s : ℕ) (hs : s < 6) : Memref sig .scVector .vmem S2x64x64 .f32 :=
  ((sB : Memref sig .scVector .vmem S6x2x64x64 .f32).slice (Rect.unit (s := S6x2x64x64) ![s, 0, 0, 0] S1x2x64x64.size (inb_slot s hs)) (fun _ => rfl)).squeeze S2x64x64 squeezes_S1x2x64x64_S2x64x64

/-- Element (h, w) of half `e` of slot `s` is element (s, e, h, w) of the scratch. -/
theorem hM_emb (s e : ℕ) (hs : s < 6) (he : e < 2) (h : Fin 64) (w : Fin 64) :
    (hM s e hs he).view.emb (ix2 h w) = (ix4 (⟨s, hs⟩ : Fin 6) (⟨e, he⟩ : Fin 2) h w : S6x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix2_11ab]
  match a with
  | ⟨0, _⟩ => show s + 1 * 0 = s; omega
  | ⟨1, _⟩ => show e + 1 * 0 = e; omega
  | ⟨2, _⟩ => show 0 + 1 * h.val = h.val; omega
  | ⟨3, _⟩ => show 0 + 1 * w.val = w.val; omega

/-- Element (e, h, w) of slot `s` is element (s, e, h, w) of the scratch. -/
theorem sM_emb (s : ℕ) (hs : s < 6) (e : Fin 2) (h : Fin 64) (w : Fin 64) :
    (sM s hs).view.emb (ix3 e h w) = (ix4 (⟨s, hs⟩ : Fin 6) e h w : S6x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix3_1abc]
  match a with
  | ⟨0, _⟩ => show s + 1 * 0 = s; omega
  | ⟨1, _⟩ => show 0 + 1 * e.val = e.val; omega
  | ⟨2, _⟩ => show 0 + 1 * h.val = h.val; omega
  | ⟨3, _⟩ => show 0 + 1 * w.val = w.val; omega

/-- So element (e, h, w) of the slot is element (h, w) of its half `e`. -/
theorem sM_emb_half (s e : ℕ) (hs : s < 6) (he : e < 2) (h : Fin 64) (w : Fin 64) :
    (sM s hs).view.emb (ix3 (⟨e, he⟩ : Fin 2) h w) = (hM s e hs he).view.emb (ix2 h w) :=
  (sM_emb s hs ⟨e, he⟩ h w).trans (hM_emb s e hs he h w).symm

/-! ## What a half of a slot holds -/

variable {α : EltTy → Type}

/-- Half `e` of slot `s` of the scratch contents `g` is the image `p`. -/
def Holds (g : (sB : Memref sig .scVector .vmem S6x2x64x64 .f32).view.ty.Contents α) (s e : ℕ) (hs : s < 6) (he : e < 2) (p : S64x64.Idx → α .f32) : Prop :=
  ∀ (h w : Fin 64), g ((hM s e hs he).view.emb (ix2 h w)) = p (ix2 h w)

/-- A write of the image `p` to half `e` of slot `s` leaves it there. -/
theorem Holds.hit (g : (sB : Memref sig .scVector .vmem S6x2x64x64 .f32).view.ty.Contents α) (s e : ℕ) (hs : s < 6) (he : e < 2) (p : S64x64.Idx → α .f32) :
    Holds (View.write α (hM s e hs he).view g p Finset.univ) s e hs he p := by
  intro h w
  rw [View.write_emb_of_mem _ _ (Finset.mem_univ _)]; rfl

/-- Two different halves of the ring share no element. -/
theorem half_emb_ne {s s' e e' : ℕ} {hs : s < 6} {hs' : s' < 6} {he : e < 2} {he' : e' < 2} (hne : s ≠ s' ∨ e ≠ e') (h w h' w' : Fin 64) :
    (hM s e hs he).view.emb (ix2 h w) ≠ (hM s' e' hs' he').view.emb (ix2 h' w') := by
  rw [hM_emb, hM_emb]
  intro hh
  have h0 : s = s' := congrArg Fin.val (congrFun hh (⟨0, by decide⟩ : Fin 4))
  have h1 : e = e' := congrArg Fin.val (congrFun hh (⟨1, by decide⟩ : Fin 4))
  rcases hne with hn | hn
  · exact hn h0
  · exact hn h1

/-- A write to another half keeps what this half holds. -/
theorem Holds.miss {g : (sB : Memref sig .scVector .vmem S6x2x64x64 .f32).view.ty.Contents α} {s s' e e' : ℕ} {hs : s < 6} {he : e < 2} {p : S64x64.Idx → α .f32}
    (hyp : Holds g s e hs he p) (hs' : s' < 6) (he' : e' < 2) (hne : s ≠ s' ∨ e ≠ e') (p' : S64x64.Idx → α .f32) :
    Holds (View.write α (hM s' e' hs' he').view g p' Finset.univ) s e hs he p := by
  intro h w
  rw [View.write_of_not_mem]
  · exact hyp h w
  · rw [View.setOn_univ]
    intro hm
    obtain ⟨x', -, hx'⟩ := Finset.mem_map.mp hm
    obtain ⟨h', w', rfl⟩ : ∃ (h' w' : Fin 64), x' = ix2 h' w' := ⟨x' 0, x' 1, eq_ix2 x'⟩
    exact half_emb_ne hne h w h' w' hx'.symm

/-- Reading slot `s` whole: element (e, h, w) is what half `e` holds at (h, w). -/
theorem Holds.read_slot {g : (sB : Memref sig .scVector .vmem S6x2x64x64 .f32).view.ty.Contents α} {s : ℕ} {hs : s < 6} {p0 p1 : S64x64.Idx → α .f32}
    (h0 : Holds g s 0 hs (by decide) p0) (h1 : Holds g s 1 hs (by decide) p1) (e : Fin 2) (h w : Fin 64) :
    g ((sM s hs).view.emb (ix3 e h w)) = if e.val = 0 then p0 (ix2 h w) else p1 (ix2 h w) := by
  match e with
  | ⟨0, he⟩ =>
    rw [if_pos rfl]
    exact (congrArg g (sM_emb_half s 0 hs he h w)).trans (h0 h w)
  | ⟨1, he⟩ =>
    rw [if_neg (fun hh => Nat.one_ne_zero hh)]
    exact (congrArg g (sM_emb_half s 1 hs he h w)).trans (h1 h w)

/-! ## The sources and the destination of chunk `k` -/

/-- The tile's sample and its `k`-th channel pair. -/
def nF (L : grid0.Coords) : Fin 8 := ⟨wid L / 4, by have := wid_lt L; omega⟩
def pF (L : grid0.Coords) (k : Fin 24) : Fin 96 := ⟨(wid L % 4) * 24 + k.val, by have := k.isLt; omega⟩

/-- Image (n, p, 0) of the second reshaped input, as the kernel slices it. -/
abbrev srcB (L : grid0.Coords) (r : BitVec 32) (inb : ∀ a, (k0_off1 L r) a + S1x1x1x64x64.size a ≤ S8x96x2x64x64.size a) : Memref sig .scVector .hbm S64x64 .f32 :=
  ((bV : Memref sig .scVector .hbm S8x96x2x64x64 .f32).slice (Rect.unit (s := S8x96x2x64x64) (k0_off1 L r) S1x1x1x64x64.size inb) (fun _ => rfl)).squeeze S64x64 squeezes_S1x1x1x64x64_S64x64
/-- Image (n, p, 1) of the first reshaped input. -/
abbrev srcA (L : grid0.Coords) (r : BitVec 32) (inb : ∀ a, (k0_off2 L r) a + S1x1x1x64x64.size a ≤ S8x96x2x64x64.size a) : Memref sig .scVector .hbm S64x64 .f32 :=
  ((aV : Memref sig .scVector .hbm S8x96x2x64x64 .f32).slice (Rect.unit (s := S8x96x2x64x64) (k0_off2 L r) S1x1x1x64x64.size inb) (fun _ => rfl)).squeeze S64x64 squeezes_S1x1x1x64x64_S64x64

theorem srcB_emb (L : grid0.Coords) (k : Fin 24) (r : BitVec 32) (hr : r = BitVec.ofNat 32 k.val) (inb) (h w : Fin 64) :
    (srcB L r inb).view.emb (ix2 h w) = (ix5 (nF L) (pF L k) (0 : Fin 2) h w : S8x96x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix2_111ab]
  have e := k0_off1_eq' L k r hr
  match a with
  | ⟨0, _⟩ => show (k0_off1 L r) (⟨0, by decide⟩ : Fin 5) + 1 * 0 = wid L / 4; rw [e]; rfl
  | ⟨1, _⟩ => show (k0_off1 L r) (⟨1, by decide⟩ : Fin 5) + 1 * 0 = (wid L % 4) * 24 + k.val; rw [e]; rfl
  | ⟨2, _⟩ => show (k0_off1 L r) (⟨2, by decide⟩ : Fin 5) + 1 * 0 = 0; rw [e]; rfl
  | ⟨3, _⟩ => show (k0_off1 L r) (⟨3, by decide⟩ : Fin 5) + 1 * h.val = h.val; rw [e]; show 0 + 1 * h.val = h.val; omega
  | ⟨4, _⟩ => show (k0_off1 L r) (⟨4, by decide⟩ : Fin 5) + 1 * w.val = w.val; rw [e]; show 0 + 1 * w.val = w.val; omega

theorem srcA_emb (L : grid0.Coords) (k : Fin 24) (r : BitVec 32) (hr : r = BitVec.ofNat 32 k.val) (inb) (h w : Fin 64) :
    (srcA L r inb).view.emb (ix2 h w) = (ix5 (nF L) (pF L k) (1 : Fin 2) h w : S8x96x2x64x64.Idx) := by
  funext a; apply Fin.ext
  simp only [Memref.view_squeeze, Memref.view_slice, Memref.view_whole, View.emb_reshape, View.emb_slice,
    Function.Embedding.trans_apply, Equiv.coe_toEmbedding]
  rw [reshapeEquiv_ix2_111ab]
  have e := k0_off2_eq' L k r hr
  match a with
  | ⟨0, _⟩ => show (k0_off2 L r) (⟨0, by decide⟩ : Fin 5) + 1 * 0 = wid L / 4; rw [e]; rfl
  | ⟨1, _⟩ => show (k0_off2 L r) (⟨1, by decide⟩ : Fin 5) + 1 * 0 = (wid L % 4) * 24 + k.val; rw [e]; rfl
  | ⟨2, _⟩ => show (k0_off2 L r) (⟨2, by decide⟩ : Fin 5) + 1 * 0 = 1; rw [e]; rfl
  | ⟨3, _⟩ => show (k0_off2 L r) (⟨3, by decide⟩ : Fin 5) + 1 * h.val = h.val; rw [e]; show 0 + 1 * h.val = h.val; omega
  | ⟨4, _⟩ => show (k0_off2 L r) (⟨4, by decide⟩ : Fin 5) + 1 * w.val = w.val; rw [e]; show 0 + 1 * w.val = w.val; omega

/-- Element (e, h, w) of result slice `k` is element (n, 2p + e, h, w) of the result. -/
theorem oSl_emb_val (L : grid0.Coords) (k : Fin 24) (e : Fin 2) (h w : Fin 64) :
    (((oSl L k).view.emb (ix3 e h w)) (⟨0, by decide⟩ : Fin 4)).val = wid L / 4
    ∧ (((oSl L k).view.emb (ix3 e h w)) (⟨1, by decide⟩ : Fin 4)).val = 2 * ((wid L % 4) * 24 + k.val) + e.val
    ∧ (((oSl L k).view.emb (ix3 e h w)) (⟨2, by decide⟩ : Fin 4)).val = h.val
    ∧ (((oSl L k).view.emb (ix3 e h w)) (⟨3, by decide⟩ : Fin 4)).val = w.val := by
  simp only [Memref.view_squeeze, Memref.view_slice, Memref.view_whole, View.emb_reshape, View.emb_slice,
    Function.Embedding.trans_apply, Equiv.coe_toEmbedding]
  rw [reshapeEquiv_ix3_1abc]
  have e3 := k0_off3_eq L k
  refine ⟨?_, ?_, ?_, ?_⟩
  · show (k0_off3 L (BitVec.ofNat 32 k.val)) (⟨0, by decide⟩ : Fin 4) + 1 * 0 = wid L / 4; rw [e3]; rfl
  · show (k0_off3 L (BitVec.ofNat 32 k.val)) (⟨1, by decide⟩ : Fin 4) + 1 * e.val = _; rw [e3]
    show 2 * ((wid L % 4) * 24 + k.val) + 1 * e.val = _; omega
  · show (k0_off3 L (BitVec.ofNat 32 k.val)) (⟨2, by decide⟩ : Fin 4) + 1 * h.val = h.val; rw [e3]; show 0 + 1 * h.val = h.val; omega
  · show (k0_off3 L (BitVec.ofNat 32 k.val)) (⟨3, by decide⟩ : Fin 4) + 1 * w.val = w.val; rw [e3]; show 0 + 1 * w.val = w.val; omega

/-- What the outbound copy of chunk `k` carries: the slot read whole, its half 0 the image of `B`, its half 1 the image of `A`. -/
theorem pay_value (L : grid0.Coords) (k : Fin 24) (s : ℕ) (hs : s < 6) (r : BitVec 32) (hr : r = BitVec.ofNat 32 k.val)
    (inb1 : ∀ a, (k0_off1 L r) a + S1x1x1x64x64.size a ≤ S8x96x2x64x64.size a) (inb2 : ∀ a, (k0_off2 L r) a + S1x1x1x64x64.size a ≤ S8x96x2x64x64.size a)
    (A B : S8x96x2x64x64.Idx → α .f32) (nest : (sB : Memref sig .scVector .vmem S6x2x64x64 .f32).view.ty.Contents α)
    (hB : Holds nest s 0 hs (by decide) (ReadAs.same.apply (View.read α (srcB L r inb1).view B)))
    (hA : Holds nest s 1 hs (by decide) (ReadAs.same.apply (View.read α (srcA L r inb2).view A)))
    (e : Fin 2) (h w : Fin 64) :
    (ReadAs.same.apply (View.read α (sM s hs).view nest)) (ix3 e h w)
      = if e.val = 0 then B (ix5 (nF L) (pF L k) (0 : Fin 2) h w) else A (ix5 (nF L) (pF L k) (1 : Fin 2) h w) := by
  have hr0 : (ReadAs.same.apply (View.read α (sM s hs).view nest)) (ix3 e h w) = nest ((sM s hs).view.emb (ix3 e h w)) := rfl
  rw [hr0, Holds.read_slot hB hA e h w]
  have eB : (ReadAs.same.apply (View.read α (srcB L r inb1).view B)) (ix2 h w) = B (ix5 (nF L) (pF L k) (0 : Fin 2) h w) :=
    (show _ = B ((srcB L r inb1).view.emb (ix2 h w)) from rfl).trans (congrArg B (srcB_emb L k r hr inb1 h w))
  have eA : (ReadAs.same.apply (View.read α (srcA L r inb2).view A)) (ix2 h w) = A (ix5 (nF L) (pF L k) (1 : Fin 2) h w) :=
    (show _ = A ((srcA L r inb2).view.emb (ix2 h w)) from rfl).trans (congrArg A (srcA_emb L k r hr inb2 h w))
  rw [eB, eA]

/-- A result slice written whole with a payload whose element (e, h, w) is image-pair member `e` of pair `p` —
    of `B` for `e = 0`, of `A` for `e = 1` — is the first result `G1 A B` on the slice's elements. -/
theorem chunk_value (L : grid0.Coords) (k : Fin 24) (f0 : (oSl L k).view.ty.Contents α)
    (A B : S8x96x2x64x64.Idx → α .f32) (pay : S2x64x64.Idx → α .f32)
    (hpay : ∀ (e : Fin 2) (h w : Fin 64), pay (ix3 e h w) = if e.val = 0 then B (ix5 (nF L) (pF L k) (0 : Fin 2) h w) else A (ix5 (nF L) (pF L k) (1 : Fin 2) h w)) :
    ∀ i ∈ (oSl L k).view.set, ((oSl L k).view.writes α f0 [⟨Rect.whole S2x64x64, pay⟩]) i = G1 A B i := by
  intro i hi
  obtain ⟨y, -, rfl⟩ := Finset.mem_map.mp hi
  obtain ⟨e, h, w, rfl⟩ : ∃ (e : Fin 2) (h w : Fin 64), y = ix3 e h w := ⟨y 0, y 1, y 2, eq_ix3 y⟩
  have hw := View.read_writes_cons_emb (oSl L k).view f0 (Rect.whole S2x64x64) pay [] (ix3 e h w)
  rw [Rect.emb_whole_apply] at hw
  have hL : ((oSl L k).view.writes α f0 [⟨Rect.whole S2x64x64, pay⟩]) ((oSl L k).view.emb (ix3 e h w)) = pay (ix3 e h w) := hw
  rw [hL, hpay e h w, G1_apply]
  obtain ⟨c0, c1, c2, c3⟩ := oSl_emb_val L k e h w
  have hpair0 : pairIdx ((oSl L k).view.emb (ix3 e h w)) 0 = ix5 (nF L) (pF L k) (0 : Fin 2) h w := by
    funext a; apply Fin.ext
    match a with
    | ⟨0, _⟩ => exact c0
    | ⟨1, _⟩ => show (((oSl L k).view.emb (ix3 e h w)) (⟨1, by decide⟩ : Fin 4)).val / 2 = (wid L % 4) * 24 + k.val; rw [c1]; have := e.isLt; omega
    | ⟨2, _⟩ => rfl
    | ⟨3, _⟩ => exact c2
    | ⟨4, _⟩ => exact c3
  have hpair1 : pairIdx ((oSl L k).view.emb (ix3 e h w)) 1 = ix5 (nF L) (pF L k) (1 : Fin 2) h w := by
    funext a; apply Fin.ext
    match a with
    | ⟨0, _⟩ => exact c0
    | ⟨1, _⟩ => show (((oSl L k).view.emb (ix3 e h w)) (⟨1, by decide⟩ : Fin 4)).val / 2 = (wid L % 4) * 24 + k.val; rw [c1]; have := e.isLt; omega
    | ⟨2, _⟩ => rfl
    | ⟨3, _⟩ => exact c2
    | ⟨4, _⟩ => exact c3
  have hpar : ((((oSl L k).view.emb (ix3 e h w)) (1 : Fin 4)).val % 2 = 0) ↔ (e.val = 0) := by
    show ((((oSl L k).view.emb (ix3 e h w)) (⟨1, by decide⟩ : Fin 4)).val % 2 = 0) ↔ _
    rw [c1]; have := e.isLt; omega
  by_cases he : e.val = 0
  · rw [if_pos he, if_pos (hpar.mpr he), hpair0]
  · rw [if_neg he, if_neg (fun hh => he (hpar.mp hh)), hpair1]

end Cert.Proof.KB
end
-- ==== Proof.TileBodyB.lean ====
/-
  One tile's task, run once at a symbolic grid point.

  The tile holds: a read share of each reshaped input, cut into six tokens (one per inbound DMA semaphore, so
  that six inbound copies can read the array at once); its 24 result slices, each by exactly its own elements;
  its scratch ring whole; its twelve DMA semaphores at zero.  The two inbound copies of a chunk complete on
  ONE semaphore: both are started, both are waited for, and only then is the slot read by the outbound copy —
  a batch of two, whose second wait is the one that knows both have landed.  A slot is refilled only after its
  outbound copy has been waited for.  So no copy's source or destination is touched while the copy is in flight,
  and the run below is a straight sequence of issues and waits.

  What comes back: the tokens, the semaphores at zero, the scratch at whatever it holds, and every result
  slice at the ONE function `G1 A B` of the reshaped inputs — the slot copied out for chunk `k` holds in its
  half 0 the image (n, p, 0) of `B` and in its half 1 the image (n, p, 1) of `A`, found in the ring by walking
  the later writes to other halves back to the two writes of chunk `k` (`SlotValue`).  The tile's waits are all
  on its own semaphores, at the level below everything it owes the launch.
-/
import proofs.«204280_g3796751090005_cont_sun_c4_229_23_alg».proof.Proof.SlotValueB
import proofs.«204280_g3796751090005_cont_sun_c4_229_23_alg».proof.Proof.Gen.Kernel.Skeleton

set_option maxHeartbeats 2000000

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Waits recorded at the tile's own level leave the recorded set within "old, or at that level". -/
theorem okW_base (W : Waits sig (HIx 1)) : ∀ p ∈ W, p ∈ W ∨ p.2 = (none : HIx 1) := fun _ hp => .inl hp
theorem okW_ins {W W' : Waits sig (HIx 1)} (sm : SemLoc sig) (h : ∀ p ∈ W', p ∈ W ∨ p.2 = (none : HIx 1)) :
    ∀ p ∈ insert (sm, (default : HIx 1)) W', p ∈ W ∨ p.2 = (none : HIx 1) := by
  intro p hp
  rcases Finset.mem_insert.mp hp with rfl | hp
  · exact .inr rfl
  · exact h p hp

variable [FloatOps F] (d : Dev nD) (L : grid0.Coords)

theorem tile_exec [∀ e, Nonempty (Elt F e)] (qa qb : PosShare TreeShare)
    (A : Buf (Elt F) ((aV).view.loc (thrL d L))) (B : Buf (Elt F) ((bV).view.loc (thrL d L)))
    (f0 : Buf (Elt F) ((oV).view.loc (thrL d L))) (g : Buf (Elt F) ((sB).view.loc (thrL d L)))
    (O : CellTallies nD τ sig (HIx 1)) (W : Waits sig (HIx 1))
    (_p0 : Transfers.BatchOf (thrL d L) (SemLoc.dma (sig := sig) (0 : DmaSem sig)) 2 (windows := true))
    (_p1 : Transfers.BatchOf (thrL d L) (SemLoc.dma (sig := sig) (1 : DmaSem sig)) 2 (windows := true))
    (_p2 : Transfers.BatchOf (thrL d L) (SemLoc.dma (sig := sig) (2 : DmaSem sig)) 2 (windows := true))
    (_p3 : Transfers.BatchOf (thrL d L) (SemLoc.dma (sig := sig) (3 : DmaSem sig)) 2 (windows := true))
    (_p4 : Transfers.BatchOf (thrL d L) (SemLoc.dma (sig := sig) (4 : DmaSem sig)) 2 (windows := true))
    (_p5 : Transfers.BatchOf (thrL d L) (SemLoc.dma (sig := sig) (5 : DmaSem sig)) 2 (windows := true)) :
    (iprop(Transfers.MayWaits (thrL d L) (none : HIx 1) O
        ∗ ((aV).view.loc (thrL d L) ↦{Transfers.shareTokN qa 0} A)
        ∗ ((aV).view.loc (thrL d L) ↦{Transfers.shareTokN qa 1} A)
        ∗ ((aV).view.loc (thrL d L) ↦{Transfers.shareTokN qa 2} A)
        ∗ ((aV).view.loc (thrL d L) ↦{Transfers.shareTokN qa 3} A)
        ∗ ((aV).view.loc (thrL d L) ↦{Transfers.shareTokN qa 4} A)
        ∗ ((aV).view.loc (thrL d L) ↦{Transfers.shareTokN qa 5} A)
        ∗ ((bV).view.loc (thrL d L) ↦{Transfers.shareTokN qb 0} B)
        ∗ ((bV).view.loc (thrL d L) ↦{Transfers.shareTokN qb 1} B)
        ∗ ((bV).view.loc (thrL d L) ↦{Transfers.shareTokN qb 2} B)
        ∗ ((bV).view.loc (thrL d L) ↦{Transfers.shareTokN qb 3} B)
        ∗ ((bV).view.loc (thrL d L) ↦{Transfers.shareTokN qb 4} B)
        ∗ ((bV).view.loc (thrL d L) ↦{Transfers.shareTokN qb 5} B)
        ∗ ((oSl L 0).view.loc (thrL d L) ↦[(oSl L 0).view.set]{fullShare} f0)
        ∗ ((oSl L 1).view.loc (thrL d L) ↦[(oSl L 1).view.set]{fullShare} f0)
        ∗ ((oSl L 2).view.loc (thrL d L) ↦[(oSl L 2).view.set]{fullShare} f0)
        ∗ ((oSl L 3).view.loc (thrL d L) ↦[(oSl L 3).view.set]{fullShare} f0)
        ∗ ((oSl L 4).view.loc (thrL d L) ↦[(oSl L 4).view.set]{fullShare} f0)
        ∗ ((oSl L 5).view.loc (thrL d L) ↦[(oSl L 5).view.set]{fullShare} f0)
        ∗ ((oSl L 6).view.loc (thrL d L) ↦[(oSl L 6).view.set]{fullShare} f0)
        ∗ ((oSl L 7).view.loc (thrL d L) ↦[(oSl L 7).view.set]{fullShare} f0)
        ∗ ((oSl L 8).view.loc (thrL d L) ↦[(oSl L 8).view.set]{fullShare} f0)
        ∗ ((oSl L 9).view.loc (thrL d L) ↦[(oSl L 9).view.set]{fullShare} f0)
        ∗ ((oSl L 10).view.loc (thrL d L) ↦[(oSl L 10).view.set]{fullShare} f0)
        ∗ ((oSl L 11).view.loc (thrL d L) ↦[(oSl L 11).view.set]{fullShare} f0)
        ∗ ((oSl L 12).view.loc (thrL d L) ↦[(oSl L 12).view.set]{fullShare} f0)
        ∗ ((oSl L 13).view.loc (thrL d L) ↦[(oSl L 13).view.set]{fullShare} f0)
        ∗ ((oSl L 14).view.loc (thrL d L) ↦[(oSl L 14).view.set]{fullShare} f0)
        ∗ ((oSl L 15).view.loc (thrL d L) ↦[(oSl L 15).view.set]{fullShare} f0)
        ∗ ((oSl L 16).view.loc (thrL d L) ↦[(oSl L 16).view.set]{fullShare} f0)
        ∗ ((oSl L 17).view.loc (thrL d L) ↦[(oSl L 17).view.set]{fullShare} f0)
        ∗ ((oSl L 18).view.loc (thrL d L) ↦[(oSl L 18).view.set]{fullShare} f0)
        ∗ ((oSl L 19).view.loc (thrL d L) ↦[(oSl L 19).view.set]{fullShare} f0)
        ∗ ((oSl L 20).view.loc (thrL d L) ↦[(oSl L 20).view.set]{fullShare} f0)
        ∗ ((oSl L 21).view.loc (thrL d L) ↦[(oSl L 21).view.set]{fullShare} f0)
        ∗ ((oSl L 22).view.loc (thrL d L) ↦[(oSl L 22).view.set]{fullShare} f0)
        ∗ ((oSl L 23).view.loc (thrL d L) ↦[(oSl L 23).view.set]{fullShare} f0)
        ∗ ((sB).view.loc (thrL d L) ↦{fullShare} g)
        ∗ semVal (cellIn d L 0) 0
        ∗ semVal (cellIn d L 1) 0
        ∗ semVal (cellIn d L 2) 0
        ∗ semVal (cellIn d L 3) 0
        ∗ semVal (cellIn d L 4) 0
        ∗ semVal (cellIn d L 5) 0
        ∗ semVal (cellIn d L 6) 0
        ∗ semVal (cellIn d L 7) 0
        ∗ semVal (cellIn d L 8) 0
        ∗ semVal (cellIn d L 9) 0
        ∗ semVal (cellIn d L 10) 0
        ∗ semVal (cellIn d L 11) 0
        ∗ owes (thrL d L) O W) : sProp 𝕄)
      ⊢ wp frame (wpE (defs₀ (F := F)) 𝒱₀ (thrL d L) none) Set.univ
          (cc0_sc_out1 L aV (Memref.isWhole_whole _) bV (Memref.isWhole_whole _) oV (Memref.isWhole_whole _) sB (Memref.isWhole_whole _) cc0_scratch1 cc0_scratch2)
          fun _ => iprop(
            (∃ g', (sB).view.loc (thrL d L) ↦{fullShare} g')
            ∗ (∃ W', ⌜∀ p ∈ W', p ∈ W ∨ p.2 = (none : HIx 1)⌝ ∗ owes (thrL d L) O W')
            ∗ semVal (cellIn d L 0) 0
            ∗ semVal (cellIn d L 1) 0
            ∗ semVal (cellIn d L 2) 0
            ∗ semVal (cellIn d L 3) 0
            ∗ semVal (cellIn d L 4) 0
            ∗ semVal (cellIn d L 5) 0
            ∗ semVal (cellIn d L 6) 0
            ∗ semVal (cellIn d L 7) 0
            ∗ semVal (cellIn d L 8) 0
            ∗ semVal (cellIn d L 9) 0
            ∗ semVal (cellIn d L 10) 0
            ∗ semVal (cellIn d L 11) 0
            ∗ ((aV).view.loc (thrL d L) ↦{Transfers.shareTokN qa 0} A)
            ∗ ((aV).view.loc (thrL d L) ↦{Transfers.shareTokN qa 1} A)
            ∗ ((aV).view.loc (thrL d L) ↦{Transfers.shareTokN qa 2} A)
            ∗ ((aV).view.loc (thrL d L) ↦{Transfers.shareTokN qa 3} A)
            ∗ ((aV).view.loc (thrL d L) ↦{Transfers.shareTokN qa 4} A)
            ∗ ((aV).view.loc (thrL d L) ↦{Transfers.shareTokN qa 5} A)
            ∗ ((bV).view.loc (thrL d L) ↦{Transfers.shareTokN qb 0} B)
            ∗ ((bV).view.loc (thrL d L) ↦{Transfers.shareTokN qb 1} B)
            ∗ ((bV).view.loc (thrL d L) ↦{Transfers.shareTokN qb 2} B)
            ∗ ((bV).view.loc (thrL d L) ↦{Transfers.shareTokN qb 3} B)
            ∗ ((bV).view.loc (thrL d L) ↦{Transfers.shareTokN qb 4} B)
            ∗ ((bV).view.loc (thrL d L) ↦{Transfers.shareTokN qb 5} B)
            ∗ ((oSl L 0).view.loc (thrL d L) ↦[(oSl L 0).view.set]{fullShare} G1 A B)
            ∗ ((oSl L 1).view.loc (thrL d L) ↦[(oSl L 1).view.set]{fullShare} G1 A B)
            ∗ ((oSl L 2).view.loc (thrL d L) ↦[(oSl L 2).view.set]{fullShare} G1 A B)
            ∗ ((oSl L 3).view.loc (thrL d L) ↦[(oSl L 3).view.set]{fullShare} G1 A B)
            ∗ ((oSl L 4).view.loc (thrL d L) ↦[(oSl L 4).view.set]{fullShare} G1 A B)
            ∗ ((oSl L 5).view.loc (thrL d L) ↦[(oSl L 5).view.set]{fullShare} G1 A B)
            ∗ ((oSl L 6).view.loc (thrL d L) ↦[(oSl L 6).view.set]{fullShare} G1 A B)
            ∗ ((oSl L 7).view.loc (thrL d L) ↦[(oSl L 7).view.set]{fullShare} G1 A B)
            ∗ ((oSl L 8).view.loc (thrL d L) ↦[(oSl L 8).view.set]{fullShare} G1 A B)
            ∗ ((oSl L 9).view.loc (thrL d L) ↦[(oSl L 9).view.set]{fullShare} G1 A B)
            ∗ ((oSl L 10).view.loc (thrL d L) ↦[(oSl L 10).view.set]{fullShare} G1 A B)
            ∗ ((oSl L 11).view.loc (thrL d L) ↦[(oSl L 11).view.set]{fullShare} G1 A B)
            ∗ ((oSl L 12).view.loc (thrL d L) ↦[(oSl L 12).view.set]{fullShare} G1 A B)
            ∗ ((oSl L 13).view.loc (thrL d L) ↦[(oSl L 13).view.set]{fullShare} G1 A B)
            ∗ ((oSl L 14).view.loc (thrL d L) ↦[(oSl L 14).view.set]{fullShare} G1 A B)
            ∗ ((oSl L 15).view.loc (thrL d L) ↦[(oSl L 15).view.set]{fullShare} G1 A B)
            ∗ ((oSl L 16).view.loc (thrL d L) ↦[(oSl L 16).view.set]{fullShare} G1 A B)
            ∗ ((oSl L 17).view.loc (thrL d L) ↦[(oSl L 17).view.set]{fullShare} G1 A B)
            ∗ ((oSl L 18).view.loc (thrL d L) ↦[(oSl L 18).view.set]{fullShare} G1 A B)
            ∗ ((oSl L 19).view.loc (thrL d L) ↦[(oSl L 19).view.set]{fullShare} G1 A B)
            ∗ ((oSl L 20).view.loc (thrL d L) ↦[(oSl L 20).view.set]{fullShare} G1 A B)
            ∗ ((oSl L 21).view.loc (thrL d L) ↦[(oSl L 21).view.set]{fullShare} G1 A B)
            ∗ ((oSl L 22).view.loc (thrL d L) ↦[(oSl L 22).view.set]{fullShare} G1 A B)
            ∗ ((oSl L 23).view.loc (thrL d L) ↦[(oSl L 23).view.set]{fullShare} G1 A B)) := by
  iintro ⟨Hmw, HA0, HA1, HA2, HA3, HA4, HA5, HB0, HB1, HB2, HB3, HB4, HB5, HO0, HO1, HO2, HO3, HO4, HO5, HO6, HO7, HO8, HO9, HO10, HO11, HO12, HO13, HO14, HO15, HO16, HO17, HO18, HO19, HO20, HO21, HO22, HO23, Hs, Hc0, Hc1, Hc2, Hc3, Hc4, Hc5, Hc6, Hc7, Hc8, Hc9, Hc10, Hc11, HO⟩
  sl_unfold [cc0_sc_out1]
  sl_exec
  sl_step
  isplitl [Hs]; · iexists _; iexact Hs
  isplitl [HO]
  · iexists _; isplitr
    on_goal 2 => iexact HO
    ipureintro; repeat (first | exact okW_base W | refine okW_ins _ ?_)
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [HA0]; · iexact HA0
  isplitl [HA1]; · iexact HA1
  isplitl [HA2]; · iexact HA2
  isplitl [HA3]; · iexact HA3
  isplitl [HA4]; · iexact HA4
  isplitl [HA5]; · iexact HA5
  isplitl [HB0]; · iexact HB0
  isplitl [HB1]; · iexact HB1
  isplitl [HB2]; · iexact HB2
  isplitl [HB3]; · iexact HB3
  isplitl [HB4]; · iexact HB4
  isplitl [HB5]; · iexact HB5
  isplitl [HO0]
  · iapply (Entails.of_eq (pointsTo_congr ?hv0))
    all_goals first | iexact HO0 | skip
    refine chunk_value L 0 _ A B _ ?_
    intro e h w
    refine pay_value L 0 0 (by decide) 0#32 rfl (k0_off1_inb L 0) (k0_off2_inb L 0) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO1]
  · iapply (Entails.of_eq (pointsTo_congr ?hv1))
    all_goals first | iexact HO1 | skip
    refine chunk_value L 1 _ A B _ ?_
    intro e h w
    refine pay_value L 1 1 (by decide) 1#32 rfl (k0_off1_inb L 1) (k0_off2_inb L 1) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO2]
  · iapply (Entails.of_eq (pointsTo_congr ?hv2))
    all_goals first | iexact HO2 | skip
    refine chunk_value L 2 _ A B _ ?_
    intro e h w
    refine pay_value L 2 2 (by decide) 2#32 rfl (k0_off1_inb L 2) (k0_off2_inb L 2) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO3]
  · iapply (Entails.of_eq (pointsTo_congr ?hv3))
    all_goals first | iexact HO3 | skip
    refine chunk_value L 3 _ A B _ ?_
    intro e h w
    refine pay_value L 3 3 (by decide) 3#32 rfl (k0_off1_inb L 3) (k0_off2_inb L 3) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO4]
  · iapply (Entails.of_eq (pointsTo_congr ?hv4))
    all_goals first | iexact HO4 | skip
    refine chunk_value L 4 _ A B _ ?_
    intro e h w
    refine pay_value L 4 4 (by decide) 4#32 rfl (k0_off1_inb L 4) (k0_off2_inb L 4) A B _ ?_ ?_ e h w
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      exact Holds.hit _ 4 1 (by decide) (by decide) _
  isplitl [HO5]
  · iapply (Entails.of_eq (pointsTo_congr ?hv5))
    all_goals first | iexact HO5 | skip
    refine chunk_value L 5 _ A B _ ?_
    intro e h w
    refine pay_value L 5 5 (by decide) 5#32 rfl (k0_off1_inb L 5) (k0_off2_inb L 5) A B _ ?_ ?_ e h w
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      exact Holds.hit _ 5 0 (by decide) (by decide) _
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      exact Holds.hit _ 5 1 (by decide) (by decide) _
  isplitl [HO6]
  · iapply (Entails.of_eq (pointsTo_congr ?hv6))
    all_goals first | iexact HO6 | skip
    refine chunk_value L 6 _ A B _ ?_
    intro e h w
    refine pay_value L 6 0 (by decide) 6#32 rfl (k0_off1_inb L 6) (k0_off2_inb L 6) A B _ ?_ ?_ e h w
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO7]
  · iapply (Entails.of_eq (pointsTo_congr ?hv7))
    all_goals first | iexact HO7 | skip
    refine chunk_value L 7 _ A B _ ?_
    intro e h w
    refine pay_value L 7 1 (by decide) 7#32 rfl (k0_off1_inb L 7) (k0_off2_inb L 7) A B _ ?_ ?_ e h w
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO8]
  · iapply (Entails.of_eq (pointsTo_congr ?hv8))
    all_goals first | iexact HO8 | skip
    refine chunk_value L 8 _ A B _ ?_
    intro e h w
    refine pay_value L 8 2 (by decide) 8#32 rfl (k0_off1_inb L 8) (k0_off2_inb L 8) A B _ ?_ ?_ e h w
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO9]
  · iapply (Entails.of_eq (pointsTo_congr ?hv9))
    all_goals first | iexact HO9 | skip
    refine chunk_value L 9 _ A B _ ?_
    intro e h w
    refine pay_value L 9 3 (by decide) 9#32 rfl (k0_off1_inb L 9) (k0_off2_inb L 9) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO10]
  · iapply (Entails.of_eq (pointsTo_congr ?hv10))
    all_goals first | iexact HO10 | skip
    refine chunk_value L 10 _ A B _ ?_
    intro e h w
    refine pay_value L 10 4 (by decide) 10#32 rfl (k0_off1_inb L 10) (k0_off2_inb L 10) A B _ ?_ ?_ e h w
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      exact Holds.hit _ 4 1 (by decide) (by decide) _
  isplitl [HO11]
  · iapply (Entails.of_eq (pointsTo_congr ?hv11))
    all_goals first | iexact HO11 | skip
    refine chunk_value L 11 _ A B _ ?_
    intro e h w
    refine pay_value L 11 5 (by decide) 11#32 rfl (k0_off1_inb L 11) (k0_off2_inb L 11) A B _ ?_ ?_ e h w
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      exact Holds.hit _ 5 0 (by decide) (by decide) _
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      exact Holds.hit _ 5 1 (by decide) (by decide) _
  isplitl [HO12]
  · iapply (Entails.of_eq (pointsTo_congr ?hv12))
    all_goals first | iexact HO12 | skip
    refine chunk_value L 12 _ A B _ ?_
    intro e h w
    refine pay_value L 12 0 (by decide) 12#32 rfl (k0_off1_inb L 12) (k0_off2_inb L 12) A B _ ?_ ?_ e h w
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO13]
  · iapply (Entails.of_eq (pointsTo_congr ?hv13))
    all_goals first | iexact HO13 | skip
    refine chunk_value L 13 _ A B _ ?_
    intro e h w
    refine pay_value L 13 1 (by decide) 13#32 rfl (k0_off1_inb L 13) (k0_off2_inb L 13) A B _ ?_ ?_ e h w
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO14]
  · iapply (Entails.of_eq (pointsTo_congr ?hv14))
    all_goals first | iexact HO14 | skip
    refine chunk_value L 14 _ A B _ ?_
    intro e h w
    refine pay_value L 14 2 (by decide) 14#32 rfl (k0_off1_inb L 14) (k0_off2_inb L 14) A B _ ?_ ?_ e h w
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO15]
  · iapply (Entails.of_eq (pointsTo_congr ?hv15))
    all_goals first | iexact HO15 | skip
    refine chunk_value L 15 _ A B _ ?_
    intro e h w
    refine pay_value L 15 3 (by decide) 15#32 rfl (k0_off1_inb L 15) (k0_off2_inb L 15) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO16]
  · iapply (Entails.of_eq (pointsTo_congr ?hv16))
    all_goals first | iexact HO16 | skip
    refine chunk_value L 16 _ A B _ ?_
    intro e h w
    refine pay_value L 16 4 (by decide) 16#32 rfl (k0_off1_inb L 16) (k0_off2_inb L 16) A B _ ?_ ?_ e h w
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      refine Holds.miss (s' := 5) (e' := 0) ?_ (by decide) (by decide) (by decide) _
      exact Holds.hit _ 4 1 (by decide) (by decide) _
  isplitl [HO17]
  · iapply (Entails.of_eq (pointsTo_congr ?hv17))
    all_goals first | iexact HO17 | skip
    refine chunk_value L 17 _ A B _ ?_
    intro e h w
    refine pay_value L 17 5 (by decide) 17#32 rfl (k0_off1_inb L 17) (k0_off2_inb L 17) A B _ ?_ ?_ e h w
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      refine Holds.miss (s' := 5) (e' := 1) ?_ (by decide) (by decide) (by decide) _
      exact Holds.hit _ 5 0 (by decide) (by decide) _
    ·
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      refine Holds.miss (s' := 0) (e' := 0) ?_ (by decide) (by decide) (by decide) _
      exact Holds.hit _ 5 1 (by decide) (by decide) _
  isplitl [HO18]
  · iapply (Entails.of_eq (pointsTo_congr ?hv18))
    all_goals first | iexact HO18 | skip
    refine chunk_value L 18 _ A B _ ?_
    intro e h w
    refine pay_value L 18 0 (by decide) 18#32 rfl (k0_off1_inb L 18) (k0_off2_inb L 18) A B _ ?_ ?_ e h w
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      refine Holds.miss (s' := 0) (e' := 1) ?_ (by decide) (by decide) (by decide) _
      exact Holds.hit _ 0 0 (by decide) (by decide) _
    ·
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      refine Holds.miss (s' := 1) (e' := 0) ?_ (by decide) (by decide) (by decide) _
      exact Holds.hit _ 0 1 (by decide) (by decide) _
  isplitl [HO19]
  · iapply (Entails.of_eq (pointsTo_congr ?hv19))
    all_goals first | iexact HO19 | skip
    refine chunk_value L 19 _ A B _ ?_
    intro e h w
    refine pay_value L 19 1 (by decide) 19#32 rfl (k0_off1_inb L 19) (k0_off2_inb L 19) A B _ ?_ ?_ e h w
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      refine Holds.miss (s' := 1) (e' := 1) ?_ (by decide) (by decide) (by decide) _
      exact Holds.hit _ 1 0 (by decide) (by decide) _
    ·
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      refine Holds.miss (s' := 2) (e' := 0) ?_ (by decide) (by decide) (by decide) _
      exact Holds.hit _ 1 1 (by decide) (by decide) _
  isplitl [HO20]
  · iapply (Entails.of_eq (pointsTo_congr ?hv20))
    all_goals first | iexact HO20 | skip
    refine chunk_value L 20 _ A B _ ?_
    intro e h w
    refine pay_value L 20 2 (by decide) 20#32 rfl (k0_off1_inb L 20) (k0_off2_inb L 20) A B _ ?_ ?_ e h w
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      refine Holds.miss (s' := 2) (e' := 1) ?_ (by decide) (by decide) (by decide) _
      exact Holds.hit _ 2 0 (by decide) (by decide) _
    ·
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      refine Holds.miss (s' := 3) (e' := 0) ?_ (by decide) (by decide) (by decide) _
      exact Holds.hit _ 2 1 (by decide) (by decide) _
  isplitl [HO21]
  · iapply (Entails.of_eq (pointsTo_congr ?hv21))
    all_goals first | iexact HO21 | skip
    refine chunk_value L 21 _ A B _ ?_
    intro e h w
    refine pay_value L 21 3 (by decide) 21#32 rfl (k0_off1_inb L 21) (k0_off2_inb L 21) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      refine Holds.miss (s' := 3) (e' := 1) ?_ (by decide) (by decide) (by decide) _
      exact Holds.hit _ 3 0 (by decide) (by decide) _
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      refine Holds.miss (s' := 4) (e' := 0) ?_ (by decide) (by decide) (by decide) _
      exact Holds.hit _ 3 1 (by decide) (by decide) _
  isplitl [HO22]
  · iapply (Entails.of_eq (pointsTo_congr ?hv22))
    all_goals first | iexact HO22 | skip
    refine chunk_value L 22 _ A B _ ?_
    intro e h w
    refine pay_value L 22 4 (by decide) 22#32 rfl (k0_off1_inb L 22) (k0_off2_inb L 22) A B _ ?_ ?_ e h w
    ·
      refine Holds.miss (s' := 5) (e' := 1) ?_ (by decide) (by decide) (by decide) _
      refine Holds.miss (s' := 5) (e' := 0) ?_ (by decide) (by decide) (by decide) _
      refine Holds.miss (s' := 4) (e' := 1) ?_ (by decide) (by decide) (by decide) _
      exact Holds.hit _ 4 0 (by decide) (by decide) _
    ·
      refine Holds.miss (s' := 5) (e' := 1) ?_ (by decide) (by decide) (by decide) _
      refine Holds.miss (s' := 5) (e' := 0) ?_ (by decide) (by decide) (by decide) _
      exact Holds.hit _ 4 1 (by decide) (by decide) _
  iapply (Entails.of_eq (pointsTo_congr ?hv23))
  all_goals first | iexact HO23 | skip
  refine chunk_value L 23 _ A B _ ?_
  intro e h w
  refine pay_value L 23 5 (by decide) 23#32 rfl (k0_off1_inb L 23) (k0_off2_inb L 23) A B _ ?_ ?_ e h w
  ·
    refine Holds.miss (s' := 5) (e' := 1) ?_ (by decide) (by decide) (by decide) _
    exact Holds.hit _ 5 0 (by decide) (by decide) _
  ·
    exact Holds.hit _ 5 1 (by decide) (by decide) _

end Cert.Proof.KB

end
-- ==== Proof.TileOblB.lean ====
/-
  The tile's task as the launch theorem asks for it.

  The launch hands a tile its handshake payload (a read share of each reshaped input and its 24 result slices),
  its scoped buffers (among them the scratch ring) and its scoped semaphores at zero (among them the twelve DMA
  semaphores the kernel uses).  This module takes out what the kernel's run holds — the share cut into six
  tokens with a remainder kept aside, the slices one by one, the scratch, the twelve semaphores —, runs the
  task (`tile_exec`), and puts everything back: the tokens rejoin the share, the slices come back at the result
  function, the scratch and the semaphores rejoin what was left of the tile's scoped storage.
-/
import proofs.«204280_g3796751090005_cont_sun_c4_229_23_alg».proof.Proof.TileBodyB
import proofs.«204280_g3796751090005_cont_sun_c4_229_23_alg».proof.Proof.PayB
import proofs.«204280_g3796751090005_cont_sun_c4_229_23_alg».proof.Proof.Chains

set_option maxHeartbeats 1000000

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chains

variable {F : FTy → Type}

local notation "𝕄" => MT nD τ sig (HIx 1) (Elt F) ℕ UU ℕ

/-! ## The kernel's twelve semaphores among the tile's scoped ones -/

def cells12 (d : Dev nD) (L : grid0.Coords) : Finset (GSem nD τ sig) :=
  Finset.univ.image fun j : Fin 12 => cellIn d L (j.castLE (by decide))

theorem cells12_inj (d : Dev nD) (L : grid0.Coords) :
    Set.InjOn (fun j : Fin 12 => cellIn d L (j.castLE (by decide))) ((Finset.univ : Finset (Fin 12)) : Set (Fin 12)) := by
  intro a _ b _ e
  have h2 : (SemLoc.dma ((a.castLE (by decide) : Fin 18) : DmaSem sig) : SemLoc sig) = SemLoc.dma ((b.castLE (by decide) : Fin 18) : DmaSem sig) := (Prod.mk.inj e).2
  have h3 : (a.castLE (by decide) : Fin 18) = b.castLE (by decide) := SemLoc.dma.inj h2
  exact Fin.ext (by have := congrArg Fin.val h3; simpa using this)

theorem cells12_sub (d : Dev nD) (L : grid0.Coords) : cells12 d L ⊆ ownCells (thrL d L) := by
  intro g hg
  obtain ⟨j, -, rfl⟩ := Finset.mem_image.mp hg
  exact mem_ownCells.mpr ⟨rfl, rfl⟩

theorem ownSems0_tile (d : Dev nD) (L : grid0.Coords) :
    (ownSems0 (thrL d L) : sProp 𝕄)
      = iprop((semVal (cellIn d L 0) 0 ∗ semVal (cellIn d L 1) 0 ∗ semVal (cellIn d L 2) 0 ∗ semVal (cellIn d L 3) 0 ∗ semVal (cellIn d L 4) 0 ∗ semVal (cellIn d L 5) 0 ∗ semVal (cellIn d L 6) 0 ∗ semVal (cellIn d L 7) 0 ∗ semVal (cellIn d L 8) 0 ∗ semVal (cellIn d L 9) 0 ∗ semVal (cellIn d L 10) 0 ∗ semVal (cellIn d L 11) 0)
          ∗ bigSep (ownCells (thrL d L) \ cells12 d L) fun g => semVal g 0) := by
  unfold SparseCore.Cfg.ownSems0
  rw [SparseCore.bigSep_sdiff_split' (cells12_sub d L)]
  have h12 : (bigSep (cells12 d L) fun g => (semVal g 0 : sProp 𝕄))
      = iprop(semVal (cellIn d L 0) 0 ∗ semVal (cellIn d L 1) 0 ∗ semVal (cellIn d L 2) 0 ∗ semVal (cellIn d L 3) 0 ∗ semVal (cellIn d L 4) 0 ∗ semVal (cellIn d L 5) 0 ∗ semVal (cellIn d L 6) 0 ∗ semVal (cellIn d L 7) 0 ∗ semVal (cellIn d L 8) 0 ∗ semVal (cellIn d L 9) 0 ∗ semVal (cellIn d L 10) 0 ∗ semVal (cellIn d L 11) 0) := by
    unfold cells12
    rw [SparseCore.bigSep_image_of_injOn (cells12_inj d L)]
    exact bigSep_fin12 (fun j : Fin 12 => (semVal (cellIn d L (j.castLE (by decide))) 0 : sProp 𝕄))
  rw [h12]

/-- The scratch ring is one of the tile's own buffers. -/
theorem ownBufs_tile (d : Dev nD) (L : grid0.Coords) :
    (ownBufs (thrL d L) : sProp 𝕄)
      = iprop((∃ f, (thrL d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The task -/

variable [FloatOps F] (A B : (d : Dev nD) → Buf (Elt F) (aLoc d)) (f0 : (d : Dev nD) → Buf (Elt F) (o1Loc d))

theorem tile_body [∀ e, Nonempty (Elt F e)] (hF : (K (F := F)).Facts) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP A B f0 d c i
        ∗ scopedBufs (thrL d (coordsV c i)) ∗ scopedSems0 (thrL d (coordsV c i)) ∗ owes (thrL d (coordsV c i)) O W)
      ⊢ wp frame (wpE (defs₀ (F := F)) 𝒱₀ (thrL d (coordsV c i)) none) Set.univ
          (cc0_sc_out1 (coordsV c i) aV (Memref.isWhole_whole _) bV (Memref.isWhole_whole _) oV (Memref.isWhole_whole _) sB (Memref.isWhole_whole _) cc0_scratch1 cc0_scratch2)
          fun _ => iprop(tdP A B d c i ∗ scopedBufs (thrL d (coordsV c i)) ∗ scopedSems0 (thrL d (coordsV c i))
            ∗ ∃ W', ⌜∀ p ∈ W', p ∈ W ∨ p.2 = (none : HIx 1)⌝ ∗ owes (thrL d (coordsV c i)) O W') := by
  rw [(K (F := F)).scopedBufs_V hF d (cV (coordsV c i)) (jV (coordsV c i)),
    SparseCore.Cfg.scopedSems0_V (Val := Elt F) d (cV (coordsV c i)) (jV (coordsV c i)), ownSems0_tile, ownBufs_tile]
  iintro ⟨#Hlv, -, ⟨Ha, Hb, Hsl⟩, ⟨⟨%g, Hs⟩, Hbufs⟩, ⟨⟨Hc0, Hc1, Hc2, Hc3, Hc4, Hc5, Hc6, Hc7, Hc8, Hc9, Hc10, Hc11⟩, Hsems⟩, HO⟩
  ihave Hmw := ((K (F := F)).mayWaits_none (thr := thrL d (coordsV c i)) hO) $$ Hlv
  -- each input's share: six tokens, one per inbound semaphore, and a remainder
  ihave Ha2 := (Transfers.pointsTo_toks_split (Ix := HIx 1) (Name := ℕ) (U := UU) (Lvl := ℕ) (qT c i) 6) $$ Ha
  icases Ha2 with ⟨Har, Hat⟩
  ihave Hat2 := (Entails.of_eq (bigSep_fin6 _)) $$ Hat
  icases Hat2 with ⟨HA0, HA1, HA2, HA3, HA4, HA5⟩
  ihave Hb2 := (Transfers.pointsTo_toks_split (Ix := HIx 1) (Name := ℕ) (U := UU) (Lvl := ℕ) (qT c i) 6) $$ Hb
  icases Hb2 with ⟨Hbr, Hbt⟩
  ihave Hbt2 := (Entails.of_eq (bigSep_fin6 _)) $$ Hbt
  icases Hbt2 with ⟨HB0, HB1, HB2, HB3, HB4, HB5⟩
  -- the result slices, one by one
  ihave Hsl2 := (Entails.of_eq (bigSep_fin24 _)) $$ Hsl
  icases Hsl2 with ⟨HO0, HO1, HO2, HO3, HO4, HO5, HO6, HO7, HO8, HO9, HO10, HO11, HO12, HO13, HO14, HO15, HO16, HO17, HO18, HO19, HO20, HO21, HO22, HO23⟩
  iapply (wp_wand_r frame _ _)
  isplitl [Hmw HA0 HA1 HA2 HA3 HA4 HA5 HB0 HB1 HB2 HB3 HB4 HB5 HO0 HO1 HO2 HO3 HO4 HO5 HO6 HO7 HO8 HO9 HO10 HO11 HO12 HO13 HO14 HO15 HO16 HO17 HO18 HO19 HO20 HO21 HO22 HO23 Hs Hc0 Hc1 Hc2 Hc3 Hc4 Hc5 Hc6 Hc7 Hc8 Hc9 Hc10 Hc11 HO]
  · iapply (tile_exec d (coordsV c i) (qT c i) (qT c i) (A d) (B d) (f0 d) g O W trivial trivial trivial trivial trivial trivial)
    isplitl [Hmw]; · iexact Hmw
    isplitl [HA0]; · iexact HA0
    isplitl [HA1]; · iexact HA1
    isplitl [HA2]; · iexact HA2
    isplitl [HA3]; · iexact HA3
    isplitl [HA4]; · iexact HA4
    isplitl [HA5]; · iexact HA5
    isplitl [HB0]; · iexact HB0
    isplitl [HB1]; · iexact HB1
    isplitl [HB2]; · iexact HB2
    isplitl [HB3]; · iexact HB3
    isplitl [HB4]; · iexact HB4
    isplitl [HB5]; · iexact HB5
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HO14]; · iexact HO14
    isplitl [HO15]; · iexact HO15
    isplitl [HO16]; · iexact HO16
    isplitl [HO17]; · iexact HO17
    isplitl [HO18]; · iexact HO18
    isplitl [HO19]; · iexact HO19
    isplitl [HO20]; · iexact HO20
    isplitl [HO21]; · iexact HO21
    isplitl [HO22]; · iexact HO22
    isplitl [HO23]; · iexact HO23
    isplitl [Hs]; · iexact Hs
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexact HO
  iintro %_ Hpost
  icases Hpost with ⟨⟨%g', Hs⟩, ⟨%W', %hW', HO⟩, Hc0, Hc1, Hc2, Hc3, Hc4, Hc5, Hc6, Hc7, Hc8, Hc9, Hc10, Hc11, HA0, HA1, HA2, HA3, HA4, HA5, HB0, HB1, HB2, HB3, HB4, HB5, HV0, HV1, HV2, HV3, HV4, HV5, HV6, HV7, HV8, HV9, HV10, HV11, HV12, HV13, HV14, HV15, HV16, HV17, HV18, HV19, HV20, HV21, HV22, HV23⟩
  -- the handshake payload back
  isplitl [Har HA0 HA1 HA2 HA3 HA4 HA5 Hbr HB0 HB1 HB2 HB3 HB4 HB5 HV0 HV1 HV2 HV3 HV4 HV5 HV6 HV7 HV8 HV9 HV10 HV11 HV12 HV13 HV14 HV15 HV16 HV17 HV18 HV19 HV20 HV21 HV22 HV23]
  · isplitl [Har HA0 HA1 HA2 HA3 HA4 HA5]
    · iapply (Transfers.pointsTo_toks_join (Ix := HIx 1) (Name := ℕ) (U := UU) (Lvl := ℕ) (qT c i) 6)
      isplitl [Har]; · iexact Har
      iapply (Entails.of_eq (bigSep_fin6 _).symm)
      isplitl [HA0]; · iexact HA0
      isplitl [HA1]; · iexact HA1
      isplitl [HA2]; · iexact HA2
      isplitl [HA3]; · iexact HA3
      isplitl [HA4]; · iexact HA4
      iexact HA5
    isplitl [Hbr HB0 HB1 HB2 HB3 HB4 HB5]
    · iapply (Transfers.pointsTo_toks_join (Ix := HIx 1) (Name := ℕ) (U := UU) (Lvl := ℕ) (qT c i) 6)
      isplitl [Hbr]; · iexact Hbr
      iapply (Entails.of_eq (bigSep_fin6 _).symm)
      isplitl [HB0]; · iexact HB0
      isplitl [HB1]; · iexact HB1
      isplitl [HB2]; · iexact HB2
      isplitl [HB3]; · iexact HB3
      isplitl [HB4]; · iexact HB4
      iexact HB5
    iapply (Entails.of_eq (bigSep_fin24 _).symm)
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    isplitl [HV7]; · iexact HV7
    isplitl [HV8]; · iexact HV8
    isplitl [HV9]; · iexact HV9
    isplitl [HV10]; · iexact HV10
    isplitl [HV11]; · iexact HV11
    isplitl [HV12]; · iexact HV12
    isplitl [HV13]; · iexact HV13
    isplitl [HV14]; · iexact HV14
    isplitl [HV15]; · iexact HV15
    isplitl [HV16]; · iexact HV16
    isplitl [HV17]; · iexact HV17
    isplitl [HV18]; · iexact HV18
    isplitl [HV19]; · iexact HV19
    isplitl [HV20]; · iexact HV20
    isplitl [HV21]; · iexact HV21
    isplitl [HV22]; · iexact HV22
    iexact HV23
  -- the scoped storage back
  isplitl [Hs Hbufs]
  · isplitl [Hs]; · iexists _; iexact Hs
    iexact Hbufs
  isplitl [Hc0 Hc1 Hc2 Hc3 Hc4 Hc5 Hc6 Hc7 Hc8 Hc9 Hc10 Hc11 Hsems]
  · isplitl [Hc0 Hc1 Hc2 Hc3 Hc4 Hc5 Hc6 Hc7 Hc8 Hc9 Hc10 Hc11]
    ·
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      iexact Hc11
    iexact Hsems
  iexists W'; isplitr
  · ipureintro; exact hW'
  · iexact HO

/-! ## The launch theorem's obligation -/

theorem defs₀_vector (c : Fin τ.nSC) (s : Fin τ.nSub) :
    defs₀ (F := F) (.scVector c s) 0 ()
      = SparseCore.onTile hcore0 hsub0 (fun c s => cc0_sc_out1 (coordsV c s)
          aV (Memref.isWhole_whole _) bV (Memref.isWhole_whole _) oV (Memref.isWhole_whole _) sB (Memref.isWhole_whole _) cc0_scratch1 cc0_scratch2) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- The tile obligation of the one call. -/
theorem tileObl [∀ e, Nonempty (Elt F e)] : (K (F := F)).TileObl (D (F := F)) 𝒱 (P A B f0) v₀ 0 := by
  intro d c i O W hO _ _
  simp only [show (P A B f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body A B f0 facts d (Fin.cast nCore_zero c) (Fin.cast nSub_zero i) O W hO).trans (wp_mono frame _ _ fun _ => obl_post)

end Cert.Proof.KB

end
-- ==== Proof.lean ====
/-
  Exchanging the even channels of two arrays: the kernel and the reference agree.

  THE FUNCTION.  Two inputs x1, x2 of shape [8, 192, 64, 64] (sample, channel, row, column).  The first result is
  x1 with its even channels replaced by those of x2; the second is x2 with its even channels replaced by those
  of x1.  Nothing is computed on the elements, they are only moved, so the statement is the same for every
  reading of the floating-point values: Spec.swapEven a b is "b on even channels, a on odd ones", the first
  result is swapEven x1 x2 and the second swapEven x2 x1.

  THE REFERENCE builds the mask "the channel index is even" from an iota over the 192 channels, its remainder
  modulo 2 (the truncated remainder with the sign correction that makes it the floored one) compared with zero,
  stretches the mask over the whole shape and selects between the two inputs element by element.  RefRun lists
  its operations as one straight line, runs it, evaluates the 192 mask words once, and reads the two selects at
  an index as swapEven.

  THE KERNEL first views each input as [8, 96, 2, 64, 64]: channel c = 2p + e is member e of pair p (Values:
  the two results over the reshaped inputs; Reshape: reading the reshape at an index gives back channel c).
    The first result is written by a copying kernel on the 2 x 16 vector subcores.  Worker number
  wid = 2*subcore + core handles sample wid / 4 and the 24 channel pairs (wid mod 4)*24 + k.  For chunk k it
  copies image (n, p, 0) of the second reshaped input and image (n, p, 1) of the first into the two halves of a
  slot of a six-slot ring in its local memory — the two inbound copies of a chunk complete on one semaphore:
  both are started, both are waited for, and only then is the slot read — and copies the slot out to channels
  2p, 2p + 1 of sample n of the result; a slot is refilled only after its outbound copy has been waited for.
  Offsets puts the word-level offset computations in closed form; Split shows that the 32 x 24 output slices
  are pairwise disjoint and cover the result; SlotValue follows an image through the ring; TileBody runs one
  tile's task once at a symbolic grid point, TileObl states it as the launch asks for it, and Pay says what
  the launch handshakes carry (read shares of the inputs, the tiles' slices).
    The second result is written by a pipelined kernel on the main core over the grid 8 x 6: at (n, b) it
  stages member 0 of sixteen pairs of the first reshaped input and member 1 of the same pairs of the second,
  interleaves them along the pair axis and stores the thirty-two channels [32 b, 32 b + 32) of sample n
  (TcRegion: the forty-eight blocks tile the result, which is then the interleaving, index by index).
    Launch assembles the program's run: the two reshapes, the call of the copying kernel (shares and slices
  out to the two cores' sequencers, on to the tiles, and back), the pipelined region, and the final memory read
  against the claim: the inputs unchanged, the two results the two exchanged arrays.

  THE CLAIMS.  The kernel's run is proved once, for any reading of the float values; the frame of the printed
  kernel is that proof read at the word-level values (the modules whose names end in B are the same text over
  the other printed program), the frame of the idealized kernel the same at the ideal values.  The idealization
  rewrote nothing, so the preservation claim is trivial.  The agreement of the idealized kernel with the
  reference joins the two runs at Spec.swapEven: from memories that agree on the arguments both end with the
  same two arrays (ClaimKI, ClaimKB).
-/
import proofs.«204280_g3796751090005_cont_sun_c4_229_23_alg».proof.Defs
import proofs.«204280_g3796751090005_cont_sun_c4_229_23_alg».proof.Proof.Gen.Kernel
import proofs.«204280_g3796751090005_cont_sun_c4_229_23_alg».proof.Proof.Gen.Kernel.Skeleton
import proofs.«204280_g3796751090005_cont_sun_c4_229_23_alg».proof.Proof.Gen.Kernel.Launch
import proofs.«204280_g3796751090005_cont_sun_c4_229_23_alg».proof.Proof.Gen.Kernel.Points
import proofs.«204280_g3796751090005_cont_sun_c4_229_23_alg».proof.Proof.Gen.KernelIdeal
import proofs.«204280_g3796751090005_cont_sun_c4_229_23_alg».proof.Proof.Gen.KernelIdeal.Skeleton
import proofs.«204280_g3796751090005_cont_sun_c4_229_23_alg».proof.Proof.Gen.KernelIdeal.Launch
import proofs.«204280_g3796751090005_cont_sun_c4_229_23_alg».proof.Proof.Gen.KernelIdeal.Points
import proofs.«204280_g3796751090005_cont_sun_c4_229_23_alg».proof.Proof.Gen.ReferenceIdeal
import proofs.«204280_g3796751090005_cont_sun_c4_229_23_alg».proof.Proof.Gen.Pre_finite_inputs
import proofs.«204280_g3796751090005_cont_sun_c4_229_23_alg».proof.Proof.ClaimKI
import proofs.«204280_g3796751090005_cont_sun_c4_229_23_alg».proof.Proof.ClaimKB
import proofs.«204280_g3796751090005_cont_sun_c4_229_23_alg».proof.Proof.TileObl
import proofs.«204280_g3796751090005_cont_sun_c4_229_23_alg».proof.Proof.TileOblB

noncomputable section

namespace Cert.Proof

/-- Everything the certificate claims: the three programs run and keep their arguments, the idealization rewrote
    nothing, and the idealized kernel and the reference end with the same two arrays. -/
theorem claim : Cert.Claim :=
  ⟨Cert.Kernel.Gen.facts, Cert.KernelIdeal.Gen.facts, Cert.ReferenceIdeal.Gen.facts, Cert.Pre_finite_inputs.Gen.facts,
    Cert.Proof.KB.frame_Kernel (fun m => Cert.Proof.KB.tileObl _ _ _),
    Cert.Proof.KI.frame_KernelIdeal (fun m => Cert.Proof.KI.tileObl _ _ _),
    Cert.Proof.KI.frame_ReferenceIdeal,
    trivial,
    Cert.Proof.KI.algebraic (fun m => Cert.Proof.KI.tileObl _ _ _)⟩

end Cert.Proof

end
